-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x8 : Shape := ⟨2, ![128, 8]⟩
abbrev S8 : Shape := ⟨1, ![8]⟩
abbrev S16x16 : Shape := ⟨2, ![16, 16]⟩
abbrev S16 : Shape := ⟨1, ![16]⟩
abbrev S128x32 : Shape := ⟨2, ![128, 32]⟩
abbrev S16x32 : Shape := ⟨2, ![16, 32]⟩
abbrev S8x16 : Shape := ⟨2, ![8, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S128x32 : S_.BroadcastsInDim S128x32 (![] : Fin 0 → Fin S128x32.rank)
  reducesTo_S128x32_S_d0_1 : S128x32.ReducesTo [0, 1] S_
  bcast_S_S16x32 : S_.BroadcastsInDim S16x32 (![] : Fin 0 → Fin S16x32.rank)
  reducesTo_S16x32_S_d0_1 : S16x32.ReducesTo [0, 1] S_
  bcast_S_S8x16 : S_.BroadcastsInDim S8x16 (![] : Fin 0 → Fin S8x16.rank)
  reducesTo_S8x16_S_d0_1 : S8x16.ReducesTo [0, 1] S_

variable [Facts]

def fn_part3 {F : FTy → Type} [FloatOps F] (main_arg11 : FVec F S8 .f32) (main_arg12 : FVec F S8 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg7 : FVec F S16x32 .f32) (main_arg8 : FVec F S16 .f32) (main_arg9 : FVec F S8x16 .f32) (main_arg10 : FVec F S8 .f32) (main_arg11 : FVec F S8 .f32) (main_arg12 : FVec F S8 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S8x16 .f32 := Host.absf main_arg9
  let main_cst_16 : FVec F S_ .f32 := constant S_ .f32 0x7F800000#32
  let main_v45 : FVec F S8x16 .f32 := broadcastInDim S8x16 ![] bcast_S_S8x16 main_cst_16
  let main_v46 : IVec S8x16 1 := cmpf .olt main_v44 main_v45
  let main_c_17 : IVec S_ 1 := constantI S_ 1 1#1
  let main_v47 : IVec S_ 1 := (fun x v => Host.reduce IntOp.andi x v reducesTo_S8x16_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_v48 main_v49 main_v50

def fn_part1 {F : FTy → Type} [FloatOps F] (main_arg4 : FVec F S16x16 .f32) (main_arg5 : FVec F S16 .f32) (main_arg6 : FVec F S128x32 .f32) (main_arg7 : FVec F S16x32 .f32) (main_arg8 : FVec F S16 .f32) (main_arg9 : FVec F S8x16 .f32) (main_arg10 : FVec F S8 .f32) (main_arg11 : FVec F S8 .f32) (main_arg12 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S128x8 .f32) (main_arg3 : FVec F S8 .f32) (main_arg4 : FVec F S16x16 .f32) (main_arg5 : FVec F S16 .f32) (main_arg6 : FVec F S128x32 .f32) (main_arg7 : FVec F S16x32 .f32) (main_arg8 : FVec F S16 .f32) (main_arg9 : FVec F S8x16 .f32) (main_arg10 : FVec F S8 .f32) (main_arg11 : FVec F S8 .f32) (main_arg12 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x8 .f32 := Host.absf main_arg2
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x8 : Shape := ⟨2, ![128, 8]⟩
abbrev S8 : Shape := ⟨1, ![8]⟩
abbrev S16x16 : Shape := ⟨2, ![16, 16]⟩
abbrev S16 : Shape := ⟨1, ![16]⟩
abbrev S128x32 : Shape := ⟨2, ![128, 32]⟩
abbrev S16x32 : Shape := ⟨2, ![16, 32]⟩
abbrev S8x16 : Shape := ⟨2, ![8, 16]⟩
abbrev S_ : Shape := ⟨0, ![]⟩
abbrev S1x8 : Shape := ⟨2, ![1, 8]⟩
abbrev S1x16 : Shape := ⟨2, ![1, 16]⟩
abbrev S10000x8 : Shape := ⟨2, ![10000, 8]⟩
abbrev S10000x16 : Shape := ⟨2, ![10000, 16]⟩
abbrev S1000x128 : Shape := ⟨2, ![1000, 128]⟩
abbrev S1000x8 : Shape := ⟨2, ![1000, 8]⟩
abbrev S1000x16 : Shape := ⟨2, ![1000, 16]⟩
abbrev S1000x32 : Shape := ⟨2, ![1000, 32]⟩
abbrev S400x10000 : Shape := ⟨2, ![400, 10000]⟩
abbrev S400x8 : Shape := ⟨2, ![400, 8]⟩
abbrev S400x16 : Shape := ⟨2, ![400, 16]⟩
abbrev S400 : Shape := ⟨1, ![400]⟩
abbrev S400x1 : Shape := ⟨2, ![400, 1]⟩

abbrev nBuf : Space → Nat
  | .hbm => 31
  | .vmem => 34
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x8, .f32⟩
  | .hbm, ⟨3, _⟩ => ⟨S8, .f32⟩
  | .hbm, ⟨4, _⟩ => ⟨S16x16, .f32⟩
  | .hbm, ⟨5, _⟩ => ⟨S16, .f32⟩
  | .hbm, ⟨6, _⟩ => ⟨S128x32, .f32⟩
  | .hbm, ⟨7, _⟩ => ⟨S16x32, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S1x8, .f32⟩
  | .hbm, ⟨19, _⟩ => ⟨S1x8, .f32⟩
  | .hbm, ⟨20, _⟩ => ⟨S1x16, .f32⟩
  | .hbm, ⟨21, _⟩ => ⟨S1x8, .f32⟩
  | .hbm, ⟨22, _⟩ => ⟨S1x8, .f32⟩
  | .hbm, ⟨23, _⟩ => ⟨S1x16, .f32⟩
  | .hbm, ⟨24, _⟩ => ⟨S8x16, .f32⟩
  | .hbm, ⟨25, _⟩ => ⟨S8x16, .f32⟩
  | .hbm, ⟨26, _⟩ => ⟨S10000x8, .f32⟩
  | .hbm, ⟨27, _⟩ => ⟨S10000x16, .f32⟩
  | .hbm, ⟨28, _⟩ => ⟨S10000x8, .f32⟩
  | .hbm, ⟨29, _⟩ => ⟨S10000x16, .f32⟩
  | .hbm, ⟨30, _⟩ => ⟨S10000x16, .f32⟩
  | .local _ .vmem, ⟨0, _⟩ => ⟨S1000x128, .f32⟩
  | .local _ .vmem, ⟨1, _⟩ => ⟨S1000x128, .f32⟩
  | .local _ .vmem, ⟨2, _⟩ => ⟨S128x8, .f32⟩
  | .local _ .vmem, ⟨3, _⟩ => ⟨S128x32, .f32⟩
  | .local _ .vmem, ⟨4, _⟩ => ⟨S16x32, .f32⟩
  | .local _ .vmem, ⟨5, _⟩ => ⟨S1x16, .f32⟩
  | .local _ .vmem, ⟨6, _⟩ => ⟨S8x16, .f32⟩
  | .local _ .vmem, ⟨7, _⟩ => ⟨S1x8, .f32⟩
  | .local _ .vmem, ⟨8, _⟩ => ⟨S1x8, .f32⟩
  | .local _ .vmem, ⟨9, _⟩ => ⟨S1x8, .f32⟩
  | .local _ .vmem, ⟨10, _⟩ => ⟨S8x16, .f32⟩
  | .local _ .vmem, ⟨11, _⟩ => ⟨S1000x8, .f32⟩
  | .local _ .vmem, ⟨12, _⟩ => ⟨S1000x8, .f32⟩
  | .local _ .vmem, ⟨13, _⟩ => ⟨S1000x16, .f32⟩
  | .local _ .vmem, ⟨14, _⟩ => ⟨S1000x16, .f32⟩
  | .local _ .vmem, ⟨15, _⟩ => ⟨S400x10000, .f32⟩
  | .local _ .vmem, ⟨16, _⟩ => ⟨S400x10000, .f32⟩
  | .local _ .vmem, ⟨17, _⟩ => ⟨S10000x8, .f32⟩
  | .local _ .vmem, ⟨18, _⟩ => ⟨S10000x16, .f32⟩
  | .local _ .vmem, ⟨19, _⟩ => ⟨S400x8, .f32⟩
  | .local _ .vmem, ⟨20, _⟩ => ⟨S400x8, .f32⟩
  | .local _ .vmem, ⟨21, _⟩ => ⟨S400x16, .f32⟩
  | .local _ .vmem, ⟨22, _⟩ => ⟨S400x16, .f32⟩
  | .local _ .vmem, ⟨23, _⟩ => ⟨S400x10000, .f32⟩
  | .local _ .vmem, ⟨24, _⟩ => ⟨S400x10000, .f32⟩
  | .local _ .vmem, ⟨25, _⟩ => ⟨S10000x8, .f32⟩
  | .local _ .vmem, ⟨26, _⟩ => ⟨S400x16, .f32⟩
  | .local _ .vmem, ⟨27, _⟩ => ⟨S400x16, .f32⟩
  | .local _ .vmem, ⟨28, _⟩ => ⟨S1x8, .f32⟩
  | .local _ .vmem, ⟨29, _⟩ => ⟨S1x16, .f32⟩
  | .local _ .vmem, ⟨30, _⟩ => ⟨S8x16, .f32⟩
  | .local _ .vmem, ⟨31, _⟩ => ⟨S400x16, .f32⟩
  | .local _ .vmem, ⟨32, _⟩ => ⟨S400x16, .f32⟩
  | .local _ .vmem, ⟨33, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12_0 : Ref sig .tc := ⟨.hbm, 26, rfl⟩
abbrev main_call0_v12_1 : Ref sig .tc := ⟨.hbm, 27, rfl⟩
abbrev main_call0_v13_0 : Ref sig .tc := ⟨.hbm, 28, rfl⟩
abbrev main_call0_v13_1 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S8 : S_.BroadcastsInDim S8 (![] : Fin 0 → Fin S8.rank)
  shapeCasts_S8_S1x8 : S8.ShapeCasts S1x8
  shapeCasts_S16_S1x16 : S16.ShapeCasts S1x16
  slices_S16x16_S8x16_0_0 : S16x16.Slices ![0, 0] S8x16
  slices_S16x16_S8x16_8_0 : S16x16.Slices ![8, 0] S8x16
  inb_S1000x128_S1000x128_0_0 : ∀ a, (![0, 0] : Fin 2 → Nat) a + S1000x128.size a ≤ S1000x128.size a
  h_S1000x128 : 0 < S1000x128.numel
  inb_S128x8_S128x8_0_0 : ∀ a, (![0, 0] : Fin 2 → Nat) a + S128x8.size a ≤ S128x8.size a
  h_S128x8 : 0 < S128x8.numel
  inb_S1000x8_S1000x8_0_0 : ∀ a, (![0, 0] : Fin 2 → Nat) a + S1000x8.size a ≤ S1000x8.size a
  h_S1000x8 : 0 < S1000x8.numel
  inb_S128x32_S128x32_0_0 : ∀ a, (![0, 0] : Fin 2 → Nat) a + S128x32.size a ≤ S128x32.size a
  h_S128x32 : 0 < S128x32.numel
  inb_S16x32_S16x32_0_0 : ∀ a, (![0, 0] : Fin 2 → Nat) a + S16x32.size a ≤ S16x32.size a
  h_S16x32 : 0 < S16x32.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S8x16_S8x16_0_0 : ∀ a, (![0, 0] : Fin 2 → Nat) a + S8x16.size a ≤ S8x16.size a
  h_S8x16 : 0 < S8x16.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1000x8 : S1x8.Broadcasts S1000x8
  shapeCasts_S8x16_S8x16 : S8x16.ShapeCasts S8x16
  inb_S1000x16_S1000x16_0_0 : ∀ a, (![0, 0] : Fin 2 → Nat) a + S1000x16.size a ≤ S1000x16.size a
  h_S1000x16 : 0 < S1000x16.numel
  inb_S400x10000_S400x10000_0_0 : ∀ a, (![0, 0] : Fin 2 → Nat) a + S400x10000.size a ≤ S400x10000.size a
  h_S400x10000 : 0 < S400x10000.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S400x8_S400x8_0_0 : ∀ a, (![0, 0] : Fin 2 → Nat) a + S400x8.size a ≤ S400x8.size a
  h_S400x8 : 0 < S400x8.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x16_S400x16_0_0 : ∀ a, (![0, 0] : Fin 2 → Nat) a + S400x16.size a ≤ S400x16.size a
  h_S400x16 : 0 < S400x16.numel
  broadcasts_S1x8_S10000x8 : S1x8.Broadcasts S10000x8
  shapeCasts_S400x16_S400x16 : S400x16.ShapeCasts S400x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  dot_S1000x128_S128x8_S1000x8_1_0_0_1_n_n_wf : DotDims.WF S1000x128 S128x8 S1000x8 [1] [0] [0] [1] [] []
  dot_S1000x128_S128x32_S1000x32_1_0_0_1_n_n_wf : DotDims.WF S1000x128 S128x32 S1000x32 [1] [0] [0] [1] [] []
  dot_S1000x32_S16x32_S1000x16_1_1_0_0_n_n_wf : DotDims.WF S1000x32 S16x32 S1000x16 [1] [1] [0] [0] [] []
  dot_S1000x16_S8x16_S1000x8_1_1_0_0_n_n_wf : DotDims.WF S1000x16 S8x16 S1000x8 [1] [1] [0] [0] [] []
  dot_S1000x8_S8x16_S1000x16_1_0_0_1_n_n_wf : DotDims.WF S1000x8 S8x16 S1000x16 [1] [0] [0] [1] [] []
  dot_S400x10000_S10000x8_S400x8_1_0_0_1_n_n_wf : DotDims.WF S400x10000 S10000x8 S400x8 [1] [0] [0] [1] [] []
  dot_S400x10000_S10000x16_S400x16_1_0_0_1_n_n_wf : DotDims.WF S400x10000 S10000x16 S400x16 [1] [0] [0] [1] [] []
  dot_S10000x8_S8x16_S10000x16_1_0_0_1_n_n_wf : DotDims.WF S10000x8 S8x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x16.size a ≤ S8x16.size a
  hwx0_5 : ∀ i : grid0.Coords, EltTy.bits .f32 = 32 ∨ (Rect.block (s := S8x16) S8x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x16.size a ≤ S8x16.size a
  hwx0_9 : ∀ i : grid0.Coords, EltTy.bits .f32 = 32 ∨ (Rect.block (s := S8x16) S8x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x8.size a ≤ S10000x8.size a
  hwx0_10 : ∀ i : grid0.Coords, EltTy.bits .f32 = 32 ∨ (Rect.block (s := S10000x8) S1000x8.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x16.size a ≤ S10000x16.size a
  hwx0_11 : ∀ i : grid0.Coords, EltTy.bits .f32 = 32 ∨ (Rect.block (s := S10000x16) S1000x16.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S10000x8.size a
  hwx1_1 : ∀ i : grid1.Coords, EltTy.bits .f32 = 32 ∨ (Rect.block (s := S10000x8) S10000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S10000x16.size a
  hwx1_2 : ∀ i : grid1.Coords, EltTy.bits .f32 = 32 ∨ (Rect.block (s := S10000x16) S10000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x8.size a ≤ S10000x8.size a
  hwx1_3 : ∀ i : grid1.Coords, EltTy.bits .f32 = 32 ∨ (Rect.block (s := S10000x8) S400x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x8.size a ≤ S10000x8.size a
  hwx2_1 : ∀ i : grid2.Coords, EltTy.bits .f32 = 32 ∨ (Rect.block (s := S10000x8) S10000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x16.size a ≤ S8x16.size a
  hwx2_5 : ∀ i : grid2.Coords, EltTy.bits .f32 = 32 ∨ (Rect.block (s := S8x16) S8x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x16.size a ≤ S10000x16.size a
  hwx2_6 : ∀ i : grid2.Coords, EltTy.bits .f32 = 32 ∨ (Rect.block (s := S10000x16) S400x16.size (cc2_transform_6 i) (hinb2_6 i)).WholeWords (EltTy.packing .f32)

variable [Facts₀]

def dot_S1000x128_S128x8_S1000x8_1_0_0_1_n_n : DotDims S1000x128 S128x8 S1000x8 where
  lhsContracting := [1]
  rhsContracting := [0]
  lhsNonContracting := [0]
  rhsNonContracting := [1]
  lhsBatch := []
  rhsBatch := []
  wf := dot_S1000x128_S128x8_S1000x8_1_0_0_1_n_n_wf
def dot_S1000x128_S128x32_S1000x32_1_0_0_1_n_n : DotDims S1000x128 S128x32 S1000x32 where
  lhsContracting := [1]
  rhsContracting := [0]
  lhsNonContracting := [0]
  rhsNonContracting := [1]
  lhsBatch := []
  rhsBatch := []
  wf := dot_S1000x128_S128x32_S1000x32_1_0_0_1_n_n_wf
def dot_S1000x32_S16x32_S1000x16_1_1_0_0_n_n : DotDims S1000x32 S16x32 S1000x16 where
  lhsContracting := [1]
  rhsContracting := [1]
  lhsNonContracting := [0]
  rhsNonContracting := [0]
  lhsBatch := []
  rhsBatch := []
  wf := dot_S1000x32_S16x32_S1000x16_1_1_0_0_n_n_wf
def dot_S1000x16_S8x16_S1000x8_1_1_0_0_n_n : DotDims S1000x16 S8x16 S1000x8 where
  lhsContracting := [1]
  rhsContracting := [1]
  lhsNonContracting := [0]
  rhsNonContracting := [0]
  lhsBatch := []
  rhsBatch := []
  wf := dot_S1000x16_S8x16_S1000x8_1_1_0_0_n_n_wf
def dot_S1000x8_S8x16_S1000x16_1_0_0_1_n_n : DotDims S1000x8 S8x16 S1000x16 where
  lhsContracting := [1]
  rhsContracting := [0]
  lhsNonContracting := [0]
  rhsNonContracting := [1]
  lhsBatch := []
  rhsBatch := []
  wf := dot_S1000x8_S8x16_S1000x16_1_0_0_1_n_n_wf
def dot_S400x10000_S10000x8_S400x8_1_0_0_1_n_n : DotDims S400x10000 S10000x8 S400x8 where
  lhsContracting := [1]
  rhsContracting := [0]
  lhsNonContracting := [0]
  rhsNonContracting := [1]
  lhsBatch := []
  rhsBatch := []
  wf := dot_S400x10000_S10000x8_S400x8_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S10000x8_S8x16_S10000x16_1_0_0_1_n_n : DotDims S10000x8 S8x16 S10000x16 where
  lhsContracting := [1]
  rhsContracting := [0]
  lhsNonContracting := [0]
  rhsNonContracting := [1]
  lhsBatch := []
  rhsBatch := []
  wf := dot_S10000x8_S8x16_S10000x16_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S8x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v5) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v11) S8x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v12_0) S1000x8.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_call0_v12_1) S1000x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12_0) S10000x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v12_1) S10000x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v13_0) S400x8.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v13_1) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v13_0) S10000x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v13_1) S400x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v8) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v9) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v10) S8x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v0) S400x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x8 : Shape := ⟨2, ![128, 8]⟩
abbrev S8 : Shape := ⟨1, ![8]⟩
abbrev S16x16 : Shape := ⟨2, ![16, 16]⟩
abbrev S16 : Shape := ⟨1, ![16]⟩
abbrev S128x32 : Shape := ⟨2, ![128, 32]⟩
abbrev S16x32 : Shape := ⟨2, ![16, 32]⟩
abbrev S8x16 : Shape := ⟨2, ![8, 16]⟩
abbrev S10000x8 : Shape := ⟨2, ![10000, 8]⟩
abbrev S1x8 : Shape := ⟨2, ![1, 8]⟩
abbrev S_ : Shape := ⟨0, ![]⟩
abbrev S10000x32 : Shape := ⟨2, ![10000, 32]⟩
abbrev S32x16 : Shape := ⟨2, ![32, 16]⟩
abbrev S10000x16 : Shape := ⟨2, ![10000, 16]⟩
abbrev S1x16 : Shape := ⟨2, ![1, 16]⟩
abbrev S16x8 : Shape := ⟨2, ![16, 8]⟩
abbrev S10000 : Shape := ⟨1, ![10000]⟩
abbrev S10000x1 : Shape := ⟨2, ![10000, 1]⟩

abbrev nBuf : Space → Nat
  | .hbm => 78
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x8, .f32⟩
  | .hbm, ⟨3, _⟩ => ⟨S8, .f32⟩
  | .hbm, ⟨4, _⟩ => ⟨S16x16, .f32⟩
  | .hbm, ⟨5, _⟩ => ⟨S16, .f32⟩
  | .hbm, ⟨6, _⟩ => ⟨S128x32, .f32⟩
  | .hbm, ⟨7, _⟩ => ⟨S16x32, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S10000x8, .f32⟩
  | .hbm, ⟨14, _⟩ => ⟨S10000x8, .f32⟩
  | .hbm, ⟨15, _⟩ => ⟨S1x8, .f32⟩
  | .hbm, ⟨16, _⟩ => ⟨S10000x8, .f32⟩
  | .hbm, ⟨17, _⟩ => ⟨S10000x8, .f32⟩
  | .hbm, ⟨18, _⟩ => ⟨S_, .f32⟩
  | .hbm, ⟨19, _⟩ => ⟨S10000x8, .f32⟩
  | .hbm, ⟨20, _⟩ => ⟨S10000x8, .f32⟩
  | .hbm, ⟨21, _⟩ => ⟨S10000x32, .f32⟩
  | .hbm, ⟨22, _⟩ => ⟨S10000x32, .f32⟩
  | .hbm, ⟨23, _⟩ => ⟨S10000x128, .f32⟩
  | .hbm, ⟨24, _⟩ => ⟨S128x32, .f32⟩
  | .hbm, ⟨25, _⟩ => ⟨S10000x32, .f32⟩
  | .hbm, ⟨26, _⟩ => ⟨S10000x32, .f32⟩
  | .hbm, ⟨27, _⟩ => ⟨S_, .f32⟩
  | .hbm, ⟨28, _⟩ => ⟨S10000x32, .f32⟩
  | .hbm, ⟨29, _⟩ => ⟨S10000x32, .f32⟩
  | .hbm, ⟨30, _⟩ => ⟨S32x16, .f32⟩
  | .hbm, ⟨31, _⟩ => ⟨S10000x16, .f32⟩
  | .hbm, ⟨32, _⟩ => ⟨S1x16, .f32⟩
  | .hbm, ⟨33, _⟩ => ⟨S10000x16, .f32⟩
  | .hbm, ⟨34, _⟩ => ⟨S10000x16, .f32⟩
  | .hbm, ⟨35, _⟩ => ⟨S_, .f32⟩
  | .hbm, ⟨36, _⟩ => ⟨S10000x16, .f32⟩
  | .hbm, ⟨37, _⟩ => ⟨S10000x16, .f32⟩
  | .hbm, ⟨38, _⟩ => ⟨S16x8, .f32⟩
  | .hbm, ⟨39, _⟩ => ⟨S10000x8, .f32⟩
  | .hbm, ⟨40, _⟩ => ⟨S1x8, .f32⟩
  | .hbm, ⟨41, _⟩ => ⟨S10000x8, .f32⟩
  | .hbm, ⟨42, _⟩ => ⟨S10000x8, .f32⟩
  | .hbm, ⟨43, _⟩ => ⟨S_, .f32⟩
  | .hbm, ⟨44, _⟩ => ⟨S10000x8, .f32⟩
  | .hbm, ⟨45, _⟩ => ⟨S10000x8, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S10000x8, .f32⟩
  | .hbm, ⟨50, _⟩ => ⟨S10000x8, .f32⟩
  | .hbm, ⟨51, _⟩ => ⟨S1x8, .f32⟩
  | .hbm, ⟨52, _⟩ => ⟨S10000x8, .f32⟩
  | .hbm, ⟨53, _⟩ => ⟨S10000x8, .f32⟩
  | .hbm, ⟨54, _⟩ => ⟨S1x8, .f32⟩
  | .hbm, ⟨55, _⟩ => ⟨S10000x8, .f32⟩
  | .hbm, ⟨56, _⟩ => ⟨S10000x8, .f32⟩
  | .hbm, ⟨57, _⟩ => ⟨S10000x16, .f32⟩
  | .hbm, ⟨58, _⟩ => ⟨S10000x16, .f32⟩
  | .hbm, ⟨59, _⟩ => ⟨S10000x16, .f32⟩
  | .hbm, ⟨60, _⟩ => ⟨S1x16, .f32⟩
  | .hbm, ⟨61, _⟩ => ⟨S10000x16, .f32⟩
  | .hbm, ⟨62, _⟩ => ⟨S10000x16, .f32⟩
  | .hbm, ⟨63, _⟩ => ⟨S_, .f32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x16, .f32⟩
  | .hbm, ⟨70, _⟩ => ⟨S10000x16, .f32⟩
  | .hbm, ⟨71, _⟩ => ⟨S10000x16, .f32⟩
  | .hbm, ⟨72, _⟩ => ⟨S_, .f32⟩
  | .hbm, ⟨73, _⟩ => ⟨S10000, .f32⟩
  | .hbm, ⟨74, _⟩ => ⟨S10000x1, .f32⟩
  | .hbm, ⟨75, _⟩ => ⟨S10000x1, .f32⟩
  | .hbm, ⟨76, _⟩ => ⟨S10000x16, .f32⟩
  | .hbm, ⟨77, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_cst : Ref sig .tc := ⟨.hbm, 35, rfl⟩
abbrev main_call1_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_v25 : Ref sig .tc := ⟨.hbm, 45, rfl⟩
abbrev main_cst_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call3_cst : Ref sig .tc := ⟨.hbm, 63, rfl⟩
abbrev main_call3_v0 : Ref sig .tc := ⟨.hbm, 64, rfl⟩
abbrev main_call3_cst_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_cst_1 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_v42 : Ref sig .tc := ⟨.hbm, 77, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S_S10000x8 : S_.BroadcastsInDim S10000x8 (![] : Fin 0 → Fin S10000x8.rank)
  bcast_S_S10000x32 : S_.BroadcastsInDim S10000x32 (![] : Fin 0 → Fin S10000x32.rank)
  transposes_S16x32_S32x16_1_0 : S16x32.Transposes [1, 0] S32x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  transposes_S8x16_S16x8_1_0 : S8x16.Transposes [1, 0] S16x8
  concatenates_S10000x8_S10000x8_S10000x16_d1 : Shape.Concatenates [S10000x8, S10000x8] S10000x16 1
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x8_S10000x8_1_0_0_1_n_n_wf : DotDims.WF S10000x128 S128x8 S10000x8 [1] [0] [0] [1] [] []
  dot_S10000x10000_S10000x8_S10000x8_1_0_0_1_n_n_wf : DotDims.WF S10000x10000 S10000x8 S10000x8 [1] [0] [0] [1] [] []
  dot_S10000x128_S128x32_S10000x32_1_0_0_1_n_n_wf : DotDims.WF S10000x128 S128x32 S10000x32 [1] [0] [0] [1] [] []
  dot_S10000x32_S32x16_S10000x16_1_0_0_1_n_n_wf : DotDims.WF S10000x32 S32x16 S10000x16 [1] [0] [0] [1] [] []
  dot_S10000x16_S16x8_S10000x8_1_0_0_1_n_n_wf : DotDims.WF S10000x16 S16x8 S10000x8 [1] [0] [0] [1] [] []
  dot_S10000x16_S16x16_S10000x16_1_0_0_1_n_n_wf : DotDims.WF S10000x16 S16x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.Reg0.lean ====
/- The kernel body's half of region 0 (the first pallas_call, ten row blocks of 1000 rows of the feature matrix):
   at a parameter `V` — the buffer contents when the region is entered — each window's block at a grid point,
   what the body leaves in the two output windows as a function of the ten input blocks, the body's triple,
   the pipeline's proof data, and the body obligation at every grid point. Generic in the float instance. -/
import proofs.«115251_g55224689492446_cont_9to1_m_1185_2_alg».proof.Proof.Gen.Kernel.Launch
import proofs.«115251_g55224689492446_cont_9to1_m_1185_2_alg».proof.Proof.Gen.Kernel.Skeleton
import proofs.«115251_g55224689492446_cont_9to1_m_1185_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents (`View.cover_of_tiled`) unfolds once per coordinate of the
-- long axes: the depth the recursion needs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 0: the first pallas_call (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved (window 0 follows the row block); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved (window 1's index is constant); the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved (window 2's index is constant); the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved (window 3's index is constant); the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block
    index has not moved (window 4's index is constant); the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block
    index has not moved (window 5's index is constant); the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block
    index has not moved (window 6's index is constant); the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block
    index has not moved (window 7's index is constant); the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s (`hA`) and whose body leaves the block in place (`hafter`): unfetched, the block
    index has not moved (window 8's index is constant); the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not, for any proof
    data whose array is `V`'s (`hA`) and whose body leaves the block in place (`hafter`): unfetched, the block
    index has not moved (window 9's index is constant); the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_S1000x128 : Rect S1000x128 := Rect.unit (s := S1000x128) ![0, 0] S1000x128.size inb_S1000x128_S1000x128_0_0
abbrev r0_S128x8 : Rect S128x8 := Rect.unit (s := S128x8) ![0, 0] S128x8.size inb_S128x8_S128x8_0_0
abbrev r0_S128x32 : Rect S128x32 := Rect.unit (s := S128x32) ![0, 0] S128x32.size inb_S128x32_S128x32_0_0
abbrev r0_S16x32 : Rect S16x32 := Rect.unit (s := S16x32) ![0, 0] S16x32.size inb_S16x32_S16x32_0_0
abbrev r0_S1x16 : Rect S1x16 := Rect.unit (s := S1x16) ![0, 0] S1x16.size inb_S1x16_S1x16_0_0
abbrev r0_S8x16 : Rect S8x16 := Rect.unit (s := S8x16) ![0, 0] S8x16.size inb_S8x16_S8x16_0_0
abbrev r0_S1x8 : Rect S1x8 := Rect.unit (s := S1x8) ![0, 0] S1x8.size inb_S1x8_S1x8_0_0
abbrev r0_S1000x8 : Rect S1000x8 := Rect.unit (s := S1000x8) ![0, 0] S1000x8.size inb_S1000x8_S1000x8_0_0
abbrev r0_S1000x16 : Rect S1000x16 := Rect.unit (s := S1000x16) ![0, 0] S1000x16.size inb_S1000x16_S1000x16_0_0

/-! ## What the body leaves in each output window's buffer -/

/-- Window 10's staging buffer after the body: one store of the whole block, the product of the feature block
    (window 0) with the first weight matrix (window 1). -/
def out0_10 (x0 : Vec F S1000x128 .f32) (x1 : Vec F S128x8 .f32) : Vec F S1000x8 .f32 :=
  View.canon [⟨r0_S1000x8, k0_pay2 (View.ld x0 r0_S1000x128) (View.ld x1 r0_S128x8)⟩]

/-- Window 11's staging buffer after the body: one store of the whole block, computed from the feature block
    (window 0) and the parameter windows 2–9 (window 1 is not read by it). -/
def out0_11 (x0 : Vec F S1000x128 .f32) (x2 : Vec F S128x32 .f32) (x3 : Vec F S16x32 .f32) (x4 : Vec F S1x16 .f32) (x5 : Vec F S8x16 .f32)
    (x6 : Vec F S1x8 .f32) (x7 : Vec F S1x8 .f32) (x8 : Vec F S1x8 .f32) (x9 : Vec F S8x16 .f32) : Vec F S1000x16 .f32 :=
  View.canon [⟨r0_S1000x16, k0_pay1 (k0_pay3 (View.ld x0 r0_S1000x128) (View.ld x2 r0_S128x32) (View.ld x3 r0_S16x32) (View.ld x4 r0_S1x16) (View.ld x5 r0_S8x16) (View.ld x6 r0_S1x8)) (k0_pay4 (View.ld x7 r0_S1x8)) (View.ld x8 r0_S1x8) (View.ld x9 r0_S8x16)⟩]

/-- The one store tiles window 10's buffer (checked by evaluation), so it covers it. -/
theorem cover0_10 (p0 : Vec F S1000x8 .f32) (y : S1000x8.Idx) :
    ∃ pc ∈ ([⟨r0_S1000x8, p0⟩] : List (View.Piece (Elt F) S1000x8 .f32)), y ∈ pc.1.set :=
  View.cover_of_tiled [⟨r0_S1000x8, p0⟩] S1000x8.size (by rfl) y

/-- The one store tiles window 11's buffer (checked by evaluation), so it covers it. -/
theorem cover0_11 (p0 : Vec F S1000x16 .f32) (y : S1000x16.Idx) :
    ∃ pc ∈ ([⟨r0_S1000x16, p0⟩] : List (View.Piece (Elt F) S1000x16 .f32)), y ∈ pc.1.set :=
  View.cover_of_tiled [⟨r0_S1000x16, p0⟩] S1000x16.size (by rfl) y

/-! ## The body's triple -/

set_option maxHeartbeats 4000000 in
/-- The kernel body on whole staging memrefs, the inputs' at read contents `xW` and the outputs' at anything, runs to
    the continuation holding the inputs' as they were and each output's at `out0_W` of the inputs': the printed
    functions are their skeletons, run operation by operation through the part call. Each output buffer is loaded
    once before it is stored; what that load reads is discarded. -/
theorem sound_kernel0 (c : Dev nD) (E : Set ℕ) (i : grid0.Coords) (m0 : Memref sig .tc .vmem S1000x128 .f32) (hm0 : m0.IsWhole) (m1 : Memref sig .tc .vmem S128x8 .f32) (hm1 : m1.IsWhole) (m2 : Memref sig .tc .vmem S128x32 .f32) (hm2 : m2.IsWhole) (m3 : Memref sig .tc .vmem S16x32 .f32) (hm3 : m3.IsWhole) (m4 : Memref sig .tc .vmem S1x16 .f32) (hm4 : m4.IsWhole) (m5 : Memref sig .tc .vmem S8x16 .f32) (hm5 : m5.IsWhole) (m6 : Memref sig .tc .vmem S1x8 .f32) (hm6 : m6.IsWhole) (m7 : Memref sig .tc .vmem S1x8 .f32) (hm7 : m7.IsWhole) (m8 : Memref sig .tc .vmem S1x8 .f32) (hm8 : m8.IsWhole) (m9 : Memref sig .tc .vmem S8x16 .f32) (hm9 : m9.IsWhole) (m10 : Memref sig .tc .vmem S1000x8 .f32) (hm10 : m10.IsWhole) (m11 : Memref sig .tc .vmem S1000x16 .f32) (hm11 : m11.IsWhole)
    (x0 : Vec F S1000x128 .f32) (x1 : Vec F S128x8 .f32) (x2 : Vec F S128x32 .f32) (x3 : Vec F S16x32 .f32) (x4 : Vec F S1x16 .f32) (x5 : Vec F S8x16 .f32) (x6 : Vec F S1x8 .f32) (x7 : Vec F S1x8 .f32) (x8 : Vec F S1x8 .f32) (x9 : Vec F S8x16 .f32) (K : PUnit → sProp 𝕄) :
    iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ owns (c : Thread nD τ) m8 fullShare x8 ∗ owns (c : Thread nD τ) m9 fullShare x9
        ∗ (∃ d, owns (c : Thread nD τ) m10 fullShare d) ∗ (∃ d, owns (c : Thread nD τ) m11 fullShare d)
        ∗ (iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ owns (c : Thread nD τ) m8 fullShare x8 ∗ owns (c : Thread nD τ) m9 fullShare x9
            ∗ owns (c : Thread nD τ) m10 fullShare (out0_10 x0 x1) ∗ owns (c : Thread nD τ) m11 fullShare (out0_11 x0 x2 x3 x4 x5 x6 x7 x8 x9)) -∗ K ⟨⟩))
      ⊢ wp frame (wpE (defs₀ (F := F)) Variants.none c none) E (cc0__prep_body i m0 hm0 m1 hm1 m2 hm2 m3 hm3 m4 hm4 m5 hm5 m6 hm6 m7 hm7 m8 hm8 m9 hm9 m10 hm10 m11 hm11) K := by
  simp only [cc0__prep_body_eq_skeleton]; unfold cc0__prep_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of pipeline 0 on core `c`: the arrays as the region finds them (`V`); after the body at
    point `t` each input's buffer at its block and each output's at `out0_W` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t)
    | ⟨11, _⟩ => out0_11 (iblk0 V c 0 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) := by dsimp only [dat0]
theorem after0_11 (c : Dev nD) (t : Fin cfg0.N) : (dat0 V c).after 11 t = out0_11 (iblk0 V c 0 t) (iblk0 V c 2 t) (iblk0 V c 3 t) (iblk0 V c 4 t) (iblk0 V c 5 t) (iblk0 V c 6 t) (iblk0 V c 7 t) (iblk0 V c 8 t) (iblk0 V c 9 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' memrefs hold their blocks (`before0_W`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Reg1.lean ====
import proofs.«115251_g55224689492446_cont_9to1_m_1185_2_alg».proof.Proof.Gen.Kernel.Launch
import proofs.«115251_g55224689492446_cont_9to1_m_1185_2_alg».proof.Proof.Gen.Kernel.Skeleton
import proofs.«115251_g55224689492446_cont_9to1_m_1185_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the first adjacency pass): the kernel body's half of the frame

The second pallas_call streams the adjacency matrix in 25 row blocks of 400 rows. At each grid point the body
reads the adjacency row block (window 0), the whole skinny operand `S1` (window 1, 10000x8) and the whole
skinny operand `T` (window 2, 10000x16), and stores the two products `adj_block · S1` (window 3, 400x8) and
`adj_block · T` (window 4, 400x16). Everything here is stated at a parameter `V`: the buffer contents
when the region is entered. -/

-- membership in a rectangle of large extents unfolds once per coordinate: the depth the recursion needs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the adjacency row block, its block index the grid coordinate): its current staging buffer
    holds its block at every point, for any proof data whose array is `V`'s and whose body leaves the block in
    place. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole operand `S1`, its block index constant: fetched once, the index never moves):
    its staging buffer holds the whole array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole operand `T`, its block index constant): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S400x10000 := Rect.unit (s := S400x10000) ![0, 0] S400x10000.size inb_S400x10000_S400x10000_0_0
abbrev r1_1 : Rect S10000x8 := Rect.unit (s := S10000x8) ![0, 0] S10000x8.size inb_S10000x8_S10000x8_0_0
abbrev r1_2 : Rect S10000x16 := Rect.unit (s := S10000x16) ![0, 0] S10000x16.size inb_S10000x16_S10000x16_0_0
abbrev r1_3 : Rect S400x8 := Rect.unit (s := S400x8) ![0, 0] S400x8.size inb_S400x8_S400x8_0_0
abbrev r1_4 : Rect S400x16 := Rect.unit (s := S400x16) ![0, 0] S400x16.size inb_S400x16_S400x16_0_0

/-! ## What the body leaves in each output window's buffer -/

/-- Window 3's staging buffer after the body: its one store, the product of the adjacency row block (window 0)
    with `S1` (window 1). -/
def out1_3 (x0 : Vec F S400x10000 .f32) (x1 : Vec F S10000x8 .f32) : Vec F S400x8 .f32 :=
  View.canon [⟨r1_3, k1_pay1 (View.ld x0 r1_0) (View.ld x1 r1_1)⟩]

/-- Window 4's staging buffer after the body: its one store, the product of the adjacency row block (window 0)
    with `T` (window 2). -/
def out1_4 (x0 : Vec F S400x10000 .f32) (x2 : Vec F S10000x16 .f32) : Vec F S400x16 .f32 :=
  View.canon [⟨r1_4, k1_pay2 (View.ld x0 r1_0) (View.ld x2 r1_2)⟩]

/-- The one store of window 3 tiles its buffer (one tile, the whole shape), so it covers it. -/
theorem cover1_3 (p0 : Vec F S400x8 .f32) (y : S400x8.Idx) :
    ∃ pc ∈ ([⟨r1_3, p0⟩] : List (View.Piece (Elt F) S400x8 .f32)), y ∈ pc.1.set :=
  View.cover_of_tiled [⟨r1_3, p0⟩] S400x8.size (by rfl) y

/-- The one store of window 4 tiles its buffer, so it covers it. -/
theorem cover1_4 (p0 : Vec F S400x16 .f32) (y : S400x16.Idx) :
    ∃ pc ∈ ([⟨r1_4, p0⟩] : List (View.Piece (Elt F) S400x16 .f32)), y ∈ pc.1.set :=
  View.cover_of_tiled [⟨r1_4, p0⟩] S400x16.size (by rfl) y

/-! ## The body's triple -/

set_option maxHeartbeats 1000000 in
/-- The kernel body on whole staging memrefs, the three inputs' at read contents `x0 x1 x2` and the two outputs' at
    anything, runs to the continuation holding the inputs' as they were and the outputs' at `out1_3 x0 x1` and
    `out1_4 x0 x2`. The body also loads each output buffer before storing it; what those loads read is discarded. -/
theorem sound_kernel1 (c : Dev nD) (E : Set ℕ) (i : grid1.Coords)
    (arg0 : Memref sig .tc .vmem S400x10000 .f32) (harg0 : arg0.IsWhole) (arg1 : Memref sig .tc .vmem S10000x8 .f32) (harg1 : arg1.IsWhole)
    (arg2 : Memref sig .tc .vmem S10000x16 .f32) (harg2 : arg2.IsWhole) (arg3 : Memref sig .tc .vmem S400x8 .f32) (harg3 : arg3.IsWhole)
    (arg4 : Memref sig .tc .vmem S400x16 .f32) (harg4 : arg4.IsWhole)
    (x0 : Vec F S400x10000 .f32) (x1 : Vec F S10000x8 .f32) (x2 : Vec F S10000x16 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1) ∗ owns (c : Thread nD τ) arg4 fullShare (out1_4 x0 x2)) -∗ K ⟨⟩))
      ⊢ wp frame (wpE (defs₀ (F := F)) Variants.none c none) E (cc1__pass1_body i arg0 harg0 arg1 harg1 arg2 harg2 arg3 harg3 arg4 harg4) K := by
  simp only [cc1__pass1_body_eq_skeleton]; unfold cc1__pass1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block, output 3's at the product of blocks 0 and 1, output 4's at the product
    of blocks 0 and 2; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Fold01.lean ====
/- The buffer contents at the boundaries of the program's first three segments — the launch, after the host operations,
   and after each of the first two pallas_calls — as a fold from the launch memory: a region leaves each of its windows'
   arrays at what its write-backs fold to and every other buffer as it found it. Read back through the fold, every
   argument array holds its launch contents: no host operation writes one and a region stages one through an input
   window at most. Generic in the float instance. -/
import proofs.«115251_g55224689492446_cont_9to1_m_1185_2_alg».proof.Proof.K.Reg0
import proofs.«115251_g55224689492446_cont_9to1_m_1185_2_alg».proof.Proof.K.Reg1
import proofs.«115251_g55224689492446_cont_9to1_m_1185_2_alg».proof.Proof.Gen.Kernel.Regions
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the host operations (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b

/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents, which region 1 is entered with). -/
abbrev V2 : (c : Dev nD) → (b : Ref sig .tc) → Buf (Elt F) ((c : Thread nD τ).loc b) := fun c b => W2 m c b
/-- At region 0's exit each of its arrays holds what the pipeline leaves (`hF0`) and every other buffer what it
    held at entry (`hrest0`). -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (region 1's exit contents, which region 2 is entered with). -/
abbrev V3 : (c : Dev nD) → (b : Ref sig .tc) → Buf (Elt F) ((c : Thread nD τ).loc b) := fun c b => W3 m c b
/-- At region 1's exit each of its arrays holds what the pipeline leaves (`hF1`) and every other buffer what it
    held at entry (`hrest1`). -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched

No host operation writes an argument, and a region reads one through an input window or not at all, so the fold at
an argument's buffer walks back to the launch memory. -/

/-- The host operations write none of the arguments. -/
theorem W1_of_not_written (c : Dev nD) (r : Ref sig .tc) (h : r ∉ (hostOps0_W : List (Ref sig .tc))) :
    W1 m c (Proc.devRef .tc r) = W0 m c (Proc.devRef .tc r) :=
  Gen.V1_of m c r h

end Cert.Kernel.Hand

end
-- ==== Proof.K.Reg2.lean ====
/-
  The third pallas_call (the second pass over the adjacency) as a pipeline region, at any float instance.

  Its grid has 25 points; point `t` stages rows 400 t … 400 t + 399 of the adjacency and of the first pass's second
  product, and the whole of the first pass's first product, the two biases and the upper half of the second weight.
  The body has two control cases. At the FIRST point it fills the scratch buffer with
  `M = relu (P1 + b1) · w2a` (a function of whole-array windows only, so the same at every point) and then computes the
  output block from it; at every LATER point it reads the scratch buffer as the first point left it. The region
  invariant therefore carries, after the first point, the scratch buffer at that one value.
-/
import proofs.«115251_g55224689492446_cont_9to1_m_1185_2_alg».proof.Proof.Gen.Kernel.Launch
import proofs.«115251_g55224689492446_cont_9to1_m_1185_2_alg».proof.Proof.Gen.Kernel.Skeleton
import proofs.«115251_g55224689492446_cont_9to1_m_1185_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- An input window's current staging buffer holds its block at every point, fetched there or not (a window whose
   block index never moves is fetched once and keeps its block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The control case -/

/-- The body's one conditional: "this is the grid's first point". -/
abbrev cond2 (i : grid2.Coords) : Prop :=
  (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

/-- The grid's first point. -/
def t2_0 : Fin cfg2.N := ⟨0, by rw [show cfg2.N = 25 from N_2]; decide⟩

/-! ## The body's accesses, and what it leaves -/

abbrev r2_0 : Rect S400x10000 := Rect.unit (s := S400x10000) ![0, 0] S400x10000.size inb_S400x10000_S400x10000_0_0
abbrev r2_1 : Rect S10000x8 := Rect.unit (s := S10000x8) ![0, 0] S10000x8.size inb_S10000x8_S10000x8_0_0
abbrev r2_2 : Rect S400x16 := Rect.unit (s := S400x16) ![0, 0] S400x16.size inb_S400x16_S400x16_0_0
abbrev r2_3 : Rect S1x8 := Rect.unit (s := S1x8) ![0, 0] S1x8.size inb_S1x8_S1x8_0_0
abbrev r2_4 : Rect S1x16 := Rect.unit (s := S1x16) ![0, 0] S1x16.size inb_S1x16_S1x16_0_0
abbrev r2_5 : Rect S8x16 := Rect.unit (s := S8x16) ![0, 0] S8x16.size inb_S8x16_S8x16_0_0
abbrev r2_S : Rect S10000x16 := Rect.unit (s := S10000x16) ![0, 0] S10000x16.size inb_S10000x16_S10000x16_0_0

/-- The scratch buffer after the first point: its one whole store, of the first product's block, the first bias and
    the upper half of the second weight. -/
def scr2 (x1 : Vec F S10000x8 .f32) (x3 : Vec F S1x8 .f32) (x5 : Vec F S8x16 .f32) : Vec F S10000x16 .f32 :=
  View.canon [⟨r2_S, k2_pay1 (View.ld x1 r2_1) (View.ld x3 r2_3) (View.ld x5 r2_5)⟩]

/-- The output window's staging buffer after the body: its one whole store, of the adjacency block, the scratch
    buffer's contents `s`, the second product's block and the second bias. -/
def out2_6 (x0 : Vec F S400x10000 .f32) (s : Vec F S10000x16 .f32) (x2 : Vec F S400x16 .f32) (x4 : Vec F S1x16 .f32) : Vec F S400x16 .f32 :=
  View.canon [⟨r2_2, k2_pay2 (View.ld x0 r2_0) (View.ld s r2_S) (View.ld x2 r2_2) (View.ld x4 r2_4)⟩]

theorem cover2_S (p0 : Vec F S10000x16 .f32) (y : S10000x16.Idx) :
    ∃ pc ∈ ([⟨r2_S, p0⟩] : List (View.Piece (Elt F) S10000x16 .f32)), y ∈ pc.1.set :=
  View.cover_of_tiled [⟨r2_S, p0⟩] S10000x16.size (by rfl) y
theorem cover2_6 (p0 : Vec F S400x16 .f32) (y : S400x16.Idx) :
    ∃ pc ∈ ([⟨r2_2, p0⟩] : List (View.Piece (Elt F) S400x16 .f32)), y ∈ pc.1.set :=
  View.cover_of_tiled [⟨r2_2, p0⟩] S400x16.size (by rfl) y

/-! ## Reading back what the body's stores leave -/

/-- The scratch buffer read back after its one whole store is `scr2` of the three loaded buffers. -/
theorem scr_read (arg2 : Memref sig .tc .vmem S10000x8 .f32) (arg4 : Memref sig .tc .vmem S1x8 .f32) (arg6 : Memref sig .tc .vmem S8x16 .f32)
    (arg8 : Memref sig .tc .vmem S10000x16 .f32)
    (f1 : arg2.view.ty.Contents (Elt F)) (f3 : arg4.view.ty.Contents (Elt F)) (f5 : arg6.view.ty.Contents (Elt F)) (f7 : arg8.view.ty.Contents (Elt F)) :
    View.read (Elt F) arg8.view (arg8.view.writes (Elt F) f7 [⟨r2_S, k2_pay1
        (View.readAt (Elt F) arg2.view r2_1.toLoadRect f1) (View.readAt (Elt F) arg4.view r2_3.toLoadRect f3) (View.readAt (Elt F) arg6.view r2_5.toLoadRect f5)⟩])
      = scr2 (View.read (Elt F) arg2.view f1) (View.read (Elt F) arg4.view f3) (View.read (Elt F) arg6.view f5) :=
  View.read_writes_eq_canon _ _ _ (cover2_S _)

/-- The output buffer read back after its one whole store is `out2_6` of the loaded buffers and the scratch value `s`. -/
theorem out_read (arg1 : Memref sig .tc .vmem S400x10000 .f32) (arg3 : Memref sig .tc .vmem S400x16 .f32) (arg5 : Memref sig .tc .vmem S1x16 .f32)
    (arg7 : Memref sig .tc .vmem S400x16 .f32)
    (f0 : arg1.view.ty.Contents (Elt F)) (f2 : arg3.view.ty.Contents (Elt F)) (f4 : arg5.view.ty.Contents (Elt F))
    (f6 : arg7.view.ty.Contents (Elt F)) (s : Vec F S10000x16 .f32) :
    View.read (Elt F) arg7.view (arg7.view.writes (Elt F) f6 [⟨r2_2, k2_pay2
        (View.readAt (Elt F) arg1.view r2_0.toLoadRect f0) (View.ld s r2_S)
        (View.readAt (Elt F) arg3.view r2_2.toLoadRect f2) (View.readAt (Elt F) arg5.view r2_4.toLoadRect f4)⟩])
      = out2_6 (View.read (Elt F) arg1.view f0) s (View.read (Elt F) arg3.view f2) (View.read (Elt F) arg5.view f4) :=
  View.read_writes_eq_canon _ _ _ (cover2_6 _)

/-- The same at the grid's first point, where the body loads the scratch buffer right after storing it: the load reads
    the stored value back. -/
theorem out_read_first (arg1 : Memref sig .tc .vmem S400x10000 .f32) (arg2 : Memref sig .tc .vmem S10000x8 .f32) (arg3 : Memref sig .tc .vmem S400x16 .f32)
    (arg4 : Memref sig .tc .vmem S1x8 .f32) (arg5 : Memref sig .tc .vmem S1x16 .f32) (arg6 : Memref sig .tc .vmem S8x16 .f32)
    (arg7 : Memref sig .tc .vmem S400x16 .f32) (arg8 : Memref sig .tc .vmem S10000x16 .f32)
    (f0 : arg1.view.ty.Contents (Elt F)) (f1 : arg2.view.ty.Contents (Elt F)) (f2 : arg3.view.ty.Contents (Elt F))
    (f3 : arg4.view.ty.Contents (Elt F)) (f4 : arg5.view.ty.Contents (Elt F)) (f5 : arg6.view.ty.Contents (Elt F))
    (f6 : arg7.view.ty.Contents (Elt F)) :
    View.read (Elt F) arg7.view (arg7.view.writes (Elt F) f6 [⟨r2_2, k2_pay2
        (View.readAt (Elt F) arg1.view r2_0.toLoadRect f0)
        (arg8.view.readCov [⟨r2_S, k2_pay1 (View.readAt (Elt F) arg2.view r2_1.toLoadRect f1)
            (View.readAt (Elt F) arg4.view r2_3.toLoadRect f3) (View.readAt (Elt F) arg6.view r2_5.toLoadRect f5)⟩] r2_S.toLoadRect)
        (View.readAt (Elt F) arg3.view r2_2.toLoadRect f2) (View.readAt (Elt F) arg5.view r2_4.toLoadRect f4)⟩])
      = out2_6 (View.read (Elt F) arg1.view f0)
          (scr2 (View.read (Elt F) arg2.view f1) (View.read (Elt F) arg4.view f3) (View.read (Elt F) arg6.view f5))
          (View.read (Elt F) arg3.view f2) (View.read (Elt F) arg5.view f4) := by
  rw [View.readCov_eq_canon_ld _ _ _ (cover2_S _)]
  exact out_read arg1 arg3 arg5 arg7 f0 f2 f4 f6 _

/-! ## The body's triple, per control case -/

set_option maxHeartbeats 4000000 in
/-- At the first point: from the inputs' memrefs at their contents and the output's and the scratch's at anything, the
    body ends with the scratch at `scr2` of the inputs and the output at `out2_6` over that. -/
theorem sound_kernel2_first (c : Dev nD) (E : Set ℕ) (i : grid2.Coords) (hc : cond2 i) (arg1 : Memref sig .tc .vmem S400x10000 .f32) (harg1 : arg1.IsWhole) (arg2 : Memref sig .tc .vmem S10000x8 .f32) (harg2 : arg2.IsWhole) (arg3 : Memref sig .tc .vmem S400x16 .f32) (harg3 : arg3.IsWhole) (arg4 : Memref sig .tc .vmem S1x8 .f32) (harg4 : arg4.IsWhole) (arg5 : Memref sig .tc .vmem S1x16 .f32) (harg5 : arg5.IsWhole) (arg6 : Memref sig .tc .vmem S8x16 .f32) (harg6 : arg6.IsWhole) (arg7 : Memref sig .tc .vmem S400x16 .f32) (harg7 : arg7.IsWhole) (arg8 : Memref sig .tc .vmem S10000x16 .f32) (harg8 : arg8.IsWhole)
    (x0 : Vec F S400x10000 .f32) (x1 : Vec F S10000x8 .f32) (x2 : Vec F S400x16 .f32) (x3 : Vec F S1x8 .f32) (x4 : Vec F S1x16 .f32) (x5 : Vec F S8x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 (scr2 x1 x3 x5) x2 x4) ∗ owns (c : Thread nD τ) arg8 fullShare (scr2 x1 x3 x5)) -∗ K ⟨⟩))
      ⊢ wp frame (wpE (defs₀ (F := F)) Variants.none c none) E (cc2__pass2_body i arg1 harg1 arg2 harg2 arg3 harg3 arg4 harg4 arg5 harg5 arg6 harg6 arg7 harg7 arg8 harg8) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    exact out_read_first arg1 arg2 arg3 arg4 arg5 arg6 arg7 arg8 f0 f1 f2 f3 f4 f5 f6
  iexists _; isplitr
  swap; · iexact H7
  ipureintro
  sl_unfold_run_names
  exact scr_read arg2 arg4 arg6 arg8 f1 f3 f5 f7

set_option maxHeartbeats 4000000 in
/-- At a later point: the scratch holds `s` and is only read; the output ends at `out2_6` over `s`. -/
theorem sound_kernel2_later (c : Dev nD) (E : Set ℕ) (i : grid2.Coords) (hc : ¬cond2 i) (arg1 : Memref sig .tc .vmem S400x10000 .f32) (harg1 : arg1.IsWhole) (arg2 : Memref sig .tc .vmem S10000x8 .f32) (harg2 : arg2.IsWhole) (arg3 : Memref sig .tc .vmem S400x16 .f32) (harg3 : arg3.IsWhole) (arg4 : Memref sig .tc .vmem S1x8 .f32) (harg4 : arg4.IsWhole) (arg5 : Memref sig .tc .vmem S1x16 .f32) (harg5 : arg5.IsWhole) (arg6 : Memref sig .tc .vmem S8x16 .f32) (harg6 : arg6.IsWhole) (arg7 : Memref sig .tc .vmem S400x16 .f32) (harg7 : arg7.IsWhole) (arg8 : Memref sig .tc .vmem S10000x16 .f32) (harg8 : arg8.IsWhole)
    (x0 : Vec F S400x10000 .f32) (x1 : Vec F S10000x8 .f32) (x2 : Vec F S400x16 .f32) (x3 : Vec F S1x8 .f32) (x4 : Vec F S1x16 .f32) (x5 : Vec F S8x16 .f32) (s : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 s x2 x4) ∗ owns (c : Thread nD τ) arg8 fullShare s) -∗ K ⟨⟩))
      ⊢ wp frame (wpE (defs₀ (F := F)) Variants.none c none) E (cc2__pass2_body i arg1 harg1 arg2 harg2 arg3 harg3 arg4 harg4 arg5 harg5 arg6 harg6 arg7 harg7 arg8 harg8) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists f7; isplitr; · ipureintro; rfl
  iexact H7

/-! ## The region invariant and the proof data -/

/-- The scratch operand: a whole buffer of the kernel's own, passed beside the windows. -/
abbrev scM2 : Memref sig .tc .vmem S10000x16 .f32 := Memref.whole cc2_scratch0

/-- The core's scoped buffers that this region does not stage — the other two regions' staging buffers, each whole at
    some contents — beside what is said of the scratch buffer (`S`). -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ S)

/-- The class invariant with the scratch operand as a memref owned at some contents. -/
theorem PhiA2_eq (c : Dev nD) :
    (Pipeline.ΦA spec2 c : sProp 𝕄)
      = iprop(restWith c iprop(∃ d, owns (c : Thread nD τ) scM2 fullShare d) ∗ (∃ r, prngReg c r)) := by
  unfold Pipeline.ΦA restWith; rw [scopedRest2_eq]; simp only [scM2, owns_whole]; try rfl

/-- What the scratch buffer holds from the first point on: `scr2` of the three whole-array windows' blocks (the
    same block at every point; read here at the first). -/
def scrAt (c : Dev nD) : Vec F S10000x16 .f32 := scr2 (iblk2 V c 1 t2_0) (iblk2 V c 3 t2_0) (iblk2 V c 5 t2_0)

/-- The invariant before position `n`: before the first point the class's (the scratch at anything); afterwards the
    scratch at `scrAt`, and the generator register at some state. -/
def PhiS (c : Dev nD) : ℕ → sProp 𝕄
  | 0 => Pipeline.ΦA spec2 c
  | _ + 1 => iprop(restWith c (owns (c : Thread nD τ) scM2 fullShare (scrAt V c)) ∗ (∃ r, prngReg c r))

theorem PhiS_pos (c : Dev nD) (n : ℕ) (h : n ≠ 0) :
    PhiS V c n = iprop(restWith c (owns (c : Thread nD τ) scM2 fullShare (scrAt V c)) ∗ (∃ r, prngReg c r)) := by
  cases n with
  | zero => exact absurd rfl h
  | succ n => rfl

/-- The proof data of the pipeline on core `c`: the arrays as the region finds them; after the body at point `t` each
    input's buffer at its block and the output's at `out2_6` over the carried scratch value; the invariant `PhiS`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (scrAt V c) (iblk2 V c 2 t) (iblk2 V c 4 t)
  Φ t := PhiS V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (scrAt V c) (iblk2 V c 2 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 2000000 in
/-- The body at any point. At the first point the invariant hands over the scratch at anything and takes it back at
    `scrAt`; at a later point it hands it over at `scrAt` and takes it back unchanged. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl,
    show (dat2 V c).Φ t.succ = iprop(restWith c (owns (c : Thread nD τ) scM2 fullShare (scrAt V c)) ∗ (∃ r, prngReg c r)) from rfl,
    after2_0, after2_1, after2_2, after2_3, after2_4, after2_5, after2_6]
  by_cases hz : t.val = 0
  · obtain rfl : t = t2_0 := Fin.ext hz
    rw [show (dat2 V c).Φ t2_0.castSucc = Pipeline.ΦA spec2 c from rfl, PhiA2_eq]
    unfold restWith
    iintro ⟨⟨⟨A1, A2, A3, A4, A5, A6, A7, A8, A9, A10, A11, A12, A13, A14, A15, A16, A17, A18, A19, A20, A21, A22, A23, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_first c Set.univ (grid2.coords t2_0) ((hcond2 t2_0).mpr hz) _ _ _ _ _ _ _ _ _ _ _ _ _ _ _ _
      (iblk2 V c 0 t2_0) (iblk2 V c 1 t2_0) (iblk2 V c 2 t2_0) (iblk2 V c 3 t2_0) (iblk2 V c 4 t2_0) (iblk2 V c 5 t2_0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [A1 A2 A3 A4 A5 A6 A7 A8 A9 A10 A11 A12 A13 A14 A15 A16 A17 A18 A19 A20 A21 A22 A23 HS Hg]
    · isplitl [A1 A2 A3 A4 A5 A6 A7 A8 A9 A10 A11 A12 A13 A14 A15 A16 A17 A18 A19 A20 A21 A22 A23 HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        isplitl [A13]; · iexact A13
        isplitl [A14]; · iexact A14
        isplitl [A15]; · iexact A15
        isplitl [A16]; · iexact A16
        isplitl [A17]; · iexact A17
        isplitl [A18]; · iexact A18
        isplitl [A19]; · iexact A19
        isplitl [A20]; · iexact A20
        isplitl [A21]; · iexact A21
        isplitl [A22]; · iexact A22
        isplitl [A23]; · iexact A23
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dat2 V c).Φ t.castSucc = PhiS V c t.val from rfl, PhiS_pos V c _ hz]
    unfold restWith
    iintro ⟨⟨⟨A1, A2, A3, A4, A5, A6, A7, A8, A9, A10, A11, A12, A13, A14, A15, A16, A17, A18, A19, A20, A21, A22, A23, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_later c Set.univ (grid2.coords t) (fun h => hz ((hcond2 t).mp h)) _ _ _ _ _ _ _ _ _ _ _ _ _ _ _ _
      (iblk2 V c 0 t) (iblk2 V c 1 t) (iblk2 V c 2 t) (iblk2 V c 3 t) (iblk2 V c 4 t) (iblk2 V c 5 t) (scrAt V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [A1 A2 A3 A4 A5 A6 A7 A8 A9 A10 A11 A12 A13 A14 A15 A16 A17 A18 A19 A20 A21 A22 A23 HS Hg]
    · isplitl [A1 A2 A3 A4 A5 A6 A7 A8 A9 A10 A11 A12 A13 A14 A15 A16 A17 A18 A19 A20 A21 A22 A23 HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        isplitl [A13]; · iexact A13
        isplitl [A14]; · iexact A14
        isplitl [A15]; · iexact A15
        isplitl [A16]; · iexact A16
        isplitl [A17]; · iexact A17
        isplitl [A18]; · iexact A18
        isplitl [A19]; · iexact A19
        isplitl [A20]; · iexact A20
        isplitl [A21]; · iexact A21
        isplitl [A22]; · iexact A22
        isplitl [A23]; · iexact A23
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Pipeline.ΦA spec2 c from rfl]

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS V c cfg2.N from rfl,
    PhiS_pos V c _ (by rw [show cfg2.N = 25 from N_2]; decide), PhiA2_eq]
  unfold restWith
  iintro ⟨⟨A1, A2, A3, A4, A5, A6, A7, A8, A9, A10, A11, A12, A13, A14, A15, A16, A17, A18, A19, A20, A21, A22, A23, HS⟩, Hg⟩
  isplitl [A1 A2 A3 A4 A5 A6 A7 A8 A9 A10 A11 A12 A13 A14 A15 A16 A17 A18 A19 A20 A21 A22 A23 HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    iexists _; iexact HS
  iexact Hg

end Cert.Kernel.Hand

end
-- ==== Proof.K.Fold.lean ====
/- The buffer contents after the third pallas_call, continuing the fold from the launch memory, and every argument
   array read back through the whole fold to its launch contents. Generic in the float instance. -/
import proofs.«115251_g55224689492446_cont_9to1_m_1185_2_alg».proof.Proof.K.Fold01
import proofs.«115251_g55224689492446_cont_9to1_m_1185_2_alg».proof.Proof.K.Reg2
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- At region 2's exit: its arrays at what the pipeline leaves (the inputs as entered, each output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m c b
/-- At region 2's exit each of its arrays holds what the pipeline leaves (`hF2`) and every other buffer what it
    held at entry (`hrest2`). -/
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_not_written m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := W1_of_not_written m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := W1_of_not_written m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_not_written m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_not_written m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := (W2_arr m c 2).trans (((dat0 (V1 m) c).arrAt_in 2 rfl _).trans (A_eq0 (V1 m) c 2))
    _ = W0 m c (Proc.devRef .tc main_arg6) := W1_of_not_written m c main_arg6 (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := W3_of_ne m c main_arg7 (by decide)
    _ = W1 m c (Proc.devRef .tc main_arg7) := (W2_arr m c 3).trans (((dat0 (V1 m) c).arrAt_in 3 rfl _).trans (A_eq0 (V1 m) c 3))
    _ = W0 m c (Proc.devRef .tc main_arg7) := W1_of_not_written m c main_arg7 (by decide)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := W1_of_not_written m c main_arg8 (by decide)
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := W3_of_ne m c main_arg9 (by decide)
    _ = W1 m c (Proc.devRef .tc main_arg9) := (W2_arr m c 5).trans (((dat0 (V1 m) c).arrAt_in 5 rfl _).trans (A_eq0 (V1 m) c 5))
    _ = W0 m c (Proc.devRef .tc main_arg9) := W1_of_not_written m c main_arg9 (by decide)
    _ = m ((c : Thread nD τ).loc main_arg9) := rfl

theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := W1_of_not_written m c main_arg10 (by decide)
    _ = m ((c : Thread nD τ).loc main_arg10) := rfl

theorem W4_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := W1_of_not_written m c main_arg11 (by decide)
    _ = m ((c : Thread nD τ).loc main_arg11) := rfl

theorem W4_main_arg12 (c : Dev nD) : W4 m c (Proc.devRef .tc main_arg12) = m ((c : Thread nD τ).loc main_arg12) :=
  calc W4 m c (Proc.devRef .tc main_arg12)
    _ = W3 m c (Proc.devRef .tc main_arg12) := W4_of_ne m c main_arg12 (by decide)
    _ = W2 m c (Proc.devRef .tc main_arg12) := W3_of_ne m c main_arg12 (by decide)
    _ = W1 m c (Proc.devRef .tc main_arg12) := W2_of_ne m c main_arg12 (by decide)
    _ = W0 m c (Proc.devRef .tc main_arg12) := W1_of_not_written m c main_arg12 (by decide)
    _ = m ((c : Thread nD τ).loc main_arg12) := rfl

end Cert.Kernel.Hand

end
-- ==== Proof.K.Run.lean ====
/-
  @main as a run of segments: one stretch of host operations and the three pallas_calls, each a pipeline region whose
  proof data are the per-region modules'. The buffer contents at each segment boundary are a fold from the launch memory;
  the run ends with every unscoped buffer at the last boundary's contents, which gives both the frame (the arguments are
  never written) and the name of what the result array holds (what the third region's write-backs leave).
-/
import proofs.«115251_g55224689492446_cont_9to1_m_1185_2_alg».proof.Proof.Gen.Kernel.Launch
import proofs.«115251_g55224689492446_cont_9to1_m_1185_2_alg».proof.Proof.Gen.Kernel.Skeleton
import proofs.«115251_g55224689492446_cont_9to1_m_1185_2_alg».proof.Proof.Gen.Kernel.Points
import proofs.«115251_g55224689492446_cont_9to1_m_1185_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at what the pipeline leaves; the generator register goes into the region
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at what the pipeline leaves; the generator register goes into the region
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split
    out of the unscoped buffers and put back at what the pipeline leaves; the generator register goes into the region
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c)⟩) (run_all m ρ)

/-- The run with the result array NAMED: it ends holding what the third region's write-backs leave of its output window,
    the proof data's `arrAt` after the last point; the arguments as launched. -/
theorem run_named : θ_run defs (onTc (τ := τ) (main (F := F))) ⟨m, fun _ => 0, ρ⟩ (fun r => ∀ c : Dev nD,
      r.2.mem ((c.tc : Thread nD τ).loc main_v0) = (dat2 (V3 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v0 (by decide))).trans (W4_arr m c 6),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c)⟩) (run_all m ρ)

end Cert.Kernel.Hand

end
-- ==== Proof.KI.Reg0.lean ====
/- The kernel body's half of region 0 (the first pallas_call, ten row blocks of 1000 rows of the feature matrix):
   at a parameter `V` — the buffer contents when the region is entered — each window's block at a grid point,
   what the body leaves in the two output windows as a function of the ten input blocks, the body's triple,
   the pipeline's proof data, and the body obligation at every grid point. Generic in the float instance. -/
import proofs.«115251_g55224689492446_cont_9to1_m_1185_2_alg».proof.Proof.Gen.KernelIdeal.Launch
import proofs.«115251_g55224689492446_cont_9to1_m_1185_2_alg».proof.Proof.Gen.KernelIdeal.Skeleton
import proofs.«115251_g55224689492446_cont_9to1_m_1185_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents (`View.cover_of_tiled`) unfolds once per coordinate of the
-- long axes: the depth the recursion needs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 0: the first pallas_call (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved (window 0 follows the row block); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved (window 1's index is constant); the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved (window 2's index is constant); the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved (window 3's index is constant); the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block
    index has not moved (window 4's index is constant); the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block
    index has not moved (window 5's index is constant); the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block
    index has not moved (window 6's index is constant); the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block
    index has not moved (window 7's index is constant); the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s (`hA`) and whose body leaves the block in place (`hafter`): unfetched, the block
    index has not moved (window 8's index is constant); the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not, for any proof
    data whose array is `V`'s (`hA`) and whose body leaves the block in place (`hafter`): unfetched, the block
    index has not moved (window 9's index is constant); the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_S1000x128 : Rect S1000x128 := Rect.unit (s := S1000x128) ![0, 0] S1000x128.size inb_S1000x128_S1000x128_0_0
abbrev r0_S128x8 : Rect S128x8 := Rect.unit (s := S128x8) ![0, 0] S128x8.size inb_S128x8_S128x8_0_0
abbrev r0_S128x32 : Rect S128x32 := Rect.unit (s := S128x32) ![0, 0] S128x32.size inb_S128x32_S128x32_0_0
abbrev r0_S16x32 : Rect S16x32 := Rect.unit (s := S16x32) ![0, 0] S16x32.size inb_S16x32_S16x32_0_0
abbrev r0_S1x16 : Rect S1x16 := Rect.unit (s := S1x16) ![0, 0] S1x16.size inb_S1x16_S1x16_0_0
abbrev r0_S8x16 : Rect S8x16 := Rect.unit (s := S8x16) ![0, 0] S8x16.size inb_S8x16_S8x16_0_0
abbrev r0_S1x8 : Rect S1x8 := Rect.unit (s := S1x8) ![0, 0] S1x8.size inb_S1x8_S1x8_0_0
abbrev r0_S1000x8 : Rect S1000x8 := Rect.unit (s := S1000x8) ![0, 0] S1000x8.size inb_S1000x8_S1000x8_0_0
abbrev r0_S1000x16 : Rect S1000x16 := Rect.unit (s := S1000x16) ![0, 0] S1000x16.size inb_S1000x16_S1000x16_0_0

/-! ## What the body leaves in each output window's buffer -/

/-- Window 10's staging buffer after the body: one store of the whole block, the product of the feature block
    (window 0) with the first weight matrix (window 1). -/
def out0_10 (x0 : Vec F S1000x128 .f32) (x1 : Vec F S128x8 .f32) : Vec F S1000x8 .f32 :=
  View.canon [⟨r0_S1000x8, k0_pay2 (View.ld x0 r0_S1000x128) (View.ld x1 r0_S128x8)⟩]

/-- Window 11's staging buffer after the body: one store of the whole block, computed from the feature block
    (window 0) and the parameter windows 2–9 (window 1 is not read by it). -/
def out0_11 (x0 : Vec F S1000x128 .f32) (x2 : Vec F S128x32 .f32) (x3 : Vec F S16x32 .f32) (x4 : Vec F S1x16 .f32) (x5 : Vec F S8x16 .f32)
    (x6 : Vec F S1x8 .f32) (x7 : Vec F S1x8 .f32) (x8 : Vec F S1x8 .f32) (x9 : Vec F S8x16 .f32) : Vec F S1000x16 .f32 :=
  View.canon [⟨r0_S1000x16, k0_pay1 (k0_pay3 (View.ld x0 r0_S1000x128) (View.ld x2 r0_S128x32) (View.ld x3 r0_S16x32) (View.ld x4 r0_S1x16) (View.ld x5 r0_S8x16) (View.ld x6 r0_S1x8)) (k0_pay4 (View.ld x7 r0_S1x8)) (View.ld x8 r0_S1x8) (View.ld x9 r0_S8x16)⟩]

/-- The one store tiles window 10's buffer (checked by evaluation), so it covers it. -/
theorem cover0_10 (p0 : Vec F S1000x8 .f32) (y : S1000x8.Idx) :
    ∃ pc ∈ ([⟨r0_S1000x8, p0⟩] : List (View.Piece (Elt F) S1000x8 .f32)), y ∈ pc.1.set :=
  View.cover_of_tiled [⟨r0_S1000x8, p0⟩] S1000x8.size (by rfl) y

/-- The one store tiles window 11's buffer (checked by evaluation), so it covers it. -/
theorem cover0_11 (p0 : Vec F S1000x16 .f32) (y : S1000x16.Idx) :
    ∃ pc ∈ ([⟨r0_S1000x16, p0⟩] : List (View.Piece (Elt F) S1000x16 .f32)), y ∈ pc.1.set :=
  View.cover_of_tiled [⟨r0_S1000x16, p0⟩] S1000x16.size (by rfl) y

/-! ## The body's triple -/

set_option maxHeartbeats 4000000 in
/-- The kernel body on whole staging memrefs, the inputs' at read contents `xW` and the outputs' at anything, runs to
    the continuation holding the inputs' as they were and each output's at `out0_W` of the inputs': the printed
    functions are their skeletons, run operation by operation through the part call. Each output buffer is loaded
    once before it is stored; what that load reads is discarded. -/
theorem sound_kernel0 (c : Dev nD) (E : Set ℕ) (i : grid0.Coords) (m0 : Memref sig .tc .vmem S1000x128 .f32) (hm0 : m0.IsWhole) (m1 : Memref sig .tc .vmem S128x8 .f32) (hm1 : m1.IsWhole) (m2 : Memref sig .tc .vmem S128x32 .f32) (hm2 : m2.IsWhole) (m3 : Memref sig .tc .vmem S16x32 .f32) (hm3 : m3.IsWhole) (m4 : Memref sig .tc .vmem S1x16 .f32) (hm4 : m4.IsWhole) (m5 : Memref sig .tc .vmem S8x16 .f32) (hm5 : m5.IsWhole) (m6 : Memref sig .tc .vmem S1x8 .f32) (hm6 : m6.IsWhole) (m7 : Memref sig .tc .vmem S1x8 .f32) (hm7 : m7.IsWhole) (m8 : Memref sig .tc .vmem S1x8 .f32) (hm8 : m8.IsWhole) (m9 : Memref sig .tc .vmem S8x16 .f32) (hm9 : m9.IsWhole) (m10 : Memref sig .tc .vmem S1000x8 .f32) (hm10 : m10.IsWhole) (m11 : Memref sig .tc .vmem S1000x16 .f32) (hm11 : m11.IsWhole)
    (x0 : Vec F S1000x128 .f32) (x1 : Vec F S128x8 .f32) (x2 : Vec F S128x32 .f32) (x3 : Vec F S16x32 .f32) (x4 : Vec F S1x16 .f32) (x5 : Vec F S8x16 .f32) (x6 : Vec F S1x8 .f32) (x7 : Vec F S1x8 .f32) (x8 : Vec F S1x8 .f32) (x9 : Vec F S8x16 .f32) (K : PUnit → sProp 𝕄) :
    iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ owns (c : Thread nD τ) m8 fullShare x8 ∗ owns (c : Thread nD τ) m9 fullShare x9
        ∗ (∃ d, owns (c : Thread nD τ) m10 fullShare d) ∗ (∃ d, owns (c : Thread nD τ) m11 fullShare d)
        ∗ (iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ owns (c : Thread nD τ) m8 fullShare x8 ∗ owns (c : Thread nD τ) m9 fullShare x9
            ∗ owns (c : Thread nD τ) m10 fullShare (out0_10 x0 x1) ∗ owns (c : Thread nD τ) m11 fullShare (out0_11 x0 x2 x3 x4 x5 x6 x7 x8 x9)) -∗ K ⟨⟩))
      ⊢ wp frame (wpE (defs₀ (F := F)) Variants.none c none) E (cc0__prep_body i m0 hm0 m1 hm1 m2 hm2 m3 hm3 m4 hm4 m5 hm5 m6 hm6 m7 hm7 m8 hm8 m9 hm9 m10 hm10 m11 hm11) K := by
  simp only [cc0__prep_body_eq_skeleton]; unfold cc0__prep_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of pipeline 0 on core `c`: the arrays as the region finds them (`V`); after the body at
    point `t` each input's buffer at its block and each output's at `out0_W` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t)
    | ⟨11, _⟩ => out0_11 (iblk0 V c 0 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) := by dsimp only [dat0]
theorem after0_11 (c : Dev nD) (t : Fin cfg0.N) : (dat0 V c).after 11 t = out0_11 (iblk0 V c 0 t) (iblk0 V c 2 t) (iblk0 V c 3 t) (iblk0 V c 4 t) (iblk0 V c 5 t) (iblk0 V c 6 t) (iblk0 V c 7 t) (iblk0 V c 8 t) (iblk0 V c 9 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 4000000 in
/-- The body at any point: the inputs' memrefs hold their blocks (`before0_W`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Reg1.lean ====
import proofs.«115251_g55224689492446_cont_9to1_m_1185_2_alg».proof.Proof.Gen.KernelIdeal.Launch
import proofs.«115251_g55224689492446_cont_9to1_m_1185_2_alg».proof.Proof.Gen.KernelIdeal.Skeleton
import proofs.«115251_g55224689492446_cont_9to1_m_1185_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the first adjacency pass): the kernel body's half of the frame

The second pallas_call streams the adjacency matrix in 25 row blocks of 400 rows. At each grid point the body
reads the adjacency row block (window 0), the whole skinny operand `S1` (window 1, 10000x8) and the whole
skinny operand `T` (window 2, 10000x16), and stores the two products `adj_block · S1` (window 3, 400x8) and
`adj_block · T` (window 4, 400x16). Everything here is stated at a parameter `V`: the buffer contents
when the region is entered. -/

-- membership in a rectangle of large extents unfolds once per coordinate: the depth the recursion needs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the adjacency row block, its block index the grid coordinate): its current staging buffer
    holds its block at every point, for any proof data whose array is `V`'s and whose body leaves the block in
    place. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole operand `S1`, its block index constant: fetched once, the index never moves):
    its staging buffer holds the whole array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole operand `T`, its block index constant): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S400x10000 := Rect.unit (s := S400x10000) ![0, 0] S400x10000.size inb_S400x10000_S400x10000_0_0
abbrev r1_1 : Rect S10000x8 := Rect.unit (s := S10000x8) ![0, 0] S10000x8.size inb_S10000x8_S10000x8_0_0
abbrev r1_2 : Rect S10000x16 := Rect.unit (s := S10000x16) ![0, 0] S10000x16.size inb_S10000x16_S10000x16_0_0
abbrev r1_3 : Rect S400x8 := Rect.unit (s := S400x8) ![0, 0] S400x8.size inb_S400x8_S400x8_0_0
abbrev r1_4 : Rect S400x16 := Rect.unit (s := S400x16) ![0, 0] S400x16.size inb_S400x16_S400x16_0_0

/-! ## What the body leaves in each output window's buffer -/

/-- Window 3's staging buffer after the body: its one store, the product of the adjacency row block (window 0)
    with `S1` (window 1). -/
def out1_3 (x0 : Vec F S400x10000 .f32) (x1 : Vec F S10000x8 .f32) : Vec F S400x8 .f32 :=
  View.canon [⟨r1_3, k1_pay1 (View.ld x0 r1_0) (View.ld x1 r1_1)⟩]

/-- Window 4's staging buffer after the body: its one store, the product of the adjacency row block (window 0)
    with `T` (window 2). -/
def out1_4 (x0 : Vec F S400x10000 .f32) (x2 : Vec F S10000x16 .f32) : Vec F S400x16 .f32 :=
  View.canon [⟨r1_4, k1_pay2 (View.ld x0 r1_0) (View.ld x2 r1_2)⟩]

/-- The one store of window 3 tiles its buffer (one tile, the whole shape), so it covers it. -/
theorem cover1_3 (p0 : Vec F S400x8 .f32) (y : S400x8.Idx) :
    ∃ pc ∈ ([⟨r1_3, p0⟩] : List (View.Piece (Elt F) S400x8 .f32)), y ∈ pc.1.set :=
  View.cover_of_tiled [⟨r1_3, p0⟩] S400x8.size (by rfl) y

/-- The one store of window 4 tiles its buffer, so it covers it. -/
theorem cover1_4 (p0 : Vec F S400x16 .f32) (y : S400x16.Idx) :
    ∃ pc ∈ ([⟨r1_4, p0⟩] : List (View.Piece (Elt F) S400x16 .f32)), y ∈ pc.1.set :=
  View.cover_of_tiled [⟨r1_4, p0⟩] S400x16.size (by rfl) y

/-! ## The body's triple -/

set_option maxHeartbeats 1000000 in
/-- The kernel body on whole staging memrefs, the three inputs' at read contents `x0 x1 x2` and the two outputs' at
    anything, runs to the continuation holding the inputs' as they were and the outputs' at `out1_3 x0 x1` and
    `out1_4 x0 x2`. The body also loads each output buffer before storing it; what those loads read is discarded. -/
theorem sound_kernel1 (c : Dev nD) (E : Set ℕ) (i : grid1.Coords)
    (arg0 : Memref sig .tc .vmem S400x10000 .f32) (harg0 : arg0.IsWhole) (arg1 : Memref sig .tc .vmem S10000x8 .f32) (harg1 : arg1.IsWhole)
    (arg2 : Memref sig .tc .vmem S10000x16 .f32) (harg2 : arg2.IsWhole) (arg3 : Memref sig .tc .vmem S400x8 .f32) (harg3 : arg3.IsWhole)
    (arg4 : Memref sig .tc .vmem S400x16 .f32) (harg4 : arg4.IsWhole)
    (x0 : Vec F S400x10000 .f32) (x1 : Vec F S10000x8 .f32) (x2 : Vec F S10000x16 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1) ∗ owns (c : Thread nD τ) arg4 fullShare (out1_4 x0 x2)) -∗ K ⟨⟩))
      ⊢ wp frame (wpE (defs₀ (F := F)) Variants.none c none) E (cc1__pass1_body i arg0 harg0 arg1 harg1 arg2 harg2 arg3 harg3 arg4 harg4) K := by
  simp only [cc1__pass1_body_eq_skeleton]; unfold cc1__pass1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block, output 3's at the product of blocks 0 and 1, output 4's at the product
    of blocks 0 and 2; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Fold01.lean ====
/- The buffer contents at the boundaries of the program's first three segments — the launch, after the host operations,
   and after each of the first two pallas_calls — as a fold from the launch memory: a region leaves each of its windows'
   arrays at what its write-backs fold to and every other buffer as it found it. Read back through the fold, every
   argument array holds its launch contents: no host operation writes one and a region stages one through an input
   window at most. Generic in the float instance. -/
import proofs.«115251_g55224689492446_cont_9to1_m_1185_2_alg».proof.Proof.KI.Reg0
import proofs.«115251_g55224689492446_cont_9to1_m_1185_2_alg».proof.Proof.KI.Reg1
import proofs.«115251_g55224689492446_cont_9to1_m_1185_2_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the host operations (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b

/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents, which region 1 is entered with). -/
abbrev V2 : (c : Dev nD) → (b : Ref sig .tc) → Buf (Elt F) ((c : Thread nD τ).loc b) := fun c b => W2 m c b
/-- At region 0's exit each of its arrays holds what the pipeline leaves (`hF0`) and every other buffer what it
    held at entry (`hrest0`). -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (region 1's exit contents, which region 2 is entered with). -/
abbrev V3 : (c : Dev nD) → (b : Ref sig .tc) → Buf (Elt F) ((c : Thread nD τ).loc b) := fun c b => W3 m c b
/-- At region 1's exit each of its arrays holds what the pipeline leaves (`hF1`) and every other buffer what it
    held at entry (`hrest1`). -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched

No host operation writes an argument, and a region reads one through an input window or not at all, so the fold at
an argument's buffer walks back to the launch memory. -/

/-- The host operations write none of the arguments. -/
theorem W1_of_not_written (c : Dev nD) (r : Ref sig .tc) (h : r ∉ (hostOps0_W : List (Ref sig .tc))) :
    W1 m c (Proc.devRef .tc r) = W0 m c (Proc.devRef .tc r) :=
  Gen.V1_of m c r h

end Cert.KernelIdeal.Hand

end
-- ==== Proof.KI.Reg2.lean ====
/-
  The third pallas_call (the second pass over the adjacency) as a pipeline region, at any float instance.

  Its grid has 25 points; point `t` stages rows 400 t … 400 t + 399 of the adjacency and of the first pass's second
  product, and the whole of the first pass's first product, the two biases and the upper half of the second weight.
  The body has two control cases. At the FIRST point it fills the scratch buffer with
  `M = relu (P1 + b1) · w2a` (a function of whole-array windows only, so the same at every point) and then computes the
  output block from it; at every LATER point it reads the scratch buffer as the first point left it. The region
  invariant therefore carries, after the first point, the scratch buffer at that one value.
-/
import proofs.«115251_g55224689492446_cont_9to1_m_1185_2_alg».proof.Proof.Gen.KernelIdeal.Launch
import proofs.«115251_g55224689492446_cont_9to1_m_1185_2_alg».proof.Proof.Gen.KernelIdeal.Skeleton
import proofs.«115251_g55224689492446_cont_9to1_m_1185_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- An input window's current staging buffer holds its block at every point, fetched there or not (a window whose
   block index never moves is fetched once and keeps its block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The control case -/

/-- The body's one conditional: "this is the grid's first point". -/
abbrev cond2 (i : grid2.Coords) : Prop :=
  (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

/-- The grid's first point. -/
def t2_0 : Fin cfg2.N := ⟨0, by rw [show cfg2.N = 25 from N_2]; decide⟩

/-! ## The body's accesses, and what it leaves -/

abbrev r2_0 : Rect S400x10000 := Rect.unit (s := S400x10000) ![0, 0] S400x10000.size inb_S400x10000_S400x10000_0_0
abbrev r2_1 : Rect S10000x8 := Rect.unit (s := S10000x8) ![0, 0] S10000x8.size inb_S10000x8_S10000x8_0_0
abbrev r2_2 : Rect S400x16 := Rect.unit (s := S400x16) ![0, 0] S400x16.size inb_S400x16_S400x16_0_0
abbrev r2_3 : Rect S1x8 := Rect.unit (s := S1x8) ![0, 0] S1x8.size inb_S1x8_S1x8_0_0
abbrev r2_4 : Rect S1x16 := Rect.unit (s := S1x16) ![0, 0] S1x16.size inb_S1x16_S1x16_0_0
abbrev r2_5 : Rect S8x16 := Rect.unit (s := S8x16) ![0, 0] S8x16.size inb_S8x16_S8x16_0_0
abbrev r2_S : Rect S10000x16 := Rect.unit (s := S10000x16) ![0, 0] S10000x16.size inb_S10000x16_S10000x16_0_0

/-- The scratch buffer after the first point: its one whole store, of the first product's block, the first bias and
    the upper half of the second weight. -/
def scr2 (x1 : Vec F S10000x8 .f32) (x3 : Vec F S1x8 .f32) (x5 : Vec F S8x16 .f32) : Vec F S10000x16 .f32 :=
  View.canon [⟨r2_S, k2_pay1 (View.ld x1 r2_1) (View.ld x3 r2_3) (View.ld x5 r2_5)⟩]

/-- The output window's staging buffer after the body: its one whole store, of the adjacency block, the scratch
    buffer's contents `s`, the second product's block and the second bias. -/
def out2_6 (x0 : Vec F S400x10000 .f32) (s : Vec F S10000x16 .f32) (x2 : Vec F S400x16 .f32) (x4 : Vec F S1x16 .f32) : Vec F S400x16 .f32 :=
  View.canon [⟨r2_2, k2_pay2 (View.ld x0 r2_0) (View.ld s r2_S) (View.ld x2 r2_2) (View.ld x4 r2_4)⟩]

theorem cover2_S (p0 : Vec F S10000x16 .f32) (y : S10000x16.Idx) :
    ∃ pc ∈ ([⟨r2_S, p0⟩] : List (View.Piece (Elt F) S10000x16 .f32)), y ∈ pc.1.set :=
  View.cover_of_tiled [⟨r2_S, p0⟩] S10000x16.size (by rfl) y
theorem cover2_6 (p0 : Vec F S400x16 .f32) (y : S400x16.Idx) :
    ∃ pc ∈ ([⟨r2_2, p0⟩] : List (View.Piece (Elt F) S400x16 .f32)), y ∈ pc.1.set :=
  View.cover_of_tiled [⟨r2_2, p0⟩] S400x16.size (by rfl) y

/-! ## Reading back what the body's stores leave -/

/-- The scratch buffer read back after its one whole store is `scr2` of the three loaded buffers. -/
theorem scr_read (arg2 : Memref sig .tc .vmem S10000x8 .f32) (arg4 : Memref sig .tc .vmem S1x8 .f32) (arg6 : Memref sig .tc .vmem S8x16 .f32)
    (arg8 : Memref sig .tc .vmem S10000x16 .f32)
    (f1 : arg2.view.ty.Contents (Elt F)) (f3 : arg4.view.ty.Contents (Elt F)) (f5 : arg6.view.ty.Contents (Elt F)) (f7 : arg8.view.ty.Contents (Elt F)) :
    View.read (Elt F) arg8.view (arg8.view.writes (Elt F) f7 [⟨r2_S, k2_pay1
        (View.readAt (Elt F) arg2.view r2_1.toLoadRect f1) (View.readAt (Elt F) arg4.view r2_3.toLoadRect f3) (View.readAt (Elt F) arg6.view r2_5.toLoadRect f5)⟩])
      = scr2 (View.read (Elt F) arg2.view f1) (View.read (Elt F) arg4.view f3) (View.read (Elt F) arg6.view f5) :=
  View.read_writes_eq_canon _ _ _ (cover2_S _)

/-- The output buffer read back after its one whole store is `out2_6` of the loaded buffers and the scratch value `s`. -/
theorem out_read (arg1 : Memref sig .tc .vmem S400x10000 .f32) (arg3 : Memref sig .tc .vmem S400x16 .f32) (arg5 : Memref sig .tc .vmem S1x16 .f32)
    (arg7 : Memref sig .tc .vmem S400x16 .f32)
    (f0 : arg1.view.ty.Contents (Elt F)) (f2 : arg3.view.ty.Contents (Elt F)) (f4 : arg5.view.ty.Contents (Elt F))
    (f6 : arg7.view.ty.Contents (Elt F)) (s : Vec F S10000x16 .f32) :
    View.read (Elt F) arg7.view (arg7.view.writes (Elt F) f6 [⟨r2_2, k2_pay2
        (View.readAt (Elt F) arg1.view r2_0.toLoadRect f0) (View.ld s r2_S)
        (View.readAt (Elt F) arg3.view r2_2.toLoadRect f2) (View.readAt (Elt F) arg5.view r2_4.toLoadRect f4)⟩])
      = out2_6 (View.read (Elt F) arg1.view f0) s (View.read (Elt F) arg3.view f2) (View.read (Elt F) arg5.view f4) :=
  View.read_writes_eq_canon _ _ _ (cover2_6 _)

/-- The same at the grid's first point, where the body loads the scratch buffer right after storing it: the load reads
    the stored value back. -/
theorem out_read_first (arg1 : Memref sig .tc .vmem S400x10000 .f32) (arg2 : Memref sig .tc .vmem S10000x8 .f32) (arg3 : Memref sig .tc .vmem S400x16 .f32)
    (arg4 : Memref sig .tc .vmem S1x8 .f32) (arg5 : Memref sig .tc .vmem S1x16 .f32) (arg6 : Memref sig .tc .vmem S8x16 .f32)
    (arg7 : Memref sig .tc .vmem S400x16 .f32) (arg8 : Memref sig .tc .vmem S10000x16 .f32)
    (f0 : arg1.view.ty.Contents (Elt F)) (f1 : arg2.view.ty.Contents (Elt F)) (f2 : arg3.view.ty.Contents (Elt F))
    (f3 : arg4.view.ty.Contents (Elt F)) (f4 : arg5.view.ty.Contents (Elt F)) (f5 : arg6.view.ty.Contents (Elt F))
    (f6 : arg7.view.ty.Contents (Elt F)) :
    View.read (Elt F) arg7.view (arg7.view.writes (Elt F) f6 [⟨r2_2, k2_pay2
        (View.readAt (Elt F) arg1.view r2_0.toLoadRect f0)
        (arg8.view.readCov [⟨r2_S, k2_pay1 (View.readAt (Elt F) arg2.view r2_1.toLoadRect f1)
            (View.readAt (Elt F) arg4.view r2_3.toLoadRect f3) (View.readAt (Elt F) arg6.view r2_5.toLoadRect f5)⟩] r2_S.toLoadRect)
        (View.readAt (Elt F) arg3.view r2_2.toLoadRect f2) (View.readAt (Elt F) arg5.view r2_4.toLoadRect f4)⟩])
      = out2_6 (View.read (Elt F) arg1.view f0)
          (scr2 (View.read (Elt F) arg2.view f1) (View.read (Elt F) arg4.view f3) (View.read (Elt F) arg6.view f5))
          (View.read (Elt F) arg3.view f2) (View.read (Elt F) arg5.view f4) := by
  rw [View.readCov_eq_canon_ld _ _ _ (cover2_S _)]
  exact out_read arg1 arg3 arg5 arg7 f0 f2 f4 f6 _

/-! ## The body's triple, per control case -/

set_option maxHeartbeats 4000000 in
/-- At the first point: from the inputs' memrefs at their contents and the output's and the scratch's at anything, the
    body ends with the scratch at `scr2` of the inputs and the output at `out2_6` over that. -/
theorem sound_kernel2_first (c : Dev nD) (E : Set ℕ) (i : grid2.Coords) (hc : cond2 i) (arg1 : Memref sig .tc .vmem S400x10000 .f32) (harg1 : arg1.IsWhole) (arg2 : Memref sig .tc .vmem S10000x8 .f32) (harg2 : arg2.IsWhole) (arg3 : Memref sig .tc .vmem S400x16 .f32) (harg3 : arg3.IsWhole) (arg4 : Memref sig .tc .vmem S1x8 .f32) (harg4 : arg4.IsWhole) (arg5 : Memref sig .tc .vmem S1x16 .f32) (harg5 : arg5.IsWhole) (arg6 : Memref sig .tc .vmem S8x16 .f32) (harg6 : arg6.IsWhole) (arg7 : Memref sig .tc .vmem S400x16 .f32) (harg7 : arg7.IsWhole) (arg8 : Memref sig .tc .vmem S10000x16 .f32) (harg8 : arg8.IsWhole)
    (x0 : Vec F S400x10000 .f32) (x1 : Vec F S10000x8 .f32) (x2 : Vec F S400x16 .f32) (x3 : Vec F S1x8 .f32) (x4 : Vec F S1x16 .f32) (x5 : Vec F S8x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 (scr2 x1 x3 x5) x2 x4) ∗ owns (c : Thread nD τ) arg8 fullShare (scr2 x1 x3 x5)) -∗ K ⟨⟩))
      ⊢ wp frame (wpE (defs₀ (F := F)) Variants.none c none) E (cc2__pass2_body i arg1 harg1 arg2 harg2 arg3 harg3 arg4 harg4 arg5 harg5 arg6 harg6 arg7 harg7 arg8 harg8) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    exact out_read_first arg1 arg2 arg3 arg4 arg5 arg6 arg7 arg8 f0 f1 f2 f3 f4 f5 f6
  iexists _; isplitr
  swap; · iexact H7
  ipureintro
  sl_unfold_run_names
  exact scr_read arg2 arg4 arg6 arg8 f1 f3 f5 f7

set_option maxHeartbeats 4000000 in
/-- At a later point: the scratch holds `s` and is only read; the output ends at `out2_6` over `s`. -/
theorem sound_kernel2_later (c : Dev nD) (E : Set ℕ) (i : grid2.Coords) (hc : ¬cond2 i) (arg1 : Memref sig .tc .vmem S400x10000 .f32) (harg1 : arg1.IsWhole) (arg2 : Memref sig .tc .vmem S10000x8 .f32) (harg2 : arg2.IsWhole) (arg3 : Memref sig .tc .vmem S400x16 .f32) (harg3 : arg3.IsWhole) (arg4 : Memref sig .tc .vmem S1x8 .f32) (harg4 : arg4.IsWhole) (arg5 : Memref sig .tc .vmem S1x16 .f32) (harg5 : arg5.IsWhole) (arg6 : Memref sig .tc .vmem S8x16 .f32) (harg6 : arg6.IsWhole) (arg7 : Memref sig .tc .vmem S400x16 .f32) (harg7 : arg7.IsWhole) (arg8 : Memref sig .tc .vmem S10000x16 .f32) (harg8 : arg8.IsWhole)
    (x0 : Vec F S400x10000 .f32) (x1 : Vec F S10000x8 .f32) (x2 : Vec F S400x16 .f32) (x3 : Vec F S1x8 .f32) (x4 : Vec F S1x16 .f32) (x5 : Vec F S8x16 .f32) (s : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 s x2 x4) ∗ owns (c : Thread nD τ) arg8 fullShare s) -∗ K ⟨⟩))
      ⊢ wp frame (wpE (defs₀ (F := F)) Variants.none c none) E (cc2__pass2_body i arg1 harg1 arg2 harg2 arg3 harg3 arg4 harg4 arg5 harg5 arg6 harg6 arg7 harg7 arg8 harg8) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists f7; isplitr; · ipureintro; rfl
  iexact H7

/-! ## The region invariant and the proof data -/

/-- The scratch operand: a whole buffer of the kernel's own, passed beside the windows. -/
abbrev scM2 : Memref sig .tc .vmem S10000x16 .f32 := Memref.whole cc2_scratch0

/-- The core's scoped buffers that this region does not stage — the other two regions' staging buffers, each whole at
    some contents — beside what is said of the scratch buffer (`S`). -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ S)

/-- The class invariant with the scratch operand as a memref owned at some contents. -/
theorem PhiA2_eq (c : Dev nD) :
    (Pipeline.ΦA spec2 c : sProp 𝕄)
      = iprop(restWith c iprop(∃ d, owns (c : Thread nD τ) scM2 fullShare d) ∗ (∃ r, prngReg c r)) := by
  unfold Pipeline.ΦA restWith; rw [scopedRest2_eq]; simp only [scM2, owns_whole]; try rfl

/-- What the scratch buffer holds from the first point on: `scr2` of the three whole-array windows' blocks (the
    same block at every point; read here at the first). -/
def scrAt (c : Dev nD) : Vec F S10000x16 .f32 := scr2 (iblk2 V c 1 t2_0) (iblk2 V c 3 t2_0) (iblk2 V c 5 t2_0)

/-- The invariant before position `n`: before the first point the class's (the scratch at anything); afterwards the
    scratch at `scrAt`, and the generator register at some state. -/
def PhiS (c : Dev nD) : ℕ → sProp 𝕄
  | 0 => Pipeline.ΦA spec2 c
  | _ + 1 => iprop(restWith c (owns (c : Thread nD τ) scM2 fullShare (scrAt V c)) ∗ (∃ r, prngReg c r))

theorem PhiS_pos (c : Dev nD) (n : ℕ) (h : n ≠ 0) :
    PhiS V c n = iprop(restWith c (owns (c : Thread nD τ) scM2 fullShare (scrAt V c)) ∗ (∃ r, prngReg c r)) := by
  cases n with
  | zero => exact absurd rfl h
  | succ n => rfl

/-- The proof data of the pipeline on core `c`: the arrays as the region finds them; after the body at point `t` each
    input's buffer at its block and the output's at `out2_6` over the carried scratch value; the invariant `PhiS`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (scrAt V c) (iblk2 V c 2 t) (iblk2 V c 4 t)
  Φ t := PhiS V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (scrAt V c) (iblk2 V c 2 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 2000000 in
/-- The body at any point. At the first point the invariant hands over the scratch at anything and takes it back at
    `scrAt`; at a later point it hands it over at `scrAt` and takes it back unchanged. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl,
    show (dat2 V c).Φ t.succ = iprop(restWith c (owns (c : Thread nD τ) scM2 fullShare (scrAt V c)) ∗ (∃ r, prngReg c r)) from rfl,
    after2_0, after2_1, after2_2, after2_3, after2_4, after2_5, after2_6]
  by_cases hz : t.val = 0
  · obtain rfl : t = t2_0 := Fin.ext hz
    rw [show (dat2 V c).Φ t2_0.castSucc = Pipeline.ΦA spec2 c from rfl, PhiA2_eq]
    unfold restWith
    iintro ⟨⟨⟨A1, A2, A3, A4, A5, A6, A7, A8, A9, A10, A11, A12, A13, A14, A15, A16, A17, A18, A19, A20, A21, A22, A23, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_first c Set.univ (grid2.coords t2_0) ((hcond2 t2_0).mpr hz) _ _ _ _ _ _ _ _ _ _ _ _ _ _ _ _
      (iblk2 V c 0 t2_0) (iblk2 V c 1 t2_0) (iblk2 V c 2 t2_0) (iblk2 V c 3 t2_0) (iblk2 V c 4 t2_0) (iblk2 V c 5 t2_0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [A1 A2 A3 A4 A5 A6 A7 A8 A9 A10 A11 A12 A13 A14 A15 A16 A17 A18 A19 A20 A21 A22 A23 HS Hg]
    · isplitl [A1 A2 A3 A4 A5 A6 A7 A8 A9 A10 A11 A12 A13 A14 A15 A16 A17 A18 A19 A20 A21 A22 A23 HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        isplitl [A13]; · iexact A13
        isplitl [A14]; · iexact A14
        isplitl [A15]; · iexact A15
        isplitl [A16]; · iexact A16
        isplitl [A17]; · iexact A17
        isplitl [A18]; · iexact A18
        isplitl [A19]; · iexact A19
        isplitl [A20]; · iexact A20
        isplitl [A21]; · iexact A21
        isplitl [A22]; · iexact A22
        isplitl [A23]; · iexact A23
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dat2 V c).Φ t.castSucc = PhiS V c t.val from rfl, PhiS_pos V c _ hz]
    unfold restWith
    iintro ⟨⟨⟨A1, A2, A3, A4, A5, A6, A7, A8, A9, A10, A11, A12, A13, A14, A15, A16, A17, A18, A19, A20, A21, A22, A23, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_later c Set.univ (grid2.coords t) (fun h => hz ((hcond2 t).mp h)) _ _ _ _ _ _ _ _ _ _ _ _ _ _ _ _
      (iblk2 V c 0 t) (iblk2 V c 1 t) (iblk2 V c 2 t) (iblk2 V c 3 t) (iblk2 V c 4 t) (iblk2 V c 5 t) (scrAt V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [A1 A2 A3 A4 A5 A6 A7 A8 A9 A10 A11 A12 A13 A14 A15 A16 A17 A18 A19 A20 A21 A22 A23 HS Hg]
    · isplitl [A1 A2 A3 A4 A5 A6 A7 A8 A9 A10 A11 A12 A13 A14 A15 A16 A17 A18 A19 A20 A21 A22 A23 HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        isplitl [A13]; · iexact A13
        isplitl [A14]; · iexact A14
        isplitl [A15]; · iexact A15
        isplitl [A16]; · iexact A16
        isplitl [A17]; · iexact A17
        isplitl [A18]; · iexact A18
        isplitl [A19]; · iexact A19
        isplitl [A20]; · iexact A20
        isplitl [A21]; · iexact A21
        isplitl [A22]; · iexact A22
        isplitl [A23]; · iexact A23
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Pipeline.ΦA spec2 c from rfl]

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS V c cfg2.N from rfl,
    PhiS_pos V c _ (by rw [show cfg2.N = 25 from N_2]; decide), PhiA2_eq]
  unfold restWith
  iintro ⟨⟨A1, A2, A3, A4, A5, A6, A7, A8, A9, A10, A11, A12, A13, A14, A15, A16, A17, A18, A19, A20, A21, A22, A23, HS⟩, Hg⟩
  isplitl [A1 A2 A3 A4 A5 A6 A7 A8 A9 A10 A11 A12 A13 A14 A15 A16 A17 A18 A19 A20 A21 A22 A23 HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    iexists _; iexact HS
  iexact Hg

end Cert.KernelIdeal.Hand

end
-- ==== Proof.KI.Fold.lean ====
/- The buffer contents after the third pallas_call, continuing the fold from the launch memory, and every argument
   array read back through the whole fold to its launch contents. Generic in the float instance. -/
import proofs.«115251_g55224689492446_cont_9to1_m_1185_2_alg».proof.Proof.KI.Fold01
import proofs.«115251_g55224689492446_cont_9to1_m_1185_2_alg».proof.Proof.KI.Reg2
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- At region 2's exit: its arrays at what the pipeline leaves (the inputs as entered, each output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m c b
/-- At region 2's exit each of its arrays holds what the pipeline leaves (`hF2`) and every other buffer what it
    held at entry (`hrest2`). -/
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_not_written m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := W1_of_not_written m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := W1_of_not_written m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_not_written m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_not_written m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := (W2_arr m c 2).trans (((dat0 (V1 m) c).arrAt_in 2 rfl _).trans (A_eq0 (V1 m) c 2))
    _ = W0 m c (Proc.devRef .tc main_arg6) := W1_of_not_written m c main_arg6 (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := W3_of_ne m c main_arg7 (by decide)
    _ = W1 m c (Proc.devRef .tc main_arg7) := (W2_arr m c 3).trans (((dat0 (V1 m) c).arrAt_in 3 rfl _).trans (A_eq0 (V1 m) c 3))
    _ = W0 m c (Proc.devRef .tc main_arg7) := W1_of_not_written m c main_arg7 (by decide)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := W1_of_not_written m c main_arg8 (by decide)
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := W3_of_ne m c main_arg9 (by decide)
    _ = W1 m c (Proc.devRef .tc main_arg9) := (W2_arr m c 5).trans (((dat0 (V1 m) c).arrAt_in 5 rfl _).trans (A_eq0 (V1 m) c 5))
    _ = W0 m c (Proc.devRef .tc main_arg9) := W1_of_not_written m c main_arg9 (by decide)
    _ = m ((c : Thread nD τ).loc main_arg9) := rfl

theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := W1_of_not_written m c main_arg10 (by decide)
    _ = m ((c : Thread nD τ).loc main_arg10) := rfl

theorem W4_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := W1_of_not_written m c main_arg11 (by decide)
    _ = m ((c : Thread nD τ).loc main_arg11) := rfl

theorem W4_main_arg12 (c : Dev nD) : W4 m c (Proc.devRef .tc main_arg12) = m ((c : Thread nD τ).loc main_arg12) :=
  calc W4 m c (Proc.devRef .tc main_arg12)
    _ = W3 m c (Proc.devRef .tc main_arg12) := W4_of_ne m c main_arg12 (by decide)
    _ = W2 m c (Proc.devRef .tc main_arg12) := W3_of_ne m c main_arg12 (by decide)
    _ = W1 m c (Proc.devRef .tc main_arg12) := W2_of_ne m c main_arg12 (by decide)
    _ = W0 m c (Proc.devRef .tc main_arg12) := W1_of_not_written m c main_arg12 (by decide)
    _ = m ((c : Thread nD τ).loc main_arg12) := rfl

end Cert.KernelIdeal.Hand

end
-- ==== Proof.KI.Run.lean ====
/-
  @main as a run of segments: one stretch of host operations and the three pallas_calls, each a pipeline region whose
  proof data are the per-region modules'. The buffer contents at each segment boundary are a fold from the launch memory;
  the run ends with every unscoped buffer at the last boundary's contents, which gives both the frame (the arguments are
  never written) and the name of what the result array holds (what the third region's write-backs leave).
-/
import proofs.«115251_g55224689492446_cont_9to1_m_1185_2_alg».proof.Proof.Gen.KernelIdeal.Launch
import proofs.«115251_g55224689492446_cont_9to1_m_1185_2_alg».proof.Proof.Gen.KernelIdeal.Skeleton
import proofs.«115251_g55224689492446_cont_9to1_m_1185_2_alg».proof.Proof.Gen.KernelIdeal.Points
import proofs.«115251_g55224689492446_cont_9to1_m_1185_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at what the pipeline leaves; the generator register goes into the region
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at what the pipeline leaves; the generator register goes into the region
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split
    out of the unscoped buffers and put back at what the pipeline leaves; the generator register goes into the region
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c)⟩) (run_all m ρ)

/-- The run with the result array NAMED: it ends holding what the third region's write-backs leave of its output window,
    the proof data's `arrAt` after the last point; the arguments as launched. -/
theorem run_named : θ_run defs (onTc (τ := τ) (main (F := F))) ⟨m, fun _ => 0, ρ⟩ (fun r => ∀ c : Dev nD,
      r.2.mem ((c.tc : Thread nD τ).loc main_v0) = (dat2 (V3 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v0 (by decide))).trans (W4_arr m c 6),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c)⟩) (run_all m ρ)

end Cert.KernelIdeal.Hand

end
-- ==== Proof.Spec.lean ====
/-
  The mathematics of the two programs, as functions on the extended reals indexed by plain coordinates.

  Inputs: node features `x` (10000 × 128), adjacency `adj` (10000 × 10000), the first graph convolution's weight
  `w1` (128 × 8) and bias `b1`, the second one's weight `w2` (16 × 16) and bias `b2`, the interaction embedding
  `bw` (128 × 32), two dense layers `f1` (16 × 32), `c1` and `f2` (8 × 16), `c2`, and the batch-norm scale `γ` and
  shift `β` (8 each).

  Both programs compute, per node `i`,
    left  xl i = relu (∑ j, adj i j · (x w1) j + b1)                                   (8 columns)
    right r  i = relu (relu (bi f1ᵀ + c1) f2ᵀ + c2),  bi = ½ ((x bw)² − (x²)(bw²))      (8 columns)
  and then the row-wise log-softmax of the second graph convolution of the 16 columns [xl | xr].
  They differ in two places only:
    • the batch norm: the reference scales `r / s` by `γ`, the kernel scales `r` by `γ / s` (`s` the square root of 1.00001);
    • the second convolution: the reference multiplies the concatenation [xl | xr] by `w2` and then by `adj`; the kernel
      multiplies `xl` by the upper half of `w2` and `xr` by the lower half, applies `adj` to each, and adds.
-/
import Idealize.ShloMosaic.PureOps.Ideal
import Idealize.ShloMosaic.PureOps.Ideal.Laws

noncomputable section

namespace Cert.Spec

open Idealize.ShloMosaic

/-- A matrix product on the extended reals: `(x w) i j = ∑ t, x i t · w t j`. -/
def mm {a k b : Nat} (x : Fin a → Fin k → EReal) (w : Fin k → Fin b → EReal) : Fin a → Fin b → EReal :=
  fun i j => ∑ t : Fin k, x i t * w t j

/-- The product with the transposed second factor: `(x wᵀ) i j = ∑ t, x i t · w j t`. -/
def mmT {a k b : Nat} (x : Fin a → Fin k → EReal) (w : Fin b → Fin k → EReal) : Fin a → Fin b → EReal :=
  fun i j => ∑ t : Fin k, x i t * w j t

/-- The literal one half. -/
def half : EReal := Ideal.ofBits .f32 0x3F000000#32
/-- The square root of the literal 1.00001 (its binary value). -/
def sq : EReal := Ideal.sqrt (Ideal.ofBits .f32 0x3F800054#32)

section
variable (x : Fin 10000 → Fin 128 → EReal) (adj : Fin 10000 → Fin 10000 → EReal)
  (w1 : Fin 128 → Fin 8 → EReal) (b1 : Fin 8 → EReal) (w2 : Fin 16 → Fin 16 → EReal) (b2 : Fin 16 → EReal)
  (bw : Fin 128 → Fin 32 → EReal) (f1 : Fin 16 → Fin 32 → EReal) (c1 : Fin 16 → EReal)
  (f2 : Fin 8 → Fin 16 → EReal) (c2 : Fin 8 → EReal) (γ β : Fin 8 → EReal)

/-- The first support: `x w1`. -/
def s1 : Fin 10000 → Fin 8 → EReal := mm x w1
/-- The first graph convolution before the bias: `adj (x w1)`. -/
def p1 : Fin 10000 → Fin 8 → EReal := mm adj (s1 x w1)
/-- The left branch: `relu (adj (x w1) + b1)`. -/
def xl : Fin 10000 → Fin 8 → EReal := fun i h => max (p1 x adj w1 i h + b1 h) 0

/-- The pairwise-interaction term: half of the square of the sum minus the sum of the squares. -/
def bi : Fin 10000 → Fin 32 → EReal := fun i j =>
  half * (mm x bw i j * mm x bw i j - mm (fun i k => x i k * x i k) (fun k j => bw k j * bw k j) i j)
/-- The first dense layer with its relu. -/
def h1 : Fin 10000 → Fin 16 → EReal := fun i a => max (mmT (bi x bw) f1 i a + c1 a) 0
/-- The second dense layer, and its relu `r`. -/
def h2 : Fin 10000 → Fin 8 → EReal := fun i b => mmT (h1 x bw f1 c1) f2 i b + c2 b
def r : Fin 10000 → Fin 8 → EReal := fun i b => max (h2 x bw f1 c1 f2 c2 i b) 0

/-- The right branch as the KERNEL scales it: `r · (γ / s) + β`. -/
def xrK : Fin 10000 → Fin 8 → EReal := fun i b => r x bw f1 c1 f2 c2 i b * Ideal.div (γ b) sq + β b
/-- The right branch as the REFERENCE scales it: `(r / s) · γ + β`. -/
def xrR : Fin 10000 → Fin 8 → EReal := fun i b => Ideal.div (r x bw f1 c1 f2 c2 i b) sq * γ b + β b

/-- The upper and lower halves of the second weight. -/
def w2a : Fin 8 → Fin 16 → EReal := fun k c => w2 (Fin.castLE (by decide) k) c
def w2b : Fin 8 → Fin 16 → EReal := fun k c => w2 ⟨k.val + 8, by omega⟩ c

/-- The kernel's three products: `T = xr w2b`, `PT = adj T`, `M = xl w2a`. -/
def tK : Fin 10000 → Fin 16 → EReal := mm (xrK x bw f1 c1 f2 c2 γ β) (w2b w2)
def ptK : Fin 10000 → Fin 16 → EReal := mm adj (tK x w2 bw f1 c1 f2 c2 γ β)
def mK : Fin 10000 → Fin 16 → EReal := mm (xl x adj w1 b1) (w2a w2)
/-- The kernel's logits: `adj M + PT + b2`. -/
def oK : Fin 10000 → Fin 16 → EReal := fun i c =>
  mm adj (mK x adj w1 b1 w2) i c + ptK x adj w2 bw f1 c1 f2 c2 γ β i c + b2 c

/-- The concatenation [xl | xr] along the columns. -/
def xc : Fin 10000 → Fin 16 → EReal := fun i k =>
  if h : k.val < 8 then xl x adj w1 b1 i ⟨k.val, h⟩ else xrR x bw f1 c1 f2 c2 γ β i ⟨k.val - 8, by omega⟩
/-- The reference's logits: `adj ([xl | xr] w2) + b2`. -/
def oR : Fin 10000 → Fin 16 → EReal := fun i c =>
  mm adj (mm (xc x adj w1 b1 bw f1 c1 f2 c2 γ β) w2) i c + b2 c
end

/-- A row's maximum: the fold of `max` from `⊥` over its 16 columns. -/
def rowmax (o : Fin 10000 → Fin 16 → EReal) (i : Fin 10000) : EReal :=
  (Finset.univ : Finset (Fin 16)).fold max ⊥ (fun c => o i c)

/-- The row-wise log-softmax in its shifted form: `(o − m) − log ∑ exp (o − m)`, `m` the row's maximum. -/
def lsm (o : Fin 10000 → Fin 16 → EReal) : Fin 10000 → Fin 16 → EReal := fun i c =>
  (o i c - rowmax o i) - Ideal.log (∑ c' : Fin 16, Ideal.exp (o i c' - rowmax o i))

end Cert.Spec

end
-- ==== Proof.Curry.lean ====
/-
  Arrays of the programs' literal shapes read at plain coordinates: a matrix `A` over the index type of shape [a, b]
  as the function `(i, j) ↦ A (i, j)` of two bounded naturals, a vector likewise of one.
-/
import Idealize.ShloMosaic.Lib.ValueIdx

noncomputable section

namespace Cert.Spec

open Idealize.ShloMosaic Idealize.ShloMosaic.ValueIdx

/-- A matrix read at its two coordinates. -/
def cur2 {α : Type} {a b : Nat} (A : (⟨2, ![a, b]⟩ : Shape).Idx → α) : Fin a → Fin b → α := fun i j => A (ix2 i j)
/-- A vector read at its coordinate. -/
def cur1 {α : Type} {a : Nat} (A : (⟨1, ![a]⟩ : Shape).Idx → α) : Fin a → α := fun i => A (ix1 i)

theorem cur2_apply {α : Type} {a b : Nat} (A : (⟨2, ![a, b]⟩ : Shape).Idx → α) (i : Fin a) (j : Fin b) : cur2 A i j = A (ix2 i j) := rfl
theorem cur1_apply {α : Type} {a : Nat} (A : (⟨1, ![a]⟩ : Shape).Idx → α) (i : Fin a) : cur1 A i = A (ix1 i) := rfl
/-- A matrix is determined by its reading at coordinates. -/
theorem eq_of_cur2 {α : Type} {a b : Nat} (A B : (⟨2, ![a, b]⟩ : Shape).Idx → α) (h : cur2 A = cur2 B) : A = B := by
  funext y
  exact (congrArg A (eq_ix2 y)).trans ((congrFun (congrFun h (y 0)) (y 1)).trans (congrArg B (eq_ix2 y)).symm)
/-- The array with given readings at coordinates. -/
def unc2 {α : Type} {a b : Nat} (G : Fin a → Fin b → α) : (⟨2, ![a, b]⟩ : Shape).Idx → α := fun y => G (y 0) (y 1)
theorem cur2_unc2 {α : Type} {a b : Nat} (G : Fin a → Fin b → α) : cur2 (unc2 G) = G := rfl
theorem unc2_apply {α : Type} {a b : Nat} (G : Fin a → Fin b → α) (y : (⟨2, ![a, b]⟩ : Shape).Idx) : unc2 G y = G (y 0) (y 1) := rfl

end Cert.Spec

end
-- ==== Proof.KI.Val2Pay.lean ====
import proofs.«115251_g55224689492446_cont_9to1_m_1185_2_alg».proof.Proof.Gen.KernelIdeal.Skeleton
import proofs.«115251_g55224689492446_cont_9to1_m_1185_2_alg».proof.Proof.Spec
import proofs.«115251_g55224689492446_cont_9to1_m_1185_2_alg».proof.Proof.Curry
import Idealize.ShloMosaic.Lib.ValueIdx
import Idealize.ShloMosaic.Lib.Pipeline.Value
import Idealize.ShloMosaic.Lib.ValueLayout
import Idealize.ShloMosaic.PureOps.Ideal.Laws

/-! # Region 2 (the second adjacency pass): its two payloads read at an index, on the extended reals

The scratch payload is `M = relu (P1 + b1) · w2a` (10000 x 16), a product contracting 8 columns. The output payload
is the row-wise log-softmax, in its shifted form, of the logits `o = adj_block · M + PT_block + b2` (400 x 16): with
`m` the row's maximum, `(o − m) − log ∑ exp (o − m)`. -/

set_option maxRecDepth 16384

noncomputable section

namespace Cert.KernelIdeal.Hand.V2

open Cert.KernelIdeal Cert.KernelIdeal.Gen Cert.Spec
open Idealize.ShloMosaic Idealize.ShloMosaic.ValueIdx
open scoped BigOperators

variable {F : FTy → Type} [FloatOps F]

/-! ## Two layout operations read at coordinates: a vector as a one-column matrix, and one column broadcast over many -/

/-- A length-`a` vector cast to an `[a, 1]` matrix reads, at `(p, 0)`, the vector at `p`. -/
theorem shapeCast_a_a1_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum and a row's sum -/

/-- The accumulator word of the maximum is the bottom of the extended reals. -/
theorem ofBits_neg_inf : Ideal.ofBits .f32 0xFF800000#32 = ⊥ := by simp [Ideal.ofBits, Ideal.ieee]

/-- The maximum over the 16 columns, at row `p`: the fold of `max` from `⊥`. -/
theorem rowMax_apply (X : FVec Ideal S400x16 .f32) (h : S400x16.Reduces [1] S400) (hφ : FKind.Formats .f32)
    (hacc : (0xFF800000#32 : BitVec 32) = FKind.maximumf.neutral .f32 hφ) (p : Fin 400) :
    multiReduction (F := Ideal) .maximumf [1] S400 X 0xFF800000#32 h hφ hacc (ix1 p)
      = (Finset.univ : Finset (Fin 16)).fold max ⊥ (fun c => X (ix2 p c)) := by
  refine (Ideal.multiReduction_maximumf_single X _ h hφ hacc (ix1 p)).trans ?_
  show (Finset.univ : Finset (Fin 16)).fold max (Ideal.ofBits .f32 0xFF800000#32) (fun c => X (h.lift (ix1 p) c)) = _
  rw [ofBits_neg_inf]
  refine congrArg (fun f => Finset.fold max ⊥ f Finset.univ) (funext fun c => congrArg X (funext fun a => ?_))
  match a with
  | ⟨0, _⟩ => rfl
  | ⟨1, _⟩ => rfl

/-- The sum over the 16 columns, at row `p`. -/
theorem rowSum_apply (X : FVec Ideal S400x16 .f32) (h : S400x16.Reduces [1] S400) (hφ : FKind.Formats .f32)
    (hacc : (0x00000000#32 : BitVec 32) = FKind.add.neutral .f32 hφ) (p : Fin 400) :
    multiReduction (F := Ideal) .add [1] S400 X 0x00000000#32 h hφ hacc (ix1 p) = ∑ c : Fin 16, X (ix2 p c) := by
  refine (Ideal.multiReduction_add_single X _ h hφ hacc (ix1 p)).trans ?_
  refine Finset.sum_congr rfl fun c _ => congrArg X (funext fun a => ?_)
  match a with
  | ⟨0, _⟩ => rfl
  | ⟨1, _⟩ => rfl

/-! ## The shifted log-softmax of a 400 x 16 block -/

/-- A row's maximum as a number. -/
def rowM (X : FVec Ideal S400x16 .f32) (p : Fin 400) : EReal := (Finset.univ : Finset (Fin 16)).fold max ⊥ (fun c => X (ix2 p c))

/-- The body's operations on the logits block `X`: the row maximum kept as a column, subtracted; the exponentials'
    row sum kept as a column, its logarithm subtracted. -/
def lsmBlk (X : FVec F S400x16 .f32) : FVec F S400x16 .f32 :=
  have v13 : FVec F S400 .f32 := multiReduction .maximumf [1] S400 X 0xFF800000#32 reduces_S400x16_S400 (.inl rfl) rfl
  have v14 : FVec F S400x1 .f32 := shapeCast S400x1 v13 shapeCasts_S400_S400x1
  have v15 : FVec F S400x16 .f32 := broadcastTo S400x16 v14 broadcasts_S400x1_S400x16
  have v16 : FVec F S400x16 .f32 := subf X v15
  have v17 : FVec F S400x16 .f32 := exp v16
  have v18 : FVec F S400 .f32 := multiReduction .add [1] S400 v17 0x00000000#32 reduces_S400x16_S400 (.inl rfl) rfl
  have v19 : FVec F S400x1 .f32 := shapeCast S400x1 v18 shapeCasts_S400_S400x1
  have v20 : FVec F S400x1 .f32 := log v19
  have v21 : FVec F S400x16 .f32 := broadcastTo S400x16 v14 broadcasts_S400x1_S400x16
  have v22 : FVec F S400x16 .f32 := subf X v21
  have v23 : FVec F S400x16 .f32 := broadcastTo S400x16 v20 broadcasts_S400x1_S400x16
  subf v22 v23

/-- The row maximum, kept as a column and broadcast back, reads the row's maximum at every column. -/
theorem maxCol_apply (X : FVec Ideal S400x16 .f32) (p : Fin 400) (c : Fin 16) :
    broadcastTo S400x16 (shapeCast S400x1 (multiReduction (F := Ideal) .maximumf [1] S400 X 0xFF800000#32 reduces_S400x16_S400 (.inl rfl) rfl) shapeCasts_S400_S400x1) broadcasts_S400x1_S400x16 (ix2 p c)
      = rowM X p :=
  (broadcastTo_a1_ab_apply _ _ p c).trans ((shapeCast_a_a1_apply _ _ p 0).trans (rowMax_apply X _ _ _ p))

/-- The block's log-softmax at `(p, c)`. -/
theorem lsmBlk_apply (X : FVec Ideal S400x16 .f32) (p : Fin 400) (c : Fin 16) :
    lsmBlk (F := Ideal) X (ix2 p c) = (X (ix2 p c) - rowM X p) - Ideal.log (∑ c' : Fin 16, Ideal.exp (X (ix2 p c') - rowM X p)) := by
  unfold lsmBlk
  simp only []
  rw [subf_apply, subf_apply, maxCol_apply]
  refine congrArg (fun z => (X (ix2 p c) - rowM X p) - z) ?_
  refine (broadcastTo_a1_ab_apply _ _ p c).trans ?_
  show Ideal.log (shapeCast S400x1 _ shapeCasts_S400_S400x1 (ix2 p (0 : Fin 1))) = _
  refine congrArg Ideal.log ?_
  refine (shapeCast_a_a1_apply _ _ p 0).trans ?_
  refine (rowSum_apply _ _ _ _ p).trans ?_
  refine Finset.sum_congr rfl fun c' _ => ?_
  show Ideal.exp (subf X _ (ix2 p c')) = _
  rw [subf_apply, maxCol_apply]

/-! ## The output payload -/

theorem lhsO_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhsO_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhsO_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhsO_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The logits block: the adjacency block times the scratch `M`, plus the `PT` block, plus the bias row. -/
def logits (v3 : Vec F S400x10000 .f32) (v4 : Vec F S10000x16 .f32) (v6 : Vec F S400x16 .f32) (v9 : Vec F S1x16 .f32) : FVec F S400x16 .f32 :=
  addf (addf (matmul dot_S400x10000_S10000x16_S400x16_1_0_0_1_n_n none v3 v4 (constant S400x16 .f32 0x00000000#32)) (shapeCast S400x16 v6 shapeCasts_S400x16_S400x16))
    (broadcastTo S400x16 (shapeCast S1x16 v9 shapeCasts_S1x16_S1x16) broadcasts_S1x16_S400x16)

/-- The logits as numbers. -/
def o (v3 : Vec Ideal S400x10000 .f32) (v4 : Vec Ideal S10000x16 .f32) (v6 : Vec Ideal S400x16 .f32) (v9 : Vec Ideal S1x16 .f32) (p : Fin 400) (c : Fin 16) : EReal :=
  (∑ j : Fin 10000, v3 (ix2 p j) * v4 (ix2 j c)) + v6 (ix2 p c) + v9 (ix2 (0 : Fin 1) c)

/-- A logits row's maximum. -/
def M (v3 : Vec Ideal S400x10000 .f32) (v4 : Vec Ideal S10000x16 .f32) (v6 : Vec Ideal S400x16 .f32) (v9 : Vec Ideal S1x16 .f32) (p : Fin 400) : EReal :=
  (Finset.univ : Finset (Fin 16)).fold max ⊥ (fun c => o v3 v4 v6 v9 p c)

/-- The printed payload is the log-softmax of the logits block. -/
theorem pay2_eq (v3 : Vec F S400x10000 .f32) (v4 : Vec F S10000x16 .f32) (v6 : Vec F S400x16 .f32) (v9 : Vec F S1x16 .f32) :
    k2_pay2 v3 v4 v6 v9 = lsmBlk (logits v3 v4 v6 v9) := rfl

/-- The matrix product into the zero accumulator, at `(p, c)`: the sum over the 10000 contracted coordinates. -/
theorem mmO_apply (v3 : Vec Ideal S400x10000 .f32) (v4 : Vec Ideal S10000x16 .f32) (p : Fin 400) (c : Fin 16) :
    matmul (F := Ideal) (φ₁ := .f32) (φ₂ := .f32) dot_S400x10000_S10000x16_S400x16_1_0_0_1_n_n none v3 v4 (constant S400x16 .f32 0x00000000#32) (ix2 p c) = ∑ j : Fin 10000, v3 (ix2 p j) * v4 (ix2 j c) := by
  simp only [matmul]
  refine (Ideal.matmul_constant_zero_apply (φ₁ := .f32) (φ₂ := .f32) dot_S400x10000_S10000x16_S400x16_1_0_0_1_n_n none v3 v4 (ix2 p c)).trans ?_
  rw [← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 p c) ((contrEquiv1 dot_S400x10000_S10000x16_S400x16_1_0_0_1_n_n 10000 rfl rfl).symm k) = ix2 p k := funext fun a => Fin.ext (by
    match a with
    | ⟨0, _⟩ => exact lhsO_0 _ _
    | ⟨1, _⟩ => exact (lhsO_1 _ _).trans hk)
  have er : dot_S400x10000_S10000x16_S400x16_1_0_0_1_n_n.rhsIdx (ix2 p c) ((contrEquiv1 dot_S400x10000_S10000x16_S400x16_1_0_0_1_n_n 10000 rfl rfl).symm k) = ix2 k c := funext fun a => Fin.ext (by
    match a with
    | ⟨0, _⟩ => exact (rhsO_0 _ _).trans hk
    | ⟨1, _⟩ => exact rhsO_1 _ _)
  rw [el, er]

/-- The logits block at `(p, c)`. -/
theorem logits_apply (v3 : Vec Ideal S400x10000 .f32) (v4 : Vec Ideal S10000x16 .f32) (v6 : Vec Ideal S400x16 .f32) (v9 : Vec Ideal S1x16 .f32) (p : Fin 400) (c : Fin 16) :
    logits (F := Ideal) v3 v4 v6 v9 (ix2 p c) = o v3 v4 v6 v9 p c := by
  unfold logits o
  rw [addf_apply, addf_apply, mmO_apply, shapeCast_self, shapeCast_self, broadcastTo_1b_ab_apply]

/-- THE OUTPUT PAYLOAD at `(p, c)`: the shifted log-softmax of the logits row `p`. -/
theorem pay2_apply (v3 : Vec Ideal S400x10000 .f32) (v4 : Vec Ideal S10000x16 .f32) (v6 : Vec Ideal S400x16 .f32) (v9 : Vec Ideal S1x16 .f32) (p : Fin 400) (c : Fin 16) :
    k2_pay2 (F := Ideal) v3 v4 v6 v9 (ix2 p c)
      = (o v3 v4 v6 v9 p c - M v3 v4 v6 v9 p) - Ideal.log (∑ c' : Fin 16, Ideal.exp (o v3 v4 v6 v9 p c' - M v3 v4 v6 v9 p)) := by
  rw [pay2_eq, lsmBlk_apply]
  unfold rowM M
  simp only [logits_apply]

/-! ## The scratch payload -/

theorem lhsS_0 (i : S10000x16.Idx) (q : dot_S10000x8_S8x16_S10000x16_1_0_0_1_n_n.contr.Idx) :
    (dot_S10000x8_S8x16_S10000x16_1_0_0_1_n_n.lhsIdx i q 0).val = (i 0).val := by
  unfold DotDims.lhsIdx
  rw [dif_neg (show ¬(0 : Fin S10000x8.rank) ∈ dot_S10000x8_S8x16_S10000x16_1_0_0_1_n_n.lhsBatch by decide), dif_pos (show (0 : Fin S10000x8.rank) ∈ dot_S10000x8_S8x16_S10000x16_1_0_0_1_n_n.lhsNonContracting by decide)]
  rfl
theorem lhsS_1 (i : S10000x16.Idx) (q : dot_S10000x8_S8x16_S10000x16_1_0_0_1_n_n.contr.Idx) :
    (dot_S10000x8_S8x16_S10000x16_1_0_0_1_n_n.lhsIdx i q 1).val = (q ⟨0, by decide⟩).val :=
  dot_S10000x8_S8x16_S10000x16_1_0_0_1_n_n.lhsIdx_val_of_single rfl i q
theorem rhsS_0 (i : S10000x16.Idx) (q : dot_S10000x8_S8x16_S10000x16_1_0_0_1_n_n.contr.Idx) :
    (dot_S10000x8_S8x16_S10000x16_1_0_0_1_n_n.rhsIdx i q 0).val = (q ⟨0, by decide⟩).val :=
  dot_S10000x8_S8x16_S10000x16_1_0_0_1_n_n.rhsIdx_val_of_single rfl i q
theorem rhsS_1 (i : S10000x16.Idx) (q : dot_S10000x8_S8x16_S10000x16_1_0_0_1_n_n.contr.Idx) :
    (dot_S10000x8_S8x16_S10000x16_1_0_0_1_n_n.rhsIdx i q 1).val = (i 1).val := by
  unfold DotDims.rhsIdx
  rw [dif_neg (show ¬(1 : Fin S8x16.rank) ∈ dot_S10000x8_S8x16_S10000x16_1_0_0_1_n_n.rhsBatch by decide), dif_pos (show (1 : Fin S8x16.rank) ∈ dot_S10000x8_S8x16_S10000x16_1_0_0_1_n_n.rhsNonContracting by decide)]
  rfl

/-- The left branch's hidden block: `relu (P1 + b1)`. -/
def hid (v26 : Vec F S10000x8 .f32) (v28 : Vec F S1x8 .f32) : FVec F S10000x8 .f32 :=
  maximumf (addf (shapeCast S10000x8 v26 shapeCasts_S10000x8_S10000x8) (broadcastTo S10000x8 (shapeCast S1x8 v28 shapeCasts_S1x8_S1x8) broadcasts_S1x8_S10000x8))
    (broadcast S10000x8 (Scalar.ofBits .f32 0x00000000#32))

/-- The printed payload is the product of the hidden block with the weight's upper half. -/
theorem pay1_eq (v26 : Vec F S10000x8 .f32) (v28 : Vec F S1x8 .f32) (v34 : Vec F S8x16 .f32) :
    k2_pay1 v26 v28 v34
      = shapeCast S10000x16 (matmul dot_S10000x8_S8x16_S10000x16_1_0_0_1_n_n none (hid v26 v28) (shapeCast S8x16 v34 shapeCasts_S8x16_S8x16) (constant S10000x16 .f32 0x00000000#32)) shapeCasts_S10000x16_S10000x16 := rfl

/-- The hidden block at `(j, h)`. -/
theorem hid_apply (v26 : Vec Ideal S10000x8 .f32) (v28 : Vec Ideal S1x8 .f32) (j : Fin 10000) (h : Fin 8) :
    hid (F := Ideal) v26 v28 (ix2 j h) = max (v26 (ix2 j h) + v28 (ix2 (0 : Fin 1) h)) 0 := by
  unfold hid
  rw [maximumf_apply, addf_apply, shapeCast_self, shapeCast_self, broadcastTo_1b_ab_apply, broadcast_apply]
  show max _ (Ideal.ofBits .f32 0x00000000#32) = _
  rw [Ideal.ofBits_zero_f32]

/-- THE SCRATCH PAYLOAD at `(j, c)`: row `j` of `relu (P1 + b1)` against column `c` of the weight's upper half. -/
theorem pay1_apply (v26 : Vec Ideal S10000x8 .f32) (v28 : Vec Ideal S1x8 .f32) (v34 : Vec Ideal S8x16 .f32) (j : Fin 10000) (c : Fin 16) :
    k2_pay1 (F := Ideal) v26 v28 v34 (ix2 j c) = ∑ h : Fin 8, max (v26 (ix2 j h) + v28 (ix2 (0 : Fin 1) h)) 0 * v34 (ix2 h c) := by
  rw [pay1_eq, shapeCast_self, shapeCast_self]
  simp only [matmul]
  refine (Ideal.matmul_constant_zero_apply (φ₁ := .f32) (φ₂ := .f32) dot_S10000x8_S8x16_S10000x16_1_0_0_1_n_n none (hid v26 v28) v34 (ix2 j c)).trans ?_
  rw [← Equiv.sum_comp (contrEquiv1 dot_S10000x8_S8x16_S10000x16_1_0_0_1_n_n 8 rfl rfl).symm]
  refine Finset.sum_congr rfl fun k _ => ?_
  have hk := contrEquiv1_symm_val dot_S10000x8_S8x16_S10000x16_1_0_0_1_n_n 8 rfl rfl k
  have el : dot_S10000x8_S8x16_S10000x16_1_0_0_1_n_n.lhsIdx (ix2 j c) ((contrEquiv1 dot_S10000x8_S8x16_S10000x16_1_0_0_1_n_n 8 rfl rfl).symm k) = ix2 j k := funext fun a => Fin.ext (by
    match a with
    | ⟨0, _⟩ => exact lhsS_0 _ _
    | ⟨1, _⟩ => exact (lhsS_1 _ _).trans hk)
  have er : dot_S10000x8_S8x16_S10000x16_1_0_0_1_n_n.rhsIdx (ix2 j c) ((contrEquiv1 dot_S10000x8_S8x16_S10000x16_1_0_0_1_n_n 8 rfl rfl).symm k) = ix2 k c := funext fun a => Fin.ext (by
    match a with
    | ⟨0, _⟩ => exact (rhsS_0 _ _).trans hk
    | ⟨1, _⟩ => exact rhsS_1 _ _)
  rw [el, er, hid_apply]

end Cert.KernelIdeal.Hand.V2

end
-- ==== Proof.KI.Val2.lean ====
import proofs.«115251_g55224689492446_cont_9to1_m_1185_2_alg».proof.Proof.KI.Reg2
import proofs.«115251_g55224689492446_cont_9to1_m_1185_2_alg».proof.Proof.KI.Val2Pay
import proofs.«115251_g55224689492446_cont_9to1_m_1185_2_alg».proof.Proof.Spec
import proofs.«115251_g55224689492446_cont_9to1_m_1185_2_alg».proof.Proof.Curry
import Idealize.ShloMosaic.Lib.ValueIdx
import Idealize.ShloMosaic.Lib.Pipeline.Value
import Idealize.ShloMosaic.Lib.ValueLayout
import Idealize.ShloMosaic.PureOps.Ideal.Laws

/-! # Region 2 (the second adjacency pass): what its output array holds after the region, on the extended reals

At its first point the body fills the scratch buffer with `M = relu (P1 + b1) · w2a` (10000 x 16), a function of three
whole-array windows, the same at every point. Each of the 25 points then takes 400 rows of the adjacency against `M`,
adds the matching 400 rows of `PT` and the bias row, and stores the rows' shifted log-softmax. Block under block the
output array is the log-softmax of `adj · M + PT + b2`. The steps are in the namespace `V2`; `val2_6` closes the file. -/

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

namespace V2

section
variable (V : (c : Dev nD) → (b : Ref sig .tc) → Buf (Elt Ideal) ((c : Thread nD τ).loc b))

theorem hz : (![0, 0] : Fin 2 → Nat) = fun _ => 0 := funext fun a => by fin_cases a <;> rfl

/-! ## Where each window's block sits in its array -/

/-- The block index maps, decided over the 25 points: the adjacency, the `PT` and the output windows are at row block
    `t`, column block 0; the four whole-array windows stay at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of point `t`'s 400-row block is row `400 t + p` of the array. -/
def rowOf (t : Fin cfg2.N) (p : Fin 400) : Fin 10000 :=
  ⟨400 * t.val + p.val, by have ht : t.val < grid2.N := t.isLt; rw [N_2] at ht; have := p.isLt; omega⟩

theorem emb2_0 (t : Fin cfg2.N) (p : Fin 400) (k : Fin 10000) : ((cfg2.win 0).blk t).view.emb (ix2 p k) = ix2 (rowOf t p) k := by
  obtain ⟨e00, e01, e10, e11, e20, e21, e30, e31, e40, e41, e50, e51, e60, e61⟩ := idx_facts2 t
  funext a; apply Fin.ext
  match a with
  | ⟨0, _⟩ => show win2_0.index t (0 : Fin 2) * 400 + 1 * p.val = 400 * t.val + p.val; omega
  | ⟨1, _⟩ => show win2_0.index t (1 : Fin 2) * 10000 + 1 * k.val = k.val; omega

theorem emb2_1 (t : Fin cfg2.N) (j : Fin 10000) (h : Fin 8) : ((cfg2.win 1).blk t).view.emb (ix2 j h) = ix2 j h := by
  obtain ⟨e00, e01, e10, e11, e20, e21, e30, e31, e40, e41, e50, e51, e60, e61⟩ := idx_facts2 t
  funext a; apply Fin.ext
  match a with
  | ⟨0, _⟩ => show win2_1.index t (0 : Fin 2) * 10000 + 1 * j.val = j.val; omega
  | ⟨1, _⟩ => show win2_1.index t (1 : Fin 2) * 8 + 1 * h.val = h.val; omega

theorem emb2_2 (t : Fin cfg2.N) (p : Fin 400) (q : Fin 16) : ((cfg2.win 2).blk t).view.emb (ix2 p q) = ix2 (rowOf t p) q := by
  obtain ⟨e00, e01, e10, e11, e20, e21, e30, e31, e40, e41, e50, e51, e60, e61⟩ := idx_facts2 t
  funext a; apply Fin.ext
  match a with
  | ⟨0, _⟩ => show win2_2.index t (0 : Fin 2) * 400 + 1 * p.val = 400 * t.val + p.val; omega
  | ⟨1, _⟩ => show win2_2.index t (1 : Fin 2) * 16 + 1 * q.val = q.val; omega

theorem emb2_3 (t : Fin cfg2.N) (z : Fin 1) (h : Fin 8) : ((cfg2.win 3).blk t).view.emb (ix2 z h) = ix2 z h := by
  obtain ⟨e00, e01, e10, e11, e20, e21, e30, e31, e40, e41, e50, e51, e60, e61⟩ := idx_facts2 t
  funext a; apply Fin.ext
  match a with
  | ⟨0, _⟩ => show win2_3.index t (0 : Fin 2) * 1 + 1 * z.val = z.val; omega
  | ⟨1, _⟩ => show win2_3.index t (1 : Fin 2) * 8 + 1 * h.val = h.val; omega

theorem emb2_4 (t : Fin cfg2.N) (z : Fin 1) (q : Fin 16) : ((cfg2.win 4).blk t).view.emb (ix2 z q) = ix2 z q := by
  obtain ⟨e00, e01, e10, e11, e20, e21, e30, e31, e40, e41, e50, e51, e60, e61⟩ := idx_facts2 t
  funext a; apply Fin.ext
  match a with
  | ⟨0, _⟩ => show win2_4.index t (0 : Fin 2) * 1 + 1 * z.val = z.val; omega
  | ⟨1, _⟩ => show win2_4.index t (1 : Fin 2) * 16 + 1 * q.val = q.val; omega

theorem emb2_5 (t : Fin cfg2.N) (h : Fin 8) (q : Fin 16) : ((cfg2.win 5).blk t).view.emb (ix2 h q) = ix2 h q := by
  obtain ⟨e00, e01, e10, e11, e20, e21, e30, e31, e40, e41, e50, e51, e60, e61⟩ := idx_facts2 t
  funext a; apply Fin.ext
  match a with
  | ⟨0, _⟩ => show win2_5.index t (0 : Fin 2) * 8 + 1 * h.val = h.val; omega
  | ⟨1, _⟩ => show win2_5.index t (1 : Fin 2) * 16 + 1 * q.val = q.val; omega

theorem emb2_6 (t : Fin cfg2.N) (p : Fin 400) (q : Fin 16) : ((cfg2.win 6).blk t).view.emb (ix2 p q) = ix2 (rowOf t p) q := by
  obtain ⟨e00, e01, e10, e11, e20, e21, e30, e31, e40, e41, e50, e51, e60, e61⟩ := idx_facts2 t
  funext a; apply Fin.ext
  match a with
  | ⟨0, _⟩ => show win2_6.index t (0 : Fin 2) * 400 + 1 * p.val = 400 * t.val + p.val; omega
  | ⟨1, _⟩ => show win2_6.index t (1 : Fin 2) * 16 + 1 * q.val = q.val; omega

/-! ## Each input block read at coordinates is its array read where the block sits -/

theorem blk2_0 (c : Dev nD) (t : Fin cfg2.N) (p : Fin 400) (k : Fin 10000) :
    iblk2 V c 0 t (ix2 p k) = cur2 (α := EReal) (a := 10000) (b := 10000) (V c (Pipeline.arrRef spec2 0)) (rowOf t p) k :=
  congrArg (V c (Pipeline.arrRef spec2 0)) (emb2_0 t p k)
theorem blk2_1 (c : Dev nD) (t : Fin cfg2.N) (j : Fin 10000) (h : Fin 8) :
    iblk2 V c 1 t (ix2 j h) = cur2 (α := EReal) (a := 10000) (b := 8) (V c (Pipeline.arrRef spec2 1)) j h :=
  congrArg (V c (Pipeline.arrRef spec2 1)) (emb2_1 t j h)
theorem blk2_2 (c : Dev nD) (t : Fin cfg2.N) (p : Fin 400) (q : Fin 16) :
    iblk2 V c 2 t (ix2 p q) = cur2 (α := EReal) (a := 10000) (b := 16) (V c (Pipeline.arrRef spec2 2)) (rowOf t p) q :=
  congrArg (V c (Pipeline.arrRef spec2 2)) (emb2_2 t p q)
theorem blk2_3 (c : Dev nD) (t : Fin cfg2.N) (z : Fin 1) (h : Fin 8) :
    iblk2 V c 3 t (ix2 z h) = cur2 (α := EReal) (a := 1) (b := 8) (V c (Pipeline.arrRef spec2 3)) z h :=
  congrArg (V c (Pipeline.arrRef spec2 3)) (emb2_3 t z h)
theorem blk2_4 (c : Dev nD) (t : Fin cfg2.N) (z : Fin 1) (q : Fin 16) :
    iblk2 V c 4 t (ix2 z q) = cur2 (α := EReal) (a := 1) (b := 16) (V c (Pipeline.arrRef spec2 4)) z q :=
  congrArg (V c (Pipeline.arrRef spec2 4)) (emb2_4 t z q)
theorem blk2_5 (c : Dev nD) (t : Fin cfg2.N) (h : Fin 8) (q : Fin 16) :
    iblk2 V c 5 t (ix2 h q) = cur2 (α := EReal) (a := 8) (b := 16) (V c (Pipeline.arrRef spec2 5)) h q :=
  congrArg (V c (Pipeline.arrRef spec2 5)) (emb2_5 t h q)

/-! ## The scratch buffer and the logits as whole arrays -/

/-- The scratch buffer's array: `relu (P1 + b1)` times the weight's upper half. -/
def MM (c : Dev nD) : Fin 10000 → Fin 16 → EReal :=
  mm (fun j h => max (cur2 (α := EReal) (a := 10000) (b := 8) (V c (Pipeline.arrRef spec2 1)) j h + cur2 (α := EReal) (a := 1) (b := 8) (V c (Pipeline.arrRef spec2 3)) 0 h) 0)
    (cur2 (α := EReal) (a := 8) (b := 16) (V c (Pipeline.arrRef spec2 5)))

/-- The logits' array: the adjacency times the scratch array, plus `PT`, plus the second bias. -/
def OO (c : Dev nD) : Fin 10000 → Fin 16 → EReal := fun i c' =>
  mm (cur2 (α := EReal) (a := 10000) (b := 10000) (V c (Pipeline.arrRef spec2 0))) (MM V c) i c'
    + cur2 (α := EReal) (a := 10000) (b := 16) (V c (Pipeline.arrRef spec2 2)) i c' + cur2 (α := EReal) (a := 1) (b := 16) (V c (Pipeline.arrRef spec2 4)) 0 c'

/-- The scratch buffer, filled at the first point from the three whole-array blocks there, read at `(j, q)`. -/
theorem scrAt_apply (c : Dev nD) (j : Fin 10000) (q : Fin 16) : scrAt (F := Ideal) V c (ix2 j q) = MM V c j q := by
  unfold scrAt scr2
  rw [View.canon_unit_zero hz]
  simp only [View.ld_unit_zero (S := S10000x8) hz, View.ld_unit_zero (S := S1x8) hz, View.ld_unit_zero (S := S8x16) hz]
  refine (pay1_apply _ _ _ j q).trans ?_
  unfold MM mm
  refine Finset.sum_congr rfl fun h _ => ?_
  rw [blk2_1, blk2_3, blk2_5]

/-- Row `p` of the logits block at point `t` is row `400 t + p` of the logits' array. -/
theorem o_eq (c : Dev nD) (t : Fin cfg2.N) (p : Fin 400) (q : Fin 16) :
    o (iblk2 V c 0 t) (scrAt V c) (iblk2 V c 2 t) (iblk2 V c 4 t) p q = OO V c (rowOf t p) q := by
  unfold o OO mm
  simp only [blk2_0 V c, blk2_2 V c, blk2_4 V c, scrAt_apply V c]

/-! ## The output window -/

/-- The whole output array: the row-wise shifted log-softmax of the logits' array. -/
def G2_6 (c : Dev nD) : S10000x16.Idx → EReal := unc2 (lsm (OO V c))

/-- What point `t` writes back is rows `400 t … 400 t + 399` of that array. -/
theorem flushed2_6_eq (c : Dev nD) (t : Fin cfg2.N) :
    (dat2 (F := Ideal) V c).flushed 6 t = ((cfg2.win 6).blk t).view.read (Elt Ideal) (G2_6 V c) := by
  show (cfg2.win 6).cut (grid2.coords t) ((dat2 V c).after 6 t) = _
  rw [after2_6]
  unfold out2_6
  rw [View.canon_unit_zero hz]
  simp only [View.ld_unit_zero (S := S400x10000) hz, View.ld_unit_zero (S := S10000x16) hz, View.ld_unit_zero (S := S400x16) hz, View.ld_unit_zero (S := S1x16) hz]
  funext j
  obtain ⟨p, q, rfl⟩ : ∃ (p : Fin 400) (q : Fin 16), j = ix2 p q := ⟨j 0, j 1, eq_ix2 j⟩
  show k2_pay2 (iblk2 V c 0 t) (scrAt V c) (iblk2 V c 2 t) (iblk2 V c 4 t) (ix2 p q) = G2_6 V c (((cfg2.win 6).blk t).view.emb (ix2 p q))
  refine (pay2_apply _ _ _ _ p q).trans ?_
  rw [emb2_6 t p q]
  show _ = lsm (OO V c) (rowOf t p) q
  unfold lsm rowmax M
  simp only [o_eq V c t p]

/-- An index of the array is in point `t`'s block iff each coordinate is in the block's range on its axis. -/
theorem mem_blk2_6 (t : Fin cfg2.N) (i : S10000x16.Idx) :
    i ∈ ((cfg2.win 6).blk t).view.set ↔ ∀ a : Fin 2, win2_6.index t a * S400x16.size a ≤ (i a).val ∧ (i a).val < win2_6.index t a * S400x16.size a + S400x16.size a := by
  show i ∈ ((View.whole main_v0).slice (win2_6.rect t)).set ↔ _
  rw [View.set_slice_whole, Rect.mem_set_unit]
  exact Iff.rfl

/-- Row `ρ` of the array is written back by point `ρ / 400`. -/
theorem covered2_6 (i : S10000x16.Idx) :
    ∃ t : Fin cfg2.N, (cfg2.win 6).flush t = true ∧ i ∈ ((cfg2.win 6).blk t).view.set := by
  have hi0 : (i 0).val < 10000 := (i 0).isLt
  have hi1 : (i 1).val < 16 := (i 1).isLt
  have hN : (i 0).val / 400 < cfg2.N := by show (i 0).val / 400 < grid2.N; rw [N_2]; omega
  refine ⟨⟨(i 0).val / 400, hN⟩, flush2_6 _, ?_⟩
  rw [mem_blk2_6]
  obtain ⟨e00, e01, e10, e11, e20, e21, e30, e31, e40, e41, e50, e51, e60, e61⟩ := idx_facts2 ⟨(i 0).val / 400, hN⟩
  have et : (⟨(i 0).val / 400, hN⟩ : Fin cfg2.N).val = (i 0).val / 400 := rfl
  intro a
  match a with
  | ⟨0, _⟩ => show win2_6.index ⟨(i 0).val / 400, hN⟩ (0 : Fin 2) * 400 ≤ (i 0).val ∧ (i 0).val < win2_6.index ⟨(i 0).val / 400, hN⟩ (0 : Fin 2) * 400 + 400; omega
  | ⟨1, _⟩ => show win2_6.index ⟨(i 0).val / 400, hN⟩ (1 : Fin 2) * 16 ≤ (i 1).val ∧ (i 1).val < win2_6.index ⟨(i 0).val / 400, hN⟩ (1 : Fin 2) * 16 + 16; omega

end

end V2

/-! ## The output array after the region -/

section
variable (V : (c : Dev nD) → (b : Ref sig .tc) → Buf (Elt Ideal) ((c : Thread nD τ).loc b))
open V2

/-- THE ARRAY after the region's 25 points: the row-wise log-softmax of `adj · (relu (P1 + b1) · w2a) + PT + b2`. -/
theorem val2_6 (c : Dev nD) :
    (dat2 (F := Ideal) V c).arrAt 6 cfg2.N
      = unc2 (lsm (fun i c' =>
          mm (cur2 (α := EReal) (a := 10000) (b := 10000) (V c (Pipeline.arrRef spec2 0)))
              (mm (fun j h => max (cur2 (α := EReal) (a := 10000) (b := 8) (V c (Pipeline.arrRef spec2 1)) j h + cur2 (α := EReal) (a := 1) (b := 8) (V c (Pipeline.arrRef spec2 3)) 0 h) 0)
                (cur2 (α := EReal) (a := 8) (b := 16) (V c (Pipeline.arrRef spec2 5)))) i c'
            + cur2 (α := EReal) (a := 10000) (b := 16) (V c (Pipeline.arrRef spec2 2)) i c'
            + cur2 (α := EReal) (a := 1) (b := 16) (V c (Pipeline.arrRef spec2 4)) 0 c')) :=
  (dat2 V c).arrAt_eq_of_cover 6 (G2_6 V c) (fun t _ => flushed2_6_eq V c t) covered2_6

end

end Cert.KernelIdeal.Hand

end
-- ==== Proof.KI.Val0a.lean ====
/- The payloads of region 0's body read at an index, on the extended reals: each matrix product into the zero
   accumulator is the sum over its contracted axis, a row broadcast down the block reads the row, and the
   pointwise operations act index by index. Stated over variables of the literal block shapes. -/
import proofs.«115251_g55224689492446_cont_9to1_m_1185_2_alg».proof.Proof.Spec
import proofs.«115251_g55224689492446_cont_9to1_m_1185_2_alg».proof.Proof.Curry
import proofs.«115251_g55224689492446_cont_9to1_m_1185_2_alg».proof.Proof.KI.Reg0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

namespace V0

/-! ## The five matrix products of the body, read at an index -/

/-- The product x w of a 1000×128 block with a 128×8 matrix into the zero accumulator, at (p, q): the sum over the contracted axis. -/
theorem mm_x_w1 (l : FVec Ideal S1000x128 .f32) (r : FVec Ideal S128x8 .f32) (p : Fin 1000) (q : Fin 8) :
    matmul dot_S1000x128_S128x8_S1000x8_1_0_0_1_n_n none l r (constant S1000x8 .f32 0x00000000#32) (ix2 p q) = ∑ k : Fin 128, l (ix2 p k) * r (ix2 k q) := by
  refine (Ideal.matmul_constant_zero_apply dot_S1000x128_S128x8_S1000x8_1_0_0_1_n_n none l r (ix2 p q)).trans ?_
  rw [← Equiv.sum_comp (contrEquiv1 dot_S1000x128_S128x8_S1000x8_1_0_0_1_n_n 128 rfl rfl).symm]
  refine Finset.sum_congr rfl fun k _ => ?_
  have hk := contrEquiv1_symm_val dot_S1000x128_S128x8_S1000x8_1_0_0_1_n_n 128 rfl rfl k
  have l0 : ∀ (i : S1000x8.Idx) (z : dot_S1000x128_S128x8_S1000x8_1_0_0_1_n_n.contr.Idx), (dot_S1000x128_S128x8_S1000x8_1_0_0_1_n_n.lhsIdx i z 0).val = (i 0).val := fun i z => by
    unfold DotDims.lhsIdx
    rw [dif_neg (show ¬(0 : Fin 2) ∈ dot_S1000x128_S128x8_S1000x8_1_0_0_1_n_n.lhsBatch by decide), dif_pos (show (0 : Fin 2) ∈ dot_S1000x128_S128x8_S1000x8_1_0_0_1_n_n.lhsNonContracting by decide)]
    rfl
  have l1 : ∀ (i : S1000x8.Idx) (z : dot_S1000x128_S128x8_S1000x8_1_0_0_1_n_n.contr.Idx), (dot_S1000x128_S128x8_S1000x8_1_0_0_1_n_n.lhsIdx i z 1).val = (z ⟨0, by decide⟩).val := fun i z => dot_S1000x128_S128x8_S1000x8_1_0_0_1_n_n.lhsIdx_val_of_single rfl i z
  have r0 : ∀ (i : S1000x8.Idx) (z : dot_S1000x128_S128x8_S1000x8_1_0_0_1_n_n.contr.Idx), (dot_S1000x128_S128x8_S1000x8_1_0_0_1_n_n.rhsIdx i z 0).val = (z ⟨0, by decide⟩).val := fun i z => dot_S1000x128_S128x8_S1000x8_1_0_0_1_n_n.rhsIdx_val_of_single rfl i z
  have r1 : ∀ (i : S1000x8.Idx) (z : dot_S1000x128_S128x8_S1000x8_1_0_0_1_n_n.contr.Idx), (dot_S1000x128_S128x8_S1000x8_1_0_0_1_n_n.rhsIdx i z 1).val = (i 1).val := fun i z => by
    unfold DotDims.rhsIdx
    rw [dif_neg (show ¬(1 : Fin 2) ∈ dot_S1000x128_S128x8_S1000x8_1_0_0_1_n_n.rhsBatch by decide), dif_pos (show (1 : Fin 2) ∈ dot_S1000x128_S128x8_S1000x8_1_0_0_1_n_n.rhsNonContracting by decide)]
    rfl
  have el : dot_S1000x128_S128x8_S1000x8_1_0_0_1_n_n.lhsIdx (ix2 p q) ((contrEquiv1 dot_S1000x128_S128x8_S1000x8_1_0_0_1_n_n 128 rfl rfl).symm k) = ix2 p k := funext fun ax => Fin.ext (by
    match ax with
    | ⟨0, _⟩ => exact l0 _ _
    | ⟨1, _⟩ => exact (l1 _ _).trans hk)
  have er : dot_S1000x128_S128x8_S1000x8_1_0_0_1_n_n.rhsIdx (ix2 p q) ((contrEquiv1 dot_S1000x128_S128x8_S1000x8_1_0_0_1_n_n 128 rfl rfl).symm k) = ix2 k q := funext fun ax => Fin.ext (by
    match ax with
    | ⟨0, _⟩ => exact (r0 _ _).trans hk
    | ⟨1, _⟩ => exact r1 _ _)
  rw [el, er]

/-- The product x w of a 1000×128 block with a 128×32 matrix into the zero accumulator, at (p, q): the sum over the contracted axis. -/
theorem mm_x_bw (l : FVec Ideal S1000x128 .f32) (r : FVec Ideal S128x32 .f32) (p : Fin 1000) (q : Fin 32) :
    matmul dot_S1000x128_S128x32_S1000x32_1_0_0_1_n_n none l r (constant S1000x32 .f32 0x00000000#32) (ix2 p q) = ∑ k : Fin 128, l (ix2 p k) * r (ix2 k q) := by
  refine (Ideal.matmul_constant_zero_apply dot_S1000x128_S128x32_S1000x32_1_0_0_1_n_n none l r (ix2 p q)).trans ?_
  rw [← Equiv.sum_comp (contrEquiv1 dot_S1000x128_S128x32_S1000x32_1_0_0_1_n_n 128 rfl rfl).symm]
  refine Finset.sum_congr rfl fun k _ => ?_
  have hk := contrEquiv1_symm_val dot_S1000x128_S128x32_S1000x32_1_0_0_1_n_n 128 rfl rfl k
  have l0 : ∀ (i : S1000x32.Idx) (z : dot_S1000x128_S128x32_S1000x32_1_0_0_1_n_n.contr.Idx), (dot_S1000x128_S128x32_S1000x32_1_0_0_1_n_n.lhsIdx i z 0).val = (i 0).val := fun i z => by
    unfold DotDims.lhsIdx
    rw [dif_neg (show ¬(0 : Fin 2) ∈ dot_S1000x128_S128x32_S1000x32_1_0_0_1_n_n.lhsBatch by decide), dif_pos (show (0 : Fin 2) ∈ dot_S1000x128_S128x32_S1000x32_1_0_0_1_n_n.lhsNonContracting by decide)]
    rfl
  have l1 : ∀ (i : S1000x32.Idx) (z : dot_S1000x128_S128x32_S1000x32_1_0_0_1_n_n.contr.Idx), (dot_S1000x128_S128x32_S1000x32_1_0_0_1_n_n.lhsIdx i z 1).val = (z ⟨0, by decide⟩).val := fun i z => dot_S1000x128_S128x32_S1000x32_1_0_0_1_n_n.lhsIdx_val_of_single rfl i z
  have r0 : ∀ (i : S1000x32.Idx) (z : dot_S1000x128_S128x32_S1000x32_1_0_0_1_n_n.contr.Idx), (dot_S1000x128_S128x32_S1000x32_1_0_0_1_n_n.rhsIdx i z 0).val = (z ⟨0, by decide⟩).val := fun i z => dot_S1000x128_S128x32_S1000x32_1_0_0_1_n_n.rhsIdx_val_of_single rfl i z
  have r1 : ∀ (i : S1000x32.Idx) (z : dot_S1000x128_S128x32_S1000x32_1_0_0_1_n_n.contr.Idx), (dot_S1000x128_S128x32_S1000x32_1_0_0_1_n_n.rhsIdx i z 1).val = (i 1).val := fun i z => by
    unfold DotDims.rhsIdx
    rw [dif_neg (show ¬(1 : Fin 2) ∈ dot_S1000x128_S128x32_S1000x32_1_0_0_1_n_n.rhsBatch by decide), dif_pos (show (1 : Fin 2) ∈ dot_S1000x128_S128x32_S1000x32_1_0_0_1_n_n.rhsNonContracting by decide)]
    rfl
  have el : dot_S1000x128_S128x32_S1000x32_1_0_0_1_n_n.lhsIdx (ix2 p q) ((contrEquiv1 dot_S1000x128_S128x32_S1000x32_1_0_0_1_n_n 128 rfl rfl).symm k) = ix2 p k := funext fun ax => Fin.ext (by
    match ax with
    | ⟨0, _⟩ => exact l0 _ _
    | ⟨1, _⟩ => exact (l1 _ _).trans hk)
  have er : dot_S1000x128_S128x32_S1000x32_1_0_0_1_n_n.rhsIdx (ix2 p q) ((contrEquiv1 dot_S1000x128_S128x32_S1000x32_1_0_0_1_n_n 128 rfl rfl).symm k) = ix2 k q := funext fun ax => Fin.ext (by
    match ax with
    | ⟨0, _⟩ => exact (r0 _ _).trans hk
    | ⟨1, _⟩ => exact r1 _ _)
  rw [el, er]

/-- The product x wᵀ of a 1000×32 block with a 16×32 matrix into the zero accumulator, at (p, q): the sum over the contracted axis. -/
theorem mm_bi_f1T (l : FVec Ideal S1000x32 .f32) (r : FVec Ideal S16x32 .f32) (p : Fin 1000) (q : Fin 16) :
    matmul dot_S1000x32_S16x32_S1000x16_1_1_0_0_n_n none l r (constant S1000x16 .f32 0x00000000#32) (ix2 p q) = ∑ k : Fin 32, l (ix2 p k) * r (ix2 q k) := by
  refine (Ideal.matmul_constant_zero_apply dot_S1000x32_S16x32_S1000x16_1_1_0_0_n_n none l r (ix2 p q)).trans ?_
  rw [← Equiv.sum_comp (contrEquiv1 dot_S1000x32_S16x32_S1000x16_1_1_0_0_n_n 32 rfl rfl).symm]
  refine Finset.sum_congr rfl fun k _ => ?_
  have hk := contrEquiv1_symm_val dot_S1000x32_S16x32_S1000x16_1_1_0_0_n_n 32 rfl rfl k
  have l0 : ∀ (i : S1000x16.Idx) (z : dot_S1000x32_S16x32_S1000x16_1_1_0_0_n_n.contr.Idx), (dot_S1000x32_S16x32_S1000x16_1_1_0_0_n_n.lhsIdx i z 0).val = (i 0).val := fun i z => by
    unfold DotDims.lhsIdx
    rw [dif_neg (show ¬(0 : Fin 2) ∈ dot_S1000x32_S16x32_S1000x16_1_1_0_0_n_n.lhsBatch by decide), dif_pos (show (0 : Fin 2) ∈ dot_S1000x32_S16x32_S1000x16_1_1_0_0_n_n.lhsNonContracting by decide)]
    rfl
  have l1 : ∀ (i : S1000x16.Idx) (z : dot_S1000x32_S16x32_S1000x16_1_1_0_0_n_n.contr.Idx), (dot_S1000x32_S16x32_S1000x16_1_1_0_0_n_n.lhsIdx i z 1).val = (z ⟨0, by decide⟩).val := fun i z => dot_S1000x32_S16x32_S1000x16_1_1_0_0_n_n.lhsIdx_val_of_single rfl i z
  have r0 : ∀ (i : S1000x16.Idx) (z : dot_S1000x32_S16x32_S1000x16_1_1_0_0_n_n.contr.Idx), (dot_S1000x32_S16x32_S1000x16_1_1_0_0_n_n.rhsIdx i z 1).val = (z ⟨0, by decide⟩).val := fun i z => dot_S1000x32_S16x32_S1000x16_1_1_0_0_n_n.rhsIdx_val_of_single rfl i z
  have r1 : ∀ (i : S1000x16.Idx) (z : dot_S1000x32_S16x32_S1000x16_1_1_0_0_n_n.contr.Idx), (dot_S1000x32_S16x32_S1000x16_1_1_0_0_n_n.rhsIdx i z 0).val = (i 1).val := fun i z => by
    unfold DotDims.rhsIdx
    rw [dif_neg (show ¬(0 : Fin 2) ∈ dot_S1000x32_S16x32_S1000x16_1_1_0_0_n_n.rhsBatch by decide), dif_pos (show (0 : Fin 2) ∈ dot_S1000x32_S16x32_S1000x16_1_1_0_0_n_n.rhsNonContracting by decide)]
    rfl
  have el : dot_S1000x32_S16x32_S1000x16_1_1_0_0_n_n.lhsIdx (ix2 p q) ((contrEquiv1 dot_S1000x32_S16x32_S1000x16_1_1_0_0_n_n 32 rfl rfl).symm k) = ix2 p k := funext fun ax => Fin.ext (by
    match ax with
    | ⟨0, _⟩ => exact l0 _ _
    | ⟨1, _⟩ => exact (l1 _ _).trans hk)
  have er : dot_S1000x32_S16x32_S1000x16_1_1_0_0_n_n.rhsIdx (ix2 p q) ((contrEquiv1 dot_S1000x32_S16x32_S1000x16_1_1_0_0_n_n 32 rfl rfl).symm k) = ix2 q k := funext fun ax => Fin.ext (by
    match ax with
    | ⟨1, _⟩ => exact (r0 _ _).trans hk
    | ⟨0, _⟩ => exact r1 _ _)
  rw [el, er]

/-- The product x wᵀ of a 1000×16 block with a 8×16 matrix into the zero accumulator, at (p, q): the sum over the contracted axis. -/
theorem mm_h_f2T (l : FVec Ideal S1000x16 .f32) (r : FVec Ideal S8x16 .f32) (p : Fin 1000) (q : Fin 8) :
    matmul dot_S1000x16_S8x16_S1000x8_1_1_0_0_n_n none l r (constant S1000x8 .f32 0x00000000#32) (ix2 p q) = ∑ k : Fin 16, l (ix2 p k) * r (ix2 q k) := by
  refine (Ideal.matmul_constant_zero_apply dot_S1000x16_S8x16_S1000x8_1_1_0_0_n_n none l r (ix2 p q)).trans ?_
  rw [← Equiv.sum_comp (contrEquiv1 dot_S1000x16_S8x16_S1000x8_1_1_0_0_n_n 16 rfl rfl).symm]
  refine Finset.sum_congr rfl fun k _ => ?_
  have hk := contrEquiv1_symm_val dot_S1000x16_S8x16_S1000x8_1_1_0_0_n_n 16 rfl rfl k
  have l0 : ∀ (i : S1000x8.Idx) (z : dot_S1000x16_S8x16_S1000x8_1_1_0_0_n_n.contr.Idx), (dot_S1000x16_S8x16_S1000x8_1_1_0_0_n_n.lhsIdx i z 0).val = (i 0).val := fun i z => by
    unfold DotDims.lhsIdx
    rw [dif_neg (show ¬(0 : Fin 2) ∈ dot_S1000x16_S8x16_S1000x8_1_1_0_0_n_n.lhsBatch by decide), dif_pos (show (0 : Fin 2) ∈ dot_S1000x16_S8x16_S1000x8_1_1_0_0_n_n.lhsNonContracting by decide)]
    rfl
  have l1 : ∀ (i : S1000x8.Idx) (z : dot_S1000x16_S8x16_S1000x8_1_1_0_0_n_n.contr.Idx), (dot_S1000x16_S8x16_S1000x8_1_1_0_0_n_n.lhsIdx i z 1).val = (z ⟨0, by decide⟩).val := fun i z => dot_S1000x16_S8x16_S1000x8_1_1_0_0_n_n.lhsIdx_val_of_single rfl i z
  have r0 : ∀ (i : S1000x8.Idx) (z : dot_S1000x16_S8x16_S1000x8_1_1_0_0_n_n.contr.Idx), (dot_S1000x16_S8x16_S1000x8_1_1_0_0_n_n.rhsIdx i z 1).val = (z ⟨0, by decide⟩).val := fun i z => dot_S1000x16_S8x16_S1000x8_1_1_0_0_n_n.rhsIdx_val_of_single rfl i z
  have r1 : ∀ (i : S1000x8.Idx) (z : dot_S1000x16_S8x16_S1000x8_1_1_0_0_n_n.contr.Idx), (dot_S1000x16_S8x16_S1000x8_1_1_0_0_n_n.rhsIdx i z 0).val = (i 1).val := fun i z => by
    unfold DotDims.rhsIdx
    rw [dif_neg (show ¬(0 : Fin 2) ∈ dot_S1000x16_S8x16_S1000x8_1_1_0_0_n_n.rhsBatch by decide), dif_pos (show (0 : Fin 2) ∈ dot_S1000x16_S8x16_S1000x8_1_1_0_0_n_n.rhsNonContracting by decide)]
    rfl
  have el : dot_S1000x16_S8x16_S1000x8_1_1_0_0_n_n.lhsIdx (ix2 p q) ((contrEquiv1 dot_S1000x16_S8x16_S1000x8_1_1_0_0_n_n 16 rfl rfl).symm k) = ix2 p k := funext fun ax => Fin.ext (by
    match ax with
    | ⟨0, _⟩ => exact l0 _ _
    | ⟨1, _⟩ => exact (l1 _ _).trans hk)
  have er : dot_S1000x16_S8x16_S1000x8_1_1_0_0_n_n.rhsIdx (ix2 p q) ((contrEquiv1 dot_S1000x16_S8x16_S1000x8_1_1_0_0_n_n 16 rfl rfl).symm k) = ix2 q k := funext fun ax => Fin.ext (by
    match ax with
    | ⟨1, _⟩ => exact (r0 _ _).trans hk
    | ⟨0, _⟩ => exact r1 _ _)
  rw [el, er]

/-- The product x w of a 1000×8 block with a 8×16 matrix into the zero accumulator, at (p, q): the sum over the contracted axis. -/
theorem mm_xr_b2 (l : FVec Ideal S1000x8 .f32) (r : FVec Ideal S8x16 .f32) (p : Fin 1000) (q : Fin 16) :
    matmul dot_S1000x8_S8x16_S1000x16_1_0_0_1_n_n none l r (constant S1000x16 .f32 0x00000000#32) (ix2 p q) = ∑ k : Fin 8, l (ix2 p k) * r (ix2 k q) := by
  refine (Ideal.matmul_constant_zero_apply dot_S1000x8_S8x16_S1000x16_1_0_0_1_n_n none l r (ix2 p q)).trans ?_
  rw [← Equiv.sum_comp (contrEquiv1 dot_S1000x8_S8x16_S1000x16_1_0_0_1_n_n 8 rfl rfl).symm]
  refine Finset.sum_congr rfl fun k _ => ?_
  have hk := contrEquiv1_symm_val dot_S1000x8_S8x16_S1000x16_1_0_0_1_n_n 8 rfl rfl k
  have l0 : ∀ (i : S1000x16.Idx) (z : dot_S1000x8_S8x16_S1000x16_1_0_0_1_n_n.contr.Idx), (dot_S1000x8_S8x16_S1000x16_1_0_0_1_n_n.lhsIdx i z 0).val = (i 0).val := fun i z => by
    unfold DotDims.lhsIdx
    rw [dif_neg (show ¬(0 : Fin 2) ∈ dot_S1000x8_S8x16_S1000x16_1_0_0_1_n_n.lhsBatch by decide), dif_pos (show (0 : Fin 2) ∈ dot_S1000x8_S8x16_S1000x16_1_0_0_1_n_n.lhsNonContracting by decide)]
    rfl
  have l1 : ∀ (i : S1000x16.Idx) (z : dot_S1000x8_S8x16_S1000x16_1_0_0_1_n_n.contr.Idx), (dot_S1000x8_S8x16_S1000x16_1_0_0_1_n_n.lhsIdx i z 1).val = (z ⟨0, by decide⟩).val := fun i z => dot_S1000x8_S8x16_S1000x16_1_0_0_1_n_n.lhsIdx_val_of_single rfl i z
  have r0 : ∀ (i : S1000x16.Idx) (z : dot_S1000x8_S8x16_S1000x16_1_0_0_1_n_n.contr.Idx), (dot_S1000x8_S8x16_S1000x16_1_0_0_1_n_n.rhsIdx i z 0).val = (z ⟨0, by decide⟩).val := fun i z => dot_S1000x8_S8x16_S1000x16_1_0_0_1_n_n.rhsIdx_val_of_single rfl i z
  have r1 : ∀ (i : S1000x16.Idx) (z : dot_S1000x8_S8x16_S1000x16_1_0_0_1_n_n.contr.Idx), (dot_S1000x8_S8x16_S1000x16_1_0_0_1_n_n.rhsIdx i z 1).val = (i 1).val := fun i z => by
    unfold DotDims.rhsIdx
    rw [dif_neg (show ¬(1 : Fin 2) ∈ dot_S1000x8_S8x16_S1000x16_1_0_0_1_n_n.rhsBatch by decide), dif_pos (show (1 : Fin 2) ∈ dot_S1000x8_S8x16_S1000x16_1_0_0_1_n_n.rhsNonContracting by decide)]
    rfl
  have el : dot_S1000x8_S8x16_S1000x16_1_0_0_1_n_n.lhsIdx (ix2 p q) ((contrEquiv1 dot_S1000x8_S8x16_S1000x16_1_0_0_1_n_n 8 rfl rfl).symm k) = ix2 p k := funext fun ax => Fin.ext (by
    match ax with
    | ⟨0, _⟩ => exact l0 _ _
    | ⟨1, _⟩ => exact (l1 _ _).trans hk)
  have er : dot_S1000x8_S8x16_S1000x16_1_0_0_1_n_n.rhsIdx (ix2 p q) ((contrEquiv1 dot_S1000x8_S8x16_S1000x16_1_0_0_1_n_n 8 rfl rfl).symm k) = ix2 k q := funext fun ax => Fin.ext (by
    match ax with
    | ⟨0, _⟩ => exact (r0 _ _).trans hk
    | ⟨1, _⟩ => exact r1 _ _)
  rw [el, er]

/-! ## The body's payloads read at an index -/

/-- The zero word is zero; one half is the literal of the specification. -/
theorem scalar_zero : (Scalar.ofBits .f32 0x00000000#32 : Ideal .f32) = 0 := Ideal.ofBits_zero_f32
theorem scalar_half : (Scalar.ofBits .f32 0x3F000000#32 : Ideal .f32) = half := rfl

/-- The first output's payload: the block of features times the first weight. -/
theorem pay2_apply (v0 : Vec Ideal S1000x128 .f32) (v1 : Vec Ideal S128x8 .f32) (p : Fin 1000) (q : Fin 8) :
    k0_pay2 v0 v1 (ix2 p q) = ∑ k : Fin 128, v0 (ix2 p k) * v1 (ix2 k q) := by
  unfold k0_pay2
  exact mm_x_w1 v0 v1 p q

/-- A row of eight broadcast down the block reads the row. -/
theorem pay4_apply (v29 : Vec Ideal S1x8 .f32) (p : Fin 1000) (b : Fin 8) :
    k0_pay4 v29 (ix2 p b) = v29 (ix2 (0 : Fin 1) b) := by
  unfold k0_pay4
  simp only [shapeCast_self]
  exact broadcastTo_1b_ab_apply v29 broadcasts_S1x8_S1000x8 p b

/-- The interaction term of one block row: half of (the square of the sum minus the sum of the squares). -/
def biB (v0 : Vec Ideal S1000x128 .f32) (v4 : Vec Ideal S128x32 .f32) (p : Fin 1000) (j : Fin 32) : EReal :=
  half * ((∑ k : Fin 128, v0 (ix2 p k) * v4 (ix2 k j)) * (∑ k : Fin 128, v0 (ix2 p k) * v4 (ix2 k j))
    - ∑ k : Fin 128, (v0 (ix2 p k) * v0 (ix2 p k)) * (v4 (ix2 k j) * v4 (ix2 k j)))
/-- The first dense layer of one block row, with its relu. -/
def h1B (v0 : Vec Ideal S1000x128 .f32) (v4 : Vec Ideal S128x32 .f32) (v13 : Vec Ideal S16x32 .f32) (v15 : Vec Ideal S1x16 .f32)
    (p : Fin 1000) (a : Fin 16) : EReal :=
  max (∑ j : Fin 32, biB v0 v4 p j * v13 (ix2 a j) + v15 (ix2 (0 : Fin 1) a)) 0
/-- The second dense layer of one block row, with its relu. -/
def rB (v0 : Vec Ideal S1000x128 .f32) (v4 : Vec Ideal S128x32 .f32) (v13 : Vec Ideal S16x32 .f32) (v15 : Vec Ideal S1x16 .f32)
    (v21 : Vec Ideal S8x16 .f32) (v23 : Vec Ideal S1x8 .f32) (p : Fin 1000) (b : Fin 8) : EReal :=
  max (∑ a : Fin 16, h1B v0 v4 v13 v15 p a * v21 (ix2 b a) + v23 (ix2 (0 : Fin 1) b)) 0

set_option maxHeartbeats 1000000 in
/-- The right branch before the batch norm, at a block row and column. -/
theorem pay3_apply (v0 : Vec Ideal S1000x128 .f32) (v4 : Vec Ideal S128x32 .f32) (v13 : Vec Ideal S16x32 .f32) (v15 : Vec Ideal S1x16 .f32)
    (v21 : Vec Ideal S8x16 .f32) (v23 : Vec Ideal S1x8 .f32) (p : Fin 1000) (b : Fin 8) :
    k0_pay3 v0 v4 v13 v15 v21 v23 (ix2 p b) = rB v0 v4 v13 v15 v21 v23 p b := by
  unfold k0_pay3 rB h1B biB
  simp only [maximumf_apply, addf_apply, mulf_apply, subf_apply, broadcast_apply, shapeCast_self, broadcastTo_1b_ab_apply,
    mm_h_f2T, mm_bi_f1T, mm_x_bw, scalar_zero, scalar_half]

/-- The second output's payload: the scaled and shifted right branch times the lower half of the second weight. -/
theorem pay1_apply (v28 v31 : FVec Ideal S1000x8 .f32) (v33 : Vec Ideal S1x8 .f32) (v37 : Vec Ideal S8x16 .f32) (p : Fin 1000) (c : Fin 16) :
    k0_pay1 v28 v31 v33 v37 (ix2 p c) = ∑ b : Fin 8, (v28 (ix2 p b) * v31 (ix2 p b) + v33 (ix2 (0 : Fin 1) b)) * v37 (ix2 b c) := by
  unfold k0_pay1
  simp only [addf_apply, mulf_apply, shapeCast_self, broadcastTo_1b_ab_apply, mm_xr_b2]

end V0

end Cert.KernelIdeal.Hand

end
-- ==== Proof.KI.Val0.lean ====
/- The value of region 0: for any contents of the buffers when the region is entered, what the ten grid points leave in
   the two output arrays, each as one function of the region's input arrays read at plain coordinates — the first
   support (features times the first weight) and the product of the scaled, shifted right branch with the lower half
   of the second weight. Each point writes back its 1000-row block of that function, and the ten blocks cover the array. -/
import proofs.«115251_g55224689492446_cont_9to1_m_1185_2_alg».proof.Proof.Spec
import proofs.«115251_g55224689492446_cont_9to1_m_1185_2_alg».proof.Proof.Curry
import proofs.«115251_g55224689492446_cont_9to1_m_1185_2_alg».proof.Proof.KI.Val0a
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

section Regions
variable (V : (c : Dev nD) → (b : Ref sig .tc) → Buf (Elt Ideal) ((c : Thread nD τ).loc b))

namespace V0

/-! ## The windows' blocks, read off the region's input arrays -/

theorem hz0 : (![0, 0] : Fin 2 → Nat) = fun _ => 0 := funext fun a => by fin_cases a <;> rfl

/-- Array row `1000 t + p`: row `p` of the block of grid point `t`. -/
def rowAt (t : Fin cfg0.N) (p : Fin 1000) : Fin 10000 :=
  ⟨t.val * 1000 + p.val, by have h : t.val < grid0.N := t.isLt; rw [N_0] at h; have := p.isLt; omega⟩

theorem rowAt_val (t : Fin cfg0.N) (p : Fin 1000) : (rowAt t p).val = t.val * 1000 + p.val := rfl

/-- The printed index maps, decided over the ten points: the feature window and the two outputs follow the row block,
    every other window stays on its one block. -/
theorem idx_rows0 : ∀ t : Fin cfg0.N, win0_0.index t (0 : Fin 2) = t.val ∧ win0_0.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)
theorem idx_full0 : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The feature block of point `t` at (p, k) is the feature array at row `1000 t + p`. -/
theorem iblk0_0_apply (c : Dev nD) (t : Fin cfg0.N) (p : Fin 1000) (k : Fin 128) :
    iblk0 V c 0 t (ix2 p k) = cur2 (V c (Pipeline.arrRef spec0 0)) (rowAt t p) k := by
  unfold iblk0
  show V c (Pipeline.arrRef spec0 0) (((cfg0.win 0).blk t).view.emb (ix2 p k)) = V c (Pipeline.arrRef spec0 0) (ix2 (rowAt t p) k)
  refine congrArg _ (funext fun a => Fin.ext ?_)
  obtain ⟨e0, e1, -⟩ := idx_rows0 t
  match a with
  | ⟨0, _⟩ => show win0_0.index t (0 : Fin 2) * 1000 + 1 * p.val = t.val * 1000 + p.val; omega
  | ⟨1, _⟩ => show win0_0.index t (1 : Fin 2) * 128 + 1 * k.val = k.val; omega

/-- The block of an output window at (p, q) sits at array row `1000 t + p`, column `q`. -/
theorem emb0_10 (t : Fin cfg0.N) (p : Fin 1000) (q : Fin 8) : ((cfg0.win 10).blk t).view.emb (ix2 p q) = ix2 (rowAt t p) q := by
  refine funext fun a => Fin.ext ?_
  obtain ⟨-, -, e0, e1, -⟩ := idx_rows0 t
  match a with
  | ⟨0, _⟩ => show win0_10.index t (0 : Fin 2) * 1000 + 1 * p.val = t.val * 1000 + p.val; omega
  | ⟨1, _⟩ => show win0_10.index t (1 : Fin 2) * 8 + 1 * q.val = q.val; omega
theorem emb0_11 (t : Fin cfg0.N) (p : Fin 1000) (q : Fin 16) : ((cfg0.win 11).blk t).view.emb (ix2 p q) = ix2 (rowAt t p) q := by
  refine funext fun a => Fin.ext ?_
  obtain ⟨-, -, -, -, e0, e1⟩ := idx_rows0 t
  match a with
  | ⟨0, _⟩ => show win0_11.index t (0 : Fin 2) * 1000 + 1 * p.val = t.val * 1000 + p.val; omega
  | ⟨1, _⟩ => show win0_11.index t (1 : Fin 2) * 16 + 1 * q.val = q.val; omega

/-! The parameter windows hold their whole arrays at every point. -/
theorem idx_full0_1 : ∀ t : Fin cfg0.N, win0_1.index t (0 : Fin 2) = 0 ∧ win0_1.index t (1 : Fin 2) = 0 :=
  (by decide +kernel : ∀ t : Fin grid0.N, _)
theorem iblk0_1_eq (c : Dev nD) (t : Fin cfg0.N) : (iblk0 V c 1 t : Vec Ideal S128x8 .f32) = V c (Pipeline.arrRef spec0 1) := by
  unfold iblk0
  funext y
  show V c (Pipeline.arrRef spec0 1) (((cfg0.win 1).blk t).view.emb y) = V c (Pipeline.arrRef spec0 1) y
  refine congrArg _ (funext fun a => Fin.ext ?_)
  obtain ⟨e0, e1⟩ := idx_full0_1 t
  match a with
  | ⟨0, _⟩ => show win0_1.index t (0 : Fin 2) * 128 + 1 * (y 0).val = (y 0).val; omega
  | ⟨1, _⟩ => show win0_1.index t (1 : Fin 2) * 8 + 1 * (y 1).val = (y 1).val; omega
theorem idx_full0_2 : ∀ t : Fin cfg0.N, win0_2.index t (0 : Fin 2) = 0 ∧ win0_2.index t (1 : Fin 2) = 0 :=
  (by decide +kernel : ∀ t : Fin grid0.N, _)
theorem iblk0_2_eq (c : Dev nD) (t : Fin cfg0.N) : (iblk0 V c 2 t : Vec Ideal S128x32 .f32) = V c (Pipeline.arrRef spec0 2) := by
  unfold iblk0
  funext y
  show V c (Pipeline.arrRef spec0 2) (((cfg0.win 2).blk t).view.emb y) = V c (Pipeline.arrRef spec0 2) y
  refine congrArg _ (funext fun a => Fin.ext ?_)
  obtain ⟨e0, e1⟩ := idx_full0_2 t
  match a with
  | ⟨0, _⟩ => show win0_2.index t (0 : Fin 2) * 128 + 1 * (y 0).val = (y 0).val; omega
  | ⟨1, _⟩ => show win0_2.index t (1 : Fin 2) * 32 + 1 * (y 1).val = (y 1).val; omega
theorem idx_full0_3 : ∀ t : Fin cfg0.N, win0_3.index t (0 : Fin 2) = 0 ∧ win0_3.index t (1 : Fin 2) = 0 :=
  (by decide +kernel : ∀ t : Fin grid0.N, _)
theorem iblk0_3_eq (c : Dev nD) (t : Fin cfg0.N) : (iblk0 V c 3 t : Vec Ideal S16x32 .f32) = V c (Pipeline.arrRef spec0 3) := by
  unfold iblk0
  funext y
  show V c (Pipeline.arrRef spec0 3) (((cfg0.win 3).blk t).view.emb y) = V c (Pipeline.arrRef spec0 3) y
  refine congrArg _ (funext fun a => Fin.ext ?_)
  obtain ⟨e0, e1⟩ := idx_full0_3 t
  match a with
  | ⟨0, _⟩ => show win0_3.index t (0 : Fin 2) * 16 + 1 * (y 0).val = (y 0).val; omega
  | ⟨1, _⟩ => show win0_3.index t (1 : Fin 2) * 32 + 1 * (y 1).val = (y 1).val; omega
theorem idx_full0_4 : ∀ t : Fin cfg0.N, win0_4.index t (0 : Fin 2) = 0 ∧ win0_4.index t (1 : Fin 2) = 0 :=
  (by decide +kernel : ∀ t : Fin grid0.N, _)
theorem iblk0_4_eq (c : Dev nD) (t : Fin cfg0.N) : (iblk0 V c 4 t : Vec Ideal S1x16 .f32) = V c (Pipeline.arrRef spec0 4) := by
  unfold iblk0
  funext y
  show V c (Pipeline.arrRef spec0 4) (((cfg0.win 4).blk t).view.emb y) = V c (Pipeline.arrRef spec0 4) y
  refine congrArg _ (funext fun a => Fin.ext ?_)
  obtain ⟨e0, e1⟩ := idx_full0_4 t
  match a with
  | ⟨0, _⟩ => show win0_4.index t (0 : Fin 2) * 1 + 1 * (y 0).val = (y 0).val; omega
  | ⟨1, _⟩ => show win0_4.index t (1 : Fin 2) * 16 + 1 * (y 1).val = (y 1).val; omega
theorem idx_full0_5 : ∀ t : Fin cfg0.N, win0_5.index t (0 : Fin 2) = 0 ∧ win0_5.index t (1 : Fin 2) = 0 :=
  (by decide +kernel : ∀ t : Fin grid0.N, _)
theorem iblk0_5_eq (c : Dev nD) (t : Fin cfg0.N) : (iblk0 V c 5 t : Vec Ideal S8x16 .f32) = V c (Pipeline.arrRef spec0 5) := by
  unfold iblk0
  funext y
  show V c (Pipeline.arrRef spec0 5) (((cfg0.win 5).blk t).view.emb y) = V c (Pipeline.arrRef spec0 5) y
  refine congrArg _ (funext fun a => Fin.ext ?_)
  obtain ⟨e0, e1⟩ := idx_full0_5 t
  match a with
  | ⟨0, _⟩ => show win0_5.index t (0 : Fin 2) * 8 + 1 * (y 0).val = (y 0).val; omega
  | ⟨1, _⟩ => show win0_5.index t (1 : Fin 2) * 16 + 1 * (y 1).val = (y 1).val; omega
theorem idx_full0_6 : ∀ t : Fin cfg0.N, win0_6.index t (0 : Fin 2) = 0 ∧ win0_6.index t (1 : Fin 2) = 0 :=
  (by decide +kernel : ∀ t : Fin grid0.N, _)
theorem iblk0_6_eq (c : Dev nD) (t : Fin cfg0.N) : (iblk0 V c 6 t : Vec Ideal S1x8 .f32) = V c (Pipeline.arrRef spec0 6) := by
  unfold iblk0
  funext y
  show V c (Pipeline.arrRef spec0 6) (((cfg0.win 6).blk t).view.emb y) = V c (Pipeline.arrRef spec0 6) y
  refine congrArg _ (funext fun a => Fin.ext ?_)
  obtain ⟨e0, e1⟩ := idx_full0_6 t
  match a with
  | ⟨0, _⟩ => show win0_6.index t (0 : Fin 2) * 1 + 1 * (y 0).val = (y 0).val; omega
  | ⟨1, _⟩ => show win0_6.index t (1 : Fin 2) * 8 + 1 * (y 1).val = (y 1).val; omega
theorem idx_full0_7 : ∀ t : Fin cfg0.N, win0_7.index t (0 : Fin 2) = 0 ∧ win0_7.index t (1 : Fin 2) = 0 :=
  (by decide +kernel : ∀ t : Fin grid0.N, _)
theorem iblk0_7_eq (c : Dev nD) (t : Fin cfg0.N) : (iblk0 V c 7 t : Vec Ideal S1x8 .f32) = V c (Pipeline.arrRef spec0 7) := by
  unfold iblk0
  funext y
  show V c (Pipeline.arrRef spec0 7) (((cfg0.win 7).blk t).view.emb y) = V c (Pipeline.arrRef spec0 7) y
  refine congrArg _ (funext fun a => Fin.ext ?_)
  obtain ⟨e0, e1⟩ := idx_full0_7 t
  match a with
  | ⟨0, _⟩ => show win0_7.index t (0 : Fin 2) * 1 + 1 * (y 0).val = (y 0).val; omega
  | ⟨1, _⟩ => show win0_7.index t (1 : Fin 2) * 8 + 1 * (y 1).val = (y 1).val; omega
theorem idx_full0_8 : ∀ t : Fin cfg0.N, win0_8.index t (0 : Fin 2) = 0 ∧ win0_8.index t (1 : Fin 2) = 0 :=
  (by decide +kernel : ∀ t : Fin grid0.N, _)
theorem iblk0_8_eq (c : Dev nD) (t : Fin cfg0.N) : (iblk0 V c 8 t : Vec Ideal S1x8 .f32) = V c (Pipeline.arrRef spec0 8) := by
  unfold iblk0
  funext y
  show V c (Pipeline.arrRef spec0 8) (((cfg0.win 8).blk t).view.emb y) = V c (Pipeline.arrRef spec0 8) y
  refine congrArg _ (funext fun a => Fin.ext ?_)
  obtain ⟨e0, e1⟩ := idx_full0_8 t
  match a with
  | ⟨0, _⟩ => show win0_8.index t (0 : Fin 2) * 1 + 1 * (y 0).val = (y 0).val; omega
  | ⟨1, _⟩ => show win0_8.index t (1 : Fin 2) * 8 + 1 * (y 1).val = (y 1).val; omega
theorem idx_full0_9 : ∀ t : Fin cfg0.N, win0_9.index t (0 : Fin 2) = 0 ∧ win0_9.index t (1 : Fin 2) = 0 :=
  (by decide +kernel : ∀ t : Fin grid0.N, _)
theorem iblk0_9_eq (c : Dev nD) (t : Fin cfg0.N) : (iblk0 V c 9 t : Vec Ideal S8x16 .f32) = V c (Pipeline.arrRef spec0 9) := by
  unfold iblk0
  funext y
  show V c (Pipeline.arrRef spec0 9) (((cfg0.win 9).blk t).view.emb y) = V c (Pipeline.arrRef spec0 9) y
  refine congrArg _ (funext fun a => Fin.ext ?_)
  obtain ⟨e0, e1⟩ := idx_full0_9 t
  match a with
  | ⟨0, _⟩ => show win0_9.index t (0 : Fin 2) * 8 + 1 * (y 0).val = (y 0).val; omega
  | ⟨1, _⟩ => show win0_9.index t (1 : Fin 2) * 16 + 1 * (y 1).val = (y 1).val; omega

end V0

/-! ## The two outputs as whole-array functions of the region's input arrays -/

/-- The first support: the feature array times the first weight. -/
def G0_10 (c : Dev nD) : S10000x8.Idx → EReal :=
  unc2 (mm (cur2 (V c (Pipeline.arrRef spec0 0))) (cur2 (V c (Pipeline.arrRef spec0 1))))

/-- The right branch, scaled and shifted, times the lower half of the second weight. -/
def G0_11 (c : Dev nD) : S10000x16.Idx → EReal :=
  unc2 (mm (fun i b => r (cur2 (V c (Pipeline.arrRef spec0 0))) (cur2 (V c (Pipeline.arrRef spec0 2))) (cur2 (V c (Pipeline.arrRef spec0 3))) (fun a => cur2 (V c (Pipeline.arrRef spec0 4)) 0 a) (cur2 (V c (Pipeline.arrRef spec0 5))) (fun b => cur2 (V c (Pipeline.arrRef spec0 6)) 0 b) i b
      * cur2 (V c (Pipeline.arrRef spec0 7)) 0 b + cur2 (V c (Pipeline.arrRef spec0 8)) 0 b) (cur2 (V c (Pipeline.arrRef spec0 9))))

namespace V0

/-- A block row's right branch is the array row's: the specification reads the feature array at that row only. -/
theorem rB_iblk (c : Dev nD) (t : Fin cfg0.N) (v4 : Vec Ideal S128x32 .f32) (v13 : Vec Ideal S16x32 .f32) (v15 : Vec Ideal S1x16 .f32)
    (v21 : Vec Ideal S8x16 .f32) (v23 : Vec Ideal S1x8 .f32) (p : Fin 1000) (b : Fin 8) :
    rB (iblk0 V c 0 t) v4 v13 v15 v21 v23 p b
      = r (cur2 (V c (Pipeline.arrRef spec0 0))) (cur2 v4) (cur2 v13) (fun a => cur2 v15 0 a) (cur2 v21) (fun b => cur2 v23 0 b) (rowAt t p) b := by
  unfold rB h1B biB r h2 h1 mmT bi mm
  simp only [iblk0_0_apply]
  rfl

/-! ## What a point writes back is its block of the whole-array function -/

theorem flushed0_10_eq (c : Dev nD) (t : Fin cfg0.N) :
    (dat0 V c).flushed 10 t = ((cfg0.win 10).blk t).view.read (Elt Ideal) (G0_10 V c) := by
  show (cfg0.win 10).cut (grid0.coords t) ((dat0 V c).after 10 t) = _
  rw [after0_10]
  unfold out0_10
  rw [View.canon_unit_zero hz0]
  simp only [View.ld_unit_zero (S := S1000x128) hz0, View.ld_unit_zero (S := S128x8) hz0]
  rw [iblk0_1_eq]
  funext j
  obtain ⟨p, q, rfl⟩ : ∃ (p : Fin 1000) (q : Fin 8), j = ix2 p q := ⟨j 0, j 1, eq_ix2 j⟩
  show k0_pay2 (iblk0 V c 0 t) (V c (Pipeline.arrRef spec0 1)) (ix2 p q) = G0_10 V c (((cfg0.win 10).blk t).view.emb (ix2 p q))
  rw [emb0_10, pay2_apply]
  simp only [iblk0_0_apply]
  rfl

theorem flushed0_11_eq (c : Dev nD) (t : Fin cfg0.N) :
    (dat0 V c).flushed 11 t = ((cfg0.win 11).blk t).view.read (Elt Ideal) (G0_11 V c) := by
  show (cfg0.win 11).cut (grid0.coords t) ((dat0 V c).after 11 t) = _
  rw [after0_11]
  unfold out0_11
  rw [View.canon_unit_zero hz0]
  simp only [View.ld_unit_zero (S := S1000x128) hz0, View.ld_unit_zero (S := S128x32) hz0, View.ld_unit_zero (S := S16x32) hz0,
    View.ld_unit_zero (S := S1x16) hz0, View.ld_unit_zero (S := S8x16) hz0, View.ld_unit_zero (S := S1x8) hz0]
  rw [iblk0_2_eq, iblk0_3_eq, iblk0_4_eq, iblk0_5_eq, iblk0_6_eq, iblk0_7_eq, iblk0_8_eq, iblk0_9_eq]
  funext j
  obtain ⟨p, q, rfl⟩ : ∃ (p : Fin 1000) (q : Fin 16), j = ix2 p q := ⟨j 0, j 1, eq_ix2 j⟩
  show k0_pay1 (k0_pay3 (iblk0 V c 0 t) (V c (Pipeline.arrRef spec0 2)) (V c (Pipeline.arrRef spec0 3)) (V c (Pipeline.arrRef spec0 4)) (V c (Pipeline.arrRef spec0 5)) (V c (Pipeline.arrRef spec0 6))) (k0_pay4 (V c (Pipeline.arrRef spec0 7))) (V c (Pipeline.arrRef spec0 8)) (V c (Pipeline.arrRef spec0 9)) (ix2 p q)
    = G0_11 V c (((cfg0.win 11).blk t).view.emb (ix2 p q))
  rw [emb0_11, pay1_apply]
  simp only [pay3_apply, pay4_apply, rB_iblk]
  rfl

/-! ## The blocks of the ten points cover each output array: row ρ lies in the block of point ρ / 1000 -/

theorem mem_blk0_10 (t : Fin cfg0.N) (i : S10000x8.Idx) :
    i ∈ ((cfg0.win 10).blk t).view.set ↔ ∀ a : Fin 2, win0_10.index t a * S1000x8.size a ≤ (i a).val ∧ (i a).val < win0_10.index t a * S1000x8.size a + S1000x8.size a := by
  show i ∈ ((View.whole main_call0_v12_0).slice (win0_10.rect t)).set ↔ _
  rw [View.set_slice_whole, Rect.mem_set_unit]
  exact Iff.rfl
theorem mem_blk0_11 (t : Fin cfg0.N) (i : S10000x16.Idx) :
    i ∈ ((cfg0.win 11).blk t).view.set ↔ ∀ a : Fin 2, win0_11.index t a * S1000x16.size a ≤ (i a).val ∧ (i a).val < win0_11.index t a * S1000x16.size a + S1000x16.size a := by
  show i ∈ ((View.whole main_call0_v12_1).slice (win0_11.rect t)).set ↔ _
  rw [View.set_slice_whole, Rect.mem_set_unit]
  exact Iff.rfl

/-- The point whose block holds array row ρ. -/
def pointOf (ρ : Nat) (h : ρ < 10000) : Fin cfg0.N := ⟨ρ / 1000, by show ρ / 1000 < grid0.N; rw [N_0]; omega⟩

theorem cover0_10_arr (i : S10000x8.Idx) : ∃ t : Fin cfg0.N, (cfg0.win 10).flush t = true ∧ i ∈ ((cfg0.win 10).blk t).view.set := by
  have h0 : (i 0).val < 10000 := (i 0).isLt
  have h1 : (i 1).val < 8 := (i 1).isLt
  refine ⟨pointOf (i 0).val h0, flush0_10 _, ?_⟩
  rw [mem_blk0_10]
  obtain ⟨-, -, e0, e1, -⟩ := idx_rows0 (pointOf (i 0).val h0)
  have ht : (pointOf (i 0).val h0).val = (i 0).val / 1000 := rfl
  intro a
  match a with
  | ⟨0, _⟩ => show win0_10.index (pointOf (i 0).val h0) (0 : Fin 2) * 1000 ≤ (i 0).val ∧ (i 0).val < win0_10.index (pointOf (i 0).val h0) (0 : Fin 2) * 1000 + 1000; omega
  | ⟨1, _⟩ => show win0_10.index (pointOf (i 0).val h0) (1 : Fin 2) * 8 ≤ (i 1).val ∧ (i 1).val < win0_10.index (pointOf (i 0).val h0) (1 : Fin 2) * 8 + 8; omega

theorem cover0_11_arr (i : S10000x16.Idx) : ∃ t : Fin cfg0.N, (cfg0.win 11).flush t = true ∧ i ∈ ((cfg0.win 11).blk t).view.set := by
  have h0 : (i 0).val < 10000 := (i 0).isLt
  have h1 : (i 1).val < 16 := (i 1).isLt
  refine ⟨pointOf (i 0).val h0, flush0_11 _, ?_⟩
  rw [mem_blk0_11]
  obtain ⟨-, -, -, -, e0, e1⟩ := idx_rows0 (pointOf (i 0).val h0)
  have ht : (pointOf (i 0).val h0).val = (i 0).val / 1000 := rfl
  intro a
  match a with
  | ⟨0, _⟩ => show win0_11.index (pointOf (i 0).val h0) (0 : Fin 2) * 1000 ≤ (i 0).val ∧ (i 0).val < win0_11.index (pointOf (i 0).val h0) (0 : Fin 2) * 1000 + 1000; omega
  | ⟨1, _⟩ => show win0_11.index (pointOf (i 0).val h0) (1 : Fin 2) * 16 ≤ (i 1).val ∧ (i 1).val < win0_11.index (pointOf (i 0).val h0) (1 : Fin 2) * 16 + 16; omega

end V0

/-! ## The output arrays after the ten points -/

/-- The first output array ends as the feature array times the first weight. -/
theorem val0_10 (c : Dev nD) :
    (dat0 (F := Ideal) V c).arrAt 10 cfg0.N = unc2 (mm (cur2 (V c (Pipeline.arrRef spec0 0))) (cur2 (V c (Pipeline.arrRef spec0 1)))) :=
  (dat0 V c).arrAt_eq_of_cover 10 (G0_10 V c) (fun t _ => V0.flushed0_10_eq V c t) V0.cover0_10_arr

/-- The second output array ends as the scaled and shifted right branch times the lower half of the second weight. -/
theorem val0_11 (c : Dev nD) :
    (dat0 (F := Ideal) V c).arrAt 11 cfg0.N
      = unc2 (mm (fun i b => r (cur2 (V c (Pipeline.arrRef spec0 0))) (cur2 (V c (Pipeline.arrRef spec0 2))) (cur2 (V c (Pipeline.arrRef spec0 3))) (fun a => cur2 (V c (Pipeline.arrRef spec0 4)) 0 a) (cur2 (V c (Pipeline.arrRef spec0 5))) (fun b => cur2 (V c (Pipeline.arrRef spec0 6)) 0 b) i b
          * cur2 (V c (Pipeline.arrRef spec0 7)) 0 b + cur2 (V c (Pipeline.arrRef spec0 8)) 0 b) (cur2 (V c (Pipeline.arrRef spec0 9)))) :=
  (dat0 V c).arrAt_eq_of_cover 11 (G0_11 V c) (fun t _ => V0.flushed0_11_eq V c t) V0.cover0_11_arr

end Regions

end Cert.KernelIdeal.Hand

end
-- ==== Proof.KI.Val1.lean ====
import proofs.«115251_g55224689492446_cont_9to1_m_1185_2_alg».proof.Proof.KI.Reg1
import proofs.«115251_g55224689492446_cont_9to1_m_1185_2_alg».proof.Proof.Spec
import proofs.«115251_g55224689492446_cont_9to1_m_1185_2_alg».proof.Proof.Curry
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

/-! # Region 1 (the first adjacency pass): what its two output arrays hold after the region, on the extended reals

Each of the 25 grid points multiplies a block of 400 rows of the adjacency with the whole 10000-row operand, so the
array the points write back, block under block, is the full product `adj · S1` (10000 x 8) and `adj · T`
(10000 x 16). The steps are in the namespace `V1`; the two results `val1_3`, `val1_4` close the file. -/

namespace V1

/-! ## The payloads read at an index: a matrix product into the zero accumulator is the plain sum over the
contracted coordinate -/

theorem lhs1_0 (i : S400x8.Idx) (q : dot_S400x10000_S10000x8_S400x8_1_0_0_1_n_n.contr.Idx) :
    (dot_S400x10000_S10000x8_S400x8_1_0_0_1_n_n.lhsIdx i q 0).val = (i 0).val := by
  unfold DotDims.lhsIdx
  rw [dif_neg (show ¬(0 : Fin S400x10000.rank) ∈ dot_S400x10000_S10000x8_S400x8_1_0_0_1_n_n.lhsBatch by decide), dif_pos (show (0 : Fin S400x10000.rank) ∈ dot_S400x10000_S10000x8_S400x8_1_0_0_1_n_n.lhsNonContracting by decide)]
  rfl
theorem lhs1_1 (i : S400x8.Idx) (q : dot_S400x10000_S10000x8_S400x8_1_0_0_1_n_n.contr.Idx) :
    (dot_S400x10000_S10000x8_S400x8_1_0_0_1_n_n.lhsIdx i q 1).val = (q ⟨0, by decide⟩).val :=
  dot_S400x10000_S10000x8_S400x8_1_0_0_1_n_n.lhsIdx_val_of_single rfl i q
theorem rhs1_0 (i : S400x8.Idx) (q : dot_S400x10000_S10000x8_S400x8_1_0_0_1_n_n.contr.Idx) :
    (dot_S400x10000_S10000x8_S400x8_1_0_0_1_n_n.rhsIdx i q 0).val = (q ⟨0, by decide⟩).val :=
  dot_S400x10000_S10000x8_S400x8_1_0_0_1_n_n.rhsIdx_val_of_single rfl i q
theorem rhs1_1 (i : S400x8.Idx) (q : dot_S400x10000_S10000x8_S400x8_1_0_0_1_n_n.contr.Idx) :
    (dot_S400x10000_S10000x8_S400x8_1_0_0_1_n_n.rhsIdx i q 1).val = (i 1).val := by
  unfold DotDims.rhsIdx
  rw [dif_neg (show ¬(1 : Fin S10000x8.rank) ∈ dot_S400x10000_S10000x8_S400x8_1_0_0_1_n_n.rhsBatch by decide), dif_pos (show (1 : Fin S10000x8.rank) ∈ dot_S400x10000_S10000x8_S400x8_1_0_0_1_n_n.rhsNonContracting by decide)]
  rfl

/-- Entry `(p, q)` of the first product: row `p` of the adjacency block against column `q` of `S1`. -/
theorem pay1_apply (v0 : Vec Ideal S400x10000 .f32) (v1 : Vec Ideal S10000x8 .f32) (p : Fin 400) (q : Fin 8) :
    k1_pay1 (F := Ideal) v0 v1 (ix2 p q) = ∑ k : Fin 10000, v0 (ix2 p k) * v1 (ix2 k q) := by
  unfold k1_pay1
  simp only [matmul]
  rw [shapeCast_self]
  refine (Ideal.matmul_constant_zero_apply dot_S400x10000_S10000x8_S400x8_1_0_0_1_n_n none v0 v1 (ix2 p q)).trans ?_
  rw [← Equiv.sum_comp (contrEquiv1 dot_S400x10000_S10000x8_S400x8_1_0_0_1_n_n 10000 rfl rfl).symm]
  refine Finset.sum_congr rfl fun k _ => ?_
  have hk := contrEquiv1_symm_val dot_S400x10000_S10000x8_S400x8_1_0_0_1_n_n 10000 rfl rfl k
  have el : dot_S400x10000_S10000x8_S400x8_1_0_0_1_n_n.lhsIdx (ix2 p q) ((contrEquiv1 dot_S400x10000_S10000x8_S400x8_1_0_0_1_n_n 10000 rfl rfl).symm k) = ix2 p k := funext fun a => Fin.ext (by
    match a with
    | ⟨0, _⟩ => exact lhs1_0 _ _
    | ⟨1, _⟩ => exact (lhs1_1 _ _).trans hk)
  have er : dot_S400x10000_S10000x8_S400x8_1_0_0_1_n_n.rhsIdx (ix2 p q) ((contrEquiv1 dot_S400x10000_S10000x8_S400x8_1_0_0_1_n_n 10000 rfl rfl).symm k) = ix2 k q := funext fun a => Fin.ext (by
    match a with
    | ⟨0, _⟩ => exact (rhs1_0 _ _).trans hk
    | ⟨1, _⟩ => exact rhs1_1 _ _)
  rw [el, er]

theorem lhs2_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs2_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs2_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs2_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- Entry `(p, q)` of the second product: row `p` of the adjacency block against column `q` of `T`. -/
theorem pay2_apply (v0 : Vec Ideal S400x10000 .f32) (v1 : Vec Ideal S10000x16 .f32) (p : Fin 400) (q : Fin 16) :
    k1_pay2 (F := Ideal) v0 v1 (ix2 p q) = ∑ k : Fin 10000, v0 (ix2 p k) * v1 (ix2 k q) := by
  unfold k1_pay2
  simp only [matmul]
  rw [shapeCast_self]
  refine (Ideal.matmul_constant_zero_apply dot_S400x10000_S10000x16_S400x16_1_0_0_1_n_n none v0 v1 (ix2 p q)).trans ?_
  rw [← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 p q) ((contrEquiv1 dot_S400x10000_S10000x16_S400x16_1_0_0_1_n_n 10000 rfl rfl).symm k) = ix2 p k := funext fun a => Fin.ext (by
    match a with
    | ⟨0, _⟩ => exact lhs2_0 _ _
    | ⟨1, _⟩ => exact (lhs2_1 _ _).trans hk)
  have er : dot_S400x10000_S10000x16_S400x16_1_0_0_1_n_n.rhsIdx (ix2 p q) ((contrEquiv1 dot_S400x10000_S10000x16_S400x16_1_0_0_1_n_n 10000 rfl rfl).symm k) = ix2 k q := funext fun a => Fin.ext (by
    match a with
    | ⟨0, _⟩ => exact (rhs2_0 _ _).trans hk
    | ⟨1, _⟩ => exact rhs2_1 _ _)
  rw [el, er]

section
variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 25 points: the adjacency window and the two output windows are at row
    block `t`, column block 0; the two whole-operand windows stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## Output window 3: the product of the adjacency with `S1` -/

/-- The whole output array: the adjacency times the whole second operand, entry by entry. -/
def G1_3 (c : Dev nD) : S10000x8.Idx → EReal :=
  unc2 (mm (cur2 (a := 10000) (b := 10000) (V c (Pipeline.arrRef spec1 0))) (cur2 (a := 10000) (b := 8) (V c (Pipeline.arrRef spec1 1))))

/-- What point `t` writes back in window 3 is rows `400 t … 400 t + 399` of that array: the payload's entry
    `(p, q)` is row `p` of the adjacency block — row `400 t + p` of the adjacency — against column `q` of the
    whole second operand. -/
theorem flushed1_3_eq (c : Dev nD) (t : Fin cfg1.N) :
    (dat1 (F := Ideal) V c).flushed 3 t = ((cfg1.win 3).blk t).view.read (Elt Ideal) (G1_3 V c) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x8) hz]
  funext j
  obtain ⟨p, q, rfl⟩ : ∃ (p : Fin 400) (q : Fin 8), j = ix2 p q := ⟨j 0, j 1, eq_ix2 j⟩
  show k1_pay1 (iblk1 V c 0 t) (iblk1 V c 1 t) (ix2 p q) = G1_3 V c (((cfg1.win 3).blk t).view.emb (ix2 p q))
  refine (pay1_apply _ _ p q).trans ?_
  obtain ⟨e00, e01, e10, e11, e20, e21, e30, e31, e40, e41⟩ := idx_facts1 t
  unfold G1_3
  rw [unc2_apply]
  unfold mm
  refine Finset.sum_congr rfl fun k _ => ?_
  have h0 : ((cfg1.win 0).blk t).view.emb (ix2 p k) = ix2 (((cfg1.win 3).blk t).view.emb (ix2 p q) 0) k := by
    funext a; apply Fin.ext
    match a with
    | ⟨0, _⟩ => show win1_0.index t (0 : Fin 2) * 400 + 1 * p.val = win1_3.index t (0 : Fin 2) * 400 + 1 * p.val; omega
    | ⟨1, _⟩ => show win1_0.index t (1 : Fin 2) * 10000 + 1 * k.val = k.val; omega
  have h1 : ((cfg1.win 1).blk t).view.emb (ix2 k q) = ix2 k (((cfg1.win 3).blk t).view.emb (ix2 p q) 1) := by
    funext a; apply Fin.ext
    match a with
    | ⟨0, _⟩ => show win1_1.index t (0 : Fin 2) * 10000 + 1 * k.val = k.val; omega
    | ⟨1, _⟩ => show win1_1.index t (1 : Fin 2) * 8 + 1 * q.val = win1_3.index t (1 : Fin 2) * 8 + 1 * q.val; omega
  exact congrArg₂ (fun (x y : EReal) => x * y) (congrArg (V c (Pipeline.arrRef spec1 0)) h0) (congrArg (V c (Pipeline.arrRef spec1 1)) h1)

/-- An index of the array is in point `t`'s block iff each coordinate is in the block's range on its axis. -/
theorem mem_blk1_3 (t : Fin cfg1.N) (i : S10000x8.Idx) :
    i ∈ ((cfg1.win 3).blk t).view.set ↔ ∀ a : Fin 2, win1_3.index t a * S400x8.size a ≤ (i a).val ∧ (i a).val < win1_3.index t a * S400x8.size a + S400x8.size a := by
  show i ∈ ((View.whole main_call0_v13_0).slice (win1_3.rect t)).set ↔ _
  rw [View.set_slice_whole, Rect.mem_set_unit]
  exact Iff.rfl

/-- Row `ρ` of the array is written back by point `ρ / 400`. -/
theorem covered1_3 (i : S10000x8.Idx) :
    ∃ t : Fin cfg1.N, (cfg1.win 3).flush t = true ∧ i ∈ ((cfg1.win 3).blk t).view.set := by
  have hi0 : (i 0).val < 10000 := (i 0).isLt
  have hi1 : (i 1).val < 8 := (i 1).isLt
  have hN : (i 0).val / 400 < cfg1.N := by show (i 0).val / 400 < grid1.N; rw [N_1]; omega
  refine ⟨⟨(i 0).val / 400, hN⟩, flush1_3 _, ?_⟩
  rw [mem_blk1_3]
  obtain ⟨e00, e01, e10, e11, e20, e21, e30, e31, e40, e41⟩ := idx_facts1 ⟨(i 0).val / 400, hN⟩
  have et : (⟨(i 0).val / 400, hN⟩ : Fin cfg1.N).val = (i 0).val / 400 := rfl
  intro a
  match a with
  | ⟨0, _⟩ => show win1_3.index ⟨(i 0).val / 400, hN⟩ (0 : Fin 2) * 400 ≤ (i 0).val ∧ (i 0).val < win1_3.index ⟨(i 0).val / 400, hN⟩ (0 : Fin 2) * 400 + 400; omega
  | ⟨1, _⟩ => show win1_3.index ⟨(i 0).val / 400, hN⟩ (1 : Fin 2) * 8 ≤ (i 1).val ∧ (i 1).val < win1_3.index ⟨(i 0).val / 400, hN⟩ (1 : Fin 2) * 8 + 8; omega

/-! ## Output window 4: the product of the adjacency with `T` -/

/-- The whole output array: the adjacency times the whole second operand, entry by entry. -/
def G1_4 (c : Dev nD) : S10000x16.Idx → EReal :=
  unc2 (mm (cur2 (a := 10000) (b := 10000) (V c (Pipeline.arrRef spec1 0))) (cur2 (a := 10000) (b := 16) (V c (Pipeline.arrRef spec1 2))))

/-- What point `t` writes back in window 4 is rows `400 t … 400 t + 399` of that array: the payload's entry
    `(p, q)` is row `p` of the adjacency block — row `400 t + p` of the adjacency — against column `q` of the
    whole second operand. -/
theorem flushed1_4_eq (c : Dev nD) (t : Fin cfg1.N) :
    (dat1 (F := Ideal) V c).flushed 4 t = ((cfg1.win 4).blk t).view.read (Elt Ideal) (G1_4 V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x16) hz]
  funext j
  obtain ⟨p, q, rfl⟩ : ∃ (p : Fin 400) (q : Fin 16), j = ix2 p q := ⟨j 0, j 1, eq_ix2 j⟩
  show k1_pay2 (iblk1 V c 0 t) (iblk1 V c 2 t) (ix2 p q) = G1_4 V c (((cfg1.win 4).blk t).view.emb (ix2 p q))
  refine (pay2_apply _ _ p q).trans ?_
  obtain ⟨e00, e01, e10, e11, e20, e21, e30, e31, e40, e41⟩ := idx_facts1 t
  unfold G1_4
  rw [unc2_apply]
  unfold mm
  refine Finset.sum_congr rfl fun k _ => ?_
  have h0 : ((cfg1.win 0).blk t).view.emb (ix2 p k) = ix2 (((cfg1.win 4).blk t).view.emb (ix2 p q) 0) k := by
    funext a; apply Fin.ext
    match a with
    | ⟨0, _⟩ => show win1_0.index t (0 : Fin 2) * 400 + 1 * p.val = win1_4.index t (0 : Fin 2) * 400 + 1 * p.val; omega
    | ⟨1, _⟩ => show win1_0.index t (1 : Fin 2) * 10000 + 1 * k.val = k.val; omega
  have h1 : ((cfg1.win 2).blk t).view.emb (ix2 k q) = ix2 k (((cfg1.win 4).blk t).view.emb (ix2 p q) 1) := by
    funext a; apply Fin.ext
    match a with
    | ⟨0, _⟩ => show win1_2.index t (0 : Fin 2) * 10000 + 1 * k.val = k.val; omega
    | ⟨1, _⟩ => show win1_2.index t (1 : Fin 2) * 16 + 1 * q.val = win1_4.index t (1 : Fin 2) * 16 + 1 * q.val; omega
  exact congrArg₂ (fun (x y : EReal) => x * y) (congrArg (V c (Pipeline.arrRef spec1 0)) h0) (congrArg (V c (Pipeline.arrRef spec1 2)) h1)

/-- An index of the array is in point `t`'s block iff each coordinate is in the block's range on its axis. -/
theorem mem_blk1_4 (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_call0_v13_1).slice (win1_4.rect t)).set ↔ _
  rw [View.set_slice_whole, Rect.mem_set_unit]
  exact Iff.rfl

/-- Row `ρ` of the array is written back by point `ρ / 400`. -/
theorem covered1_4 (i : S10000x16.Idx) :
    ∃ t : Fin cfg1.N, (cfg1.win 4).flush t = true ∧ i ∈ ((cfg1.win 4).blk t).view.set := by
  have hi0 : (i 0).val < 10000 := (i 0).isLt
  have hi1 : (i 1).val < 16 := (i 1).isLt
  have hN : (i 0).val / 400 < cfg1.N := by show (i 0).val / 400 < grid1.N; rw [N_1]; omega
  refine ⟨⟨(i 0).val / 400, hN⟩, flush1_4 _, ?_⟩
  rw [mem_blk1_4]
  obtain ⟨e00, e01, e10, e11, e20, e21, e30, e31, e40, e41⟩ := idx_facts1 ⟨(i 0).val / 400, hN⟩
  have et : (⟨(i 0).val / 400, hN⟩ : Fin cfg1.N).val = (i 0).val / 400 := rfl
  intro a
  match a with
  | ⟨0, _⟩ => show win1_4.index ⟨(i 0).val / 400, hN⟩ (0 : Fin 2) * 400 ≤ (i 0).val ∧ (i 0).val < win1_4.index ⟨(i 0).val / 400, hN⟩ (0 : Fin 2) * 400 + 400; omega
  | ⟨1, _⟩ => show win1_4.index ⟨(i 0).val / 400, hN⟩ (1 : Fin 2) * 16 ≤ (i 1).val ∧ (i 1).val < win1_4.index ⟨(i 0).val / 400, hN⟩ (1 : Fin 2) * 16 + 16; omega

end

end V1

/-! ## The two output arrays after the region -/

section
variable (V : (c : Dev nD) → (b : Ref sig .tc) → Buf (Elt Ideal) ((c : Thread nD τ).loc b))
open V1

/-- THE ARRAY after the region's 25 points: the product of the adjacency with `S1`. -/
theorem val1_3 (c : Dev nD) :
    (dat1 (F := Ideal) V c).arrAt 3 cfg1.N
      = unc2 (mm (cur2 (a := 10000) (b := 10000) (V c (Pipeline.arrRef spec1 0))) (cur2 (a := 10000) (b := 8) (V c (Pipeline.arrRef spec1 1)))) :=
  (dat1 V c).arrAt_eq_of_cover 3 (G1_3 V c) (fun t _ => flushed1_3_eq V c t) (covered1_3)

/-- THE ARRAY after the region's 25 points: the product of the adjacency with `T`. -/
theorem val1_4 (c : Dev nD) :
    (dat1 (F := Ideal) V c).arrAt 4 cfg1.N
      = unc2 (mm (cur2 (a := 10000) (b := 10000) (V c (Pipeline.arrRef spec1 0))) (cur2 (a := 10000) (b := 16) (V c (Pipeline.arrRef spec1 2)))) :=
  (dat1 V c).arrAt_eq_of_cover 4 (G1_4 V c) (fun t _ => flushed1_4_eq V c t) (covered1_4)

end

end Cert.KernelIdeal.Hand

end
-- ==== Proof.KI.Host.lean ====
/-
  The host operations before the three calls, read at coordinates.

  Before the first call the program forms, from its arguments: the batch norm's scale divided entrywise by the
  square root of the literal 1.00001 (a row of 8); the shift, the two dense biases and the two convolution biases
  laid out as single rows; and the upper and the lower eight rows of the second convolution's weight.  Every
  argument array itself is left as it was.
-/
import proofs.«115251_g55224689492446_cont_9to1_m_1185_2_alg».proof.Proof.Gen.KernelIdeal.Launch
import proofs.«115251_g55224689492446_cont_9to1_m_1185_2_alg».proof.Proof.Spec
import proofs.«115251_g55224689492446_cont_9to1_m_1185_2_alg».proof.Proof.Curry
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen Cert.Spec

variable (W : Valuation τ sig (Elt Ideal))

/-- The buffers' contents after the host operations, from the contents `W` before them. -/
local notation "H" => StableHlo.after (hostOps0 (F := Ideal)) W

/-- The scale row: entry `b` is the batch norm's scale `γ b` divided by the square root of the literal. -/
theorem host_scale (b : Fin 8) :
    cur2 (H (Proc.devRef .tc main_call0_v4) : S1x8.Idx → EReal) 0 b
      = Ideal.div (cur1 (W (Proc.devRef .tc main_arg11) : S8.Idx → EReal) b) Cert.Spec.sq := by
  have e : (H (Proc.devRef .tc main_call0_v4) : S1x8.Idx → EReal)
      = shapeCast S1x8 (Host.divf (W (Proc.devRef .tc main_arg11) : S8.Idx → EReal)
          (broadcastInDim S8 ![] bcast_S_S8 (id (Host.sqrt (constant (F := Ideal) S_ .f32 0x3F800054#32)))))
          shapeCasts_S8_S1x8 := by
    dsimp only [hostOps0]; after_results; rfl
  rw [cur2_apply, e]
  refine (shapeCast_a_1a_apply _ _ 0 b).trans ?_
  rfl

/-- The shift row is the batch norm's shift. -/
theorem host_beta (b : Fin 8) :
    cur2 (H (Proc.devRef .tc main_call0_v5) : S1x8.Idx → EReal) 0 b
      = cur1 (W (Proc.devRef .tc main_arg12) : S8.Idx → EReal) b := by
  have e : (H (Proc.devRef .tc main_call0_v5) : S1x8.Idx → EReal)
      = shapeCast S1x8 (W (Proc.devRef .tc main_arg12) : S8.Idx → EReal) shapeCasts_S8_S1x8 := by
    dsimp only [hostOps0]; after_results; rfl
  rw [cur2_apply, e]
  exact shapeCast_a_1a_apply _ _ 0 b

/-- The first dense bias as a row. -/
theorem host_c1 (a : Fin 16) :
    cur2 (H (Proc.devRef .tc main_call0_v6) : S1x16.Idx → EReal) 0 a
      = cur1 (W (Proc.devRef .tc main_arg8) : S16.Idx → EReal) a := by
  have e : (H (Proc.devRef .tc main_call0_v6) : S1x16.Idx → EReal)
      = shapeCast S1x16 (W (Proc.devRef .tc main_arg8) : S16.Idx → EReal) shapeCasts_S16_S1x16 := by
    dsimp only [hostOps0]; after_results; rfl
  rw [cur2_apply, e]
  exact shapeCast_a_1a_apply _ _ 0 a

/-- The second dense bias as a row. -/
theorem host_c2 (b : Fin 8) :
    cur2 (H (Proc.devRef .tc main_call0_v7) : S1x8.Idx → EReal) 0 b
      = cur1 (W (Proc.devRef .tc main_arg10) : S8.Idx → EReal) b := by
  have e : (H (Proc.devRef .tc main_call0_v7) : S1x8.Idx → EReal)
      = shapeCast S1x8 (W (Proc.devRef .tc main_arg10) : S8.Idx → EReal) shapeCasts_S8_S1x8 := by
    dsimp only [hostOps0]; after_results; rfl
  rw [cur2_apply, e]
  exact shapeCast_a_1a_apply _ _ 0 b

/-- The first convolution's bias as a row. -/
theorem host_b1 (h : Fin 8) :
    cur2 (H (Proc.devRef .tc main_call0_v8) : S1x8.Idx → EReal) 0 h
      = cur1 (W (Proc.devRef .tc main_arg3) : S8.Idx → EReal) h := by
  have e : (H (Proc.devRef .tc main_call0_v8) : S1x8.Idx → EReal)
      = shapeCast S1x8 (W (Proc.devRef .tc main_arg3) : S8.Idx → EReal) shapeCasts_S8_S1x8 := by
    dsimp only [hostOps0]; after_results; rfl
  rw [cur2_apply, e]
  exact shapeCast_a_1a_apply _ _ 0 h

/-- The second convolution's bias as a row. -/
theorem host_b2 (c : Fin 16) :
    cur2 (H (Proc.devRef .tc main_call0_v9) : S1x16.Idx → EReal) 0 c
      = cur1 (W (Proc.devRef .tc main_arg5) : S16.Idx → EReal) c := by
  have e : (H (Proc.devRef .tc main_call0_v9) : S1x16.Idx → EReal)
      = shapeCast S1x16 (W (Proc.devRef .tc main_arg5) : S16.Idx → EReal) shapeCasts_S16_S1x16 := by
    dsimp only [hostOps0]; after_results; rfl
  rw [cur2_apply, e]
  exact shapeCast_a_1a_apply _ _ 0 c

/-- The upper eight rows of the second convolution's weight. -/
theorem host_w2a :
    cur2 (H (Proc.devRef .tc main_call0_v10) : S8x16.Idx → EReal)
      = Cert.Spec.w2a (cur2 (W (Proc.devRef .tc main_arg4) : S16x16.Idx → EReal)) := by
  have e : (H (Proc.devRef .tc main_call0_v10) : S8x16.Idx → EReal)
      = extractStridedSlice S8x16 ![0, 0] (W (Proc.devRef .tc main_arg4) : S16x16.Idx → EReal) slices_S16x16_S8x16_0_0 := by
    dsimp only [hostOps0]; after_results; rfl
  funext k c
  rw [cur2_apply, e]
  exact slice2_axis0_apply 0 _ _ k c (Fin.castLE (by decide) k) (Nat.zero_add _).symm

/-- The lower eight rows of the second convolution's weight. -/
theorem host_w2b :
    cur2 (H (Proc.devRef .tc main_call0_v11) : S8x16.Idx → EReal)
      = Cert.Spec.w2b (cur2 (W (Proc.devRef .tc main_arg4) : S16x16.Idx → EReal)) := by
  have e : (H (Proc.devRef .tc main_call0_v11) : S8x16.Idx → EReal)
      = extractStridedSlice S8x16 ![8, 0] (W (Proc.devRef .tc main_arg4) : S16x16.Idx → EReal) slices_S16x16_S8x16_8_0 := by
    dsimp only [hostOps0]; after_results; rfl
  funext k c
  rw [cur2_apply, e]
  exact slice2_axis0_apply 8 _ _ k c ⟨k.val + 8, by omega⟩ (Nat.add_comm _ _)

/-! The argument arrays are not written. -/

theorem host_arg0 : H (Proc.devRef .tc main_arg0) = W (Proc.devRef .tc main_arg0) := by
  dsimp only [hostOps0]; after_results
theorem host_arg1 : H (Proc.devRef .tc main_arg1) = W (Proc.devRef .tc main_arg1) := by
  dsimp only [hostOps0]; after_results
theorem host_arg2 : H (Proc.devRef .tc main_arg2) = W (Proc.devRef .tc main_arg2) := by
  dsimp only [hostOps0]; after_results
theorem host_arg3 : H (Proc.devRef .tc main_arg3) = W (Proc.devRef .tc main_arg3) := by
  dsimp only [hostOps0]; after_results
theorem host_arg4 : H (Proc.devRef .tc main_arg4) = W (Proc.devRef .tc main_arg4) := by
  dsimp only [hostOps0]; after_results
theorem host_arg5 : H (Proc.devRef .tc main_arg5) = W (Proc.devRef .tc main_arg5) := by
  dsimp only [hostOps0]; after_results
theorem host_arg6 : H (Proc.devRef .tc main_arg6) = W (Proc.devRef .tc main_arg6) := by
  dsimp only [hostOps0]; after_results
theorem host_arg7 : H (Proc.devRef .tc main_arg7) = W (Proc.devRef .tc main_arg7) := by
  dsimp only [hostOps0]; after_results
theorem host_arg8 : H (Proc.devRef .tc main_arg8) = W (Proc.devRef .tc main_arg8) := by
  dsimp only [hostOps0]; after_results
theorem host_arg9 : H (Proc.devRef .tc main_arg9) = W (Proc.devRef .tc main_arg9) := by
  dsimp only [hostOps0]; after_results
theorem host_arg10 : H (Proc.devRef .tc main_arg10) = W (Proc.devRef .tc main_arg10) := by
  dsimp only [hostOps0]; after_results
theorem host_arg11 : H (Proc.devRef .tc main_arg11) = W (Proc.devRef .tc main_arg11) := by
  dsimp only [hostOps0]; after_results
theorem host_arg12 : H (Proc.devRef .tc main_arg12) = W (Proc.devRef .tc main_arg12) := by
  dsimp only [hostOps0]; after_results

end Cert.KernelIdeal.Hand

end
-- ==== Proof.KI.Chain.lean ====
/- The arrays the third pallas_call is entered with, as functions of the launch memory's argument arrays: the
   adjacency itself; the first graph convolution before its bias, `adj (x w1)`; the product `adj (xr w2b)` of the
   adjacency with the scaled, shifted right branch times the lower half of the second weight; the two convolution
   biases; and the upper half of the second weight. Each is read back through the fold of buffer contents: the
   second call's outputs are products of the adjacency with the first call's outputs, which are functions of the
   arguments and of the rows the host operations lay out. -/
import proofs.«115251_g55224689492446_cont_9to1_m_1185_2_alg».proof.Proof.KI.Fold
import proofs.«115251_g55224689492446_cont_9to1_m_1185_2_alg».proof.Proof.KI.Val0
import proofs.«115251_g55224689492446_cont_9to1_m_1185_2_alg».proof.Proof.KI.Val1
import proofs.«115251_g55224689492446_cont_9to1_m_1185_2_alg».proof.Proof.KI.Host
import proofs.«115251_g55224689492446_cont_9to1_m_1185_2_alg».proof.Proof.Spec
import proofs.«115251_g55224689492446_cont_9to1_m_1185_2_alg».proof.Proof.Curry

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

namespace Ch

/-! ## The arguments and the host rows at region 0's entry -/

/-- An argument array at region 0's entry is the launch memory's. -/
theorem V1_arg (c : Dev nD) (r : Ref sig .tc) (h : r ∉ (hostOps0_W : List (Ref sig .tc))) :
    V1 m c r = m ((c : Thread nD τ).loc r) :=
  W1_of_not_written m c r h

/-- The adjacency at the entries of regions 1 and 2 is the launch memory's. -/
theorem V2_adj (c : Dev nD) : V2 m c main_arg1 = m ((c : Thread nD τ).loc main_arg1) :=
  (W2_of_ne m c main_arg1 (by decide)).trans (W1_of_not_written m c main_arg1 (by decide))
theorem V3_adj (c : Dev nD) : V3 m c main_arg1 = m ((c : Thread nD τ).loc main_arg1) :=
  ((W3_arr m c 0).trans (((dat1 (V2 m) c).arrAt_in 0 rfl _).trans (A_eq1 (V2 m) c 0))).trans (V2_adj m c)

/-- A buffer no window of regions 0 and 1 stages reaches region 2 as the host operations left it. -/
theorem V3_host (c : Dev nD) (r : Ref sig .tc) (h0 : ∀ w, Pipeline.arrRef spec0 w ≠ r) (h1 : ∀ w, Pipeline.arrRef spec1 w ≠ r) :
    V3 m c r = V1 m c r :=
  (W3_of_ne m c r h1).trans (W2_of_ne m c r h0)

/-! ## Region 0's outputs at region 1's entry -/

/-- The first support. -/
theorem V2_s1 (c : Dev nD) :
    cur2 (a := 10000) (b := 8) (V2 m c main_call0_v12_0) = s1 (cur2 (m ((c : Thread nD τ).loc main_arg0))) (cur2 (m ((c : Thread nD τ).loc main_arg2))) := by
  have e : V2 m c main_call0_v12_0 = unc2 (mm (cur2 (V1 m c (Pipeline.arrRef spec0 0))) (cur2 (V1 m c (Pipeline.arrRef spec0 1)))) :=
    (W2_arr m c 10).trans (val0_10 (V1 m) c)
  rw [e, cur2_unc2]
  rw [show V1 m c (Pipeline.arrRef spec0 0) = (m ((c : Thread nD τ).loc main_arg0)) from V1_arg m c main_arg0 (by decide),
    show V1 m c (Pipeline.arrRef spec0 1) = (m ((c : Thread nD τ).loc main_arg2)) from V1_arg m c main_arg2 (by decide)]
  rfl

/-- The scaled, shifted right branch times the lower half of the second weight. -/
theorem V2_t (c : Dev nD) :
    cur2 (a := 10000) (b := 16) (V2 m c main_call0_v12_1)
      = tK (cur2 (m ((c : Thread nD τ).loc main_arg0))) (cur2 (m ((c : Thread nD τ).loc main_arg4))) (cur2 (m ((c : Thread nD τ).loc main_arg6))) (cur2 (m ((c : Thread nD τ).loc main_arg7))) (cur1 (m ((c : Thread nD τ).loc main_arg8))) (cur2 (m ((c : Thread nD τ).loc main_arg9))) (cur1 (m ((c : Thread nD τ).loc main_arg10))) (cur1 (m ((c : Thread nD τ).loc main_arg11))) (cur1 (m ((c : Thread nD τ).loc main_arg12))) := by
  have e : V2 m c main_call0_v12_1 = _ := (W2_arr m c 11).trans (val0_11 (V1 m) c)
  rw [e, cur2_unc2]
  have hc1 : (fun a => cur2 (V1 m c (Pipeline.arrRef spec0 4)) 0 a) = cur1 (m ((c : Thread nD τ).loc main_arg8)) := funext fun a => host_c1 (W0 m c) a
  have hc2 : (fun b => cur2 (V1 m c (Pipeline.arrRef spec0 6)) 0 b) = cur1 (m ((c : Thread nD τ).loc main_arg10)) := funext fun b => host_c2 (W0 m c) b
  have hsc : ∀ b, cur2 (V1 m c (Pipeline.arrRef spec0 7)) 0 b = Ideal.div (cur1 (m ((c : Thread nD τ).loc main_arg11)) b) sq := fun b => host_scale (W0 m c) b
  have hbe : ∀ b, cur2 (V1 m c (Pipeline.arrRef spec0 8)) 0 b = cur1 (m ((c : Thread nD τ).loc main_arg12)) b := fun b => host_beta (W0 m c) b
  have hb2 : cur2 (V1 m c (Pipeline.arrRef spec0 9)) = w2b (cur2 (m ((c : Thread nD τ).loc main_arg4))) := host_w2b (W0 m c)
  rw [hc1, hc2, hb2]
  simp only [hsc, hbe]
  rw [show V1 m c (Pipeline.arrRef spec0 0) = (m ((c : Thread nD τ).loc main_arg0)) from V1_arg m c main_arg0 (by decide),
    show V1 m c (Pipeline.arrRef spec0 2) = (m ((c : Thread nD τ).loc main_arg6)) from V1_arg m c main_arg6 (by decide),
    show V1 m c (Pipeline.arrRef spec0 3) = (m ((c : Thread nD τ).loc main_arg7)) from V1_arg m c main_arg7 (by decide),
    show V1 m c (Pipeline.arrRef spec0 5) = (m ((c : Thread nD τ).loc main_arg9)) from V1_arg m c main_arg9 (by decide)]
  rfl

end Ch

/-! ## What region 2 is entered with -/

/-- Window 0: the adjacency. -/
theorem chain_adj (c : Dev nD) : cur2 (a := 10000) (b := 10000) (V3 m c (Pipeline.arrRef spec2 0)) = cur2 (m ((c : Thread nD τ).loc main_arg1)) :=
  congrArg (cur2 (a := 10000) (b := 10000)) (Ch.V3_adj m c)

/-- Window 1: the first graph convolution before its bias. -/
theorem chain_p1 (c : Dev nD) :
    cur2 (a := 10000) (b := 8) (V3 m c (Pipeline.arrRef spec2 1)) = p1 (cur2 (m ((c : Thread nD τ).loc main_arg0))) (cur2 (m ((c : Thread nD τ).loc main_arg1))) (cur2 (m ((c : Thread nD τ).loc main_arg2))) := by
  have e : V3 m c (Pipeline.arrRef spec2 1) = _ := (W3_arr m c 3).trans (val1_3 (V2 m) c)
  rw [e, cur2_unc2]
  rw [show cur2 (a := 10000) (b := 10000) (V2 m c (Pipeline.arrRef spec1 0)) = cur2 (m ((c : Thread nD τ).loc main_arg1)) from congrArg (cur2 (a := 10000) (b := 10000)) (Ch.V2_adj m c),
    show cur2 (a := 10000) (b := 8) (V2 m c (Pipeline.arrRef spec1 1)) = _ from Ch.V2_s1 m c]
  rfl

/-- Window 2: the adjacency times the right branch's product. -/
theorem chain_pt (c : Dev nD) :
    cur2 (a := 10000) (b := 16) (V3 m c (Pipeline.arrRef spec2 2))
      = ptK (cur2 (m ((c : Thread nD τ).loc main_arg0))) (cur2 (m ((c : Thread nD τ).loc main_arg1))) (cur2 (m ((c : Thread nD τ).loc main_arg4))) (cur2 (m ((c : Thread nD τ).loc main_arg6))) (cur2 (m ((c : Thread nD τ).loc main_arg7))) (cur1 (m ((c : Thread nD τ).loc main_arg8))) (cur2 (m ((c : Thread nD τ).loc main_arg9))) (cur1 (m ((c : Thread nD τ).loc main_arg10))) (cur1 (m ((c : Thread nD τ).loc main_arg11))) (cur1 (m ((c : Thread nD τ).loc main_arg12))) := by
  have e : V3 m c (Pipeline.arrRef spec2 2) = _ := (W3_arr m c 4).trans (val1_4 (V2 m) c)
  rw [e, cur2_unc2]
  rw [show cur2 (a := 10000) (b := 10000) (V2 m c (Pipeline.arrRef spec1 0)) = cur2 (m ((c : Thread nD τ).loc main_arg1)) from congrArg (cur2 (a := 10000) (b := 10000)) (Ch.V2_adj m c),
    show cur2 (a := 10000) (b := 16) (V2 m c (Pipeline.arrRef spec1 2)) = _ from Ch.V2_t m c]
  rfl

/-- Window 3: the first convolution's bias. -/
theorem chain_b1 (c : Dev nD) : (fun h => cur2 (a := 1) (b := 8) (V3 m c (Pipeline.arrRef spec2 3)) 0 h) = cur1 (m ((c : Thread nD τ).loc main_arg3)) := by
  rw [show V3 m c (Pipeline.arrRef spec2 3) = V1 m c main_call0_v8 from Ch.V3_host m c main_call0_v8 (by decide) (by decide)]
  exact funext fun h => host_b1 (W0 m c) h

/-- Window 4: the second convolution's bias. -/
theorem chain_b2 (c : Dev nD) : (fun c' => cur2 (a := 1) (b := 16) (V3 m c (Pipeline.arrRef spec2 4)) 0 c') = cur1 (m ((c : Thread nD τ).loc main_arg5)) := by
  rw [show V3 m c (Pipeline.arrRef spec2 4) = V1 m c main_call0_v9 from Ch.V3_host m c main_call0_v9 (by decide) (by decide)]
  exact funext fun c' => host_b2 (W0 m c) c'

/-- Window 5: the upper half of the second weight. -/
theorem chain_a2 (c : Dev nD) : cur2 (a := 8) (b := 16) (V3 m c (Pipeline.arrRef spec2 5)) = w2a (cur2 (m ((c : Thread nD τ).loc main_arg4))) := by
  rw [show V3 m c (Pipeline.arrRef spec2 5) = V1 m c main_call0_v10 from Ch.V3_host m c main_call0_v10 (by decide) (by decide)]
  exact host_w2a (W0 m c)

end Cert.KernelIdeal.Hand

end
-- ==== Proof.RefG.Left.lean ====
/-
  The reference's left branch read at plain coordinates: the first support x·w1, the first graph convolution
  adj·(x·w1), and its relu after the bias. Each stage of the reference, read at the index (i, j), is the function
  of the same name in the specification applied to the arguments read at coordinates.
-/
import proofs.«115251_g55224689492446_cont_9to1_m_1185_2_alg».proof.Proof.Ref.ReadP
import proofs.«115251_g55224689492446_cont_9to1_m_1185_2_alg».proof.Proof.Spec
import proofs.«115251_g55224689492446_cont_9to1_m_1185_2_alg».proof.Proof.Curry
import Idealize.ShloMosaic.Lib.ValueIdx
import Idealize.ShloMosaic.Lib.Pipeline.Value
import Idealize.ShloMosaic.PureOps.Ideal.Laws

noncomputable section

namespace Cert.RefG

open Cert.ReferenceIdeal Cert.ReferenceIdeal.Gen Cert.ReferenceIdeal.ReadP Cert.Spec Idealize.ShloMosaic Idealize.ShloMosaic.ValueIdx

/-- An array of the literal shape [a, b], and one of shape [a], over the extended reals. -/
abbrev Arr2 (a b : Nat) : Type := (⟨⟨2, ![a, b]⟩, .f32⟩ : BufTy).Contents (Elt Ideal)
abbrev Arr1 (a : Nat) : Type := (⟨⟨1, ![a]⟩, .f32⟩ : BufTy).Contents (Elt Ideal)

/-- The first support: entry (i, j) is the contraction of row i of x with column j of w1 over the 128 features. -/
theorem s1_eq (a0 : Arr2 10000 128) (a2 : Arr2 128 8) (i : Fin 10000) (j : Fin 8) :
    val_main_v0 (F := Ideal) a0 a2 (ix2 i j) = s1 (cur2 a0) (cur2 a2) i j := by
  rw [val_main_v0_apply]
  have el : ∀ k : Fin 128, lidx_main_v0 (ix2 i j) k = ix2 i k := fun k => funext fun a => Fin.ext (by match a with | ⟨0, _⟩ => rfl | ⟨1, _⟩ => rfl)
  have er : ∀ k : Fin 128, ridx_main_v0 (ix2 i j) k = ix2 k j := fun k => funext fun a => Fin.ext (by match a with | ⟨0, _⟩ => rfl | ⟨1, _⟩ => rfl)
  simp only [el, er]
  rfl

/-- The first graph convolution before its bias: entry (i, j) contracts row i of adj with column j of the support over the 10000 nodes. -/
theorem p1_eq (a0 : Arr2 10000 128) (a1 : Arr2 10000 10000) (a2 : Arr2 128 8) (i : Fin 10000) (j : Fin 8) :
    val_main_v1 (F := Ideal) a0 a1 a2 (ix2 i j) = p1 (cur2 a0) (cur2 a1) (cur2 a2) i j := by
  rw [val_main_v1_apply]
  have el : ∀ k : Fin 10000, lidx_main_v1 (ix2 i j) k = ix2 i k := fun k => funext fun a => Fin.ext (by match a with | ⟨0, _⟩ => rfl | ⟨1, _⟩ => rfl)
  have er : ∀ k : Fin 10000, ridx_main_v1 (ix2 i j) k = ix2 k j := fun k => funext fun a => Fin.ext (by match a with | ⟨0, _⟩ => rfl | ⟨1, _⟩ => rfl)
  simp only [el, er, s1_eq]
  rfl

/-- The first bias broadcast along the rows: entry (i, j) is b1 j. -/
theorem b1_eq (a3 : Arr1 8) (i : Fin 10000) (j : Fin 8) : val_main_v3 (F := Ideal) a3 (ix2 i j) = cur1 a3 j := by
  rw [val_main_v3_apply, val_main_v2_apply]
  exact congrArg a3 (funext fun a => Fin.ext (by match a with | ⟨0, _⟩ => rfl))

/-- The left branch: the maximum of the biased convolution and the zero word, which is the real zero. -/
theorem xl_eq (a0 : Arr2 10000 128) (a1 : Arr2 10000 10000) (a2 : Arr2 128 8) (a3 : Arr1 8) (i : Fin 10000) (j : Fin 8) :
    val_main_v5 (F := Ideal) a0 a1 a2 a3 (ix2 i j) = xl (cur2 a0) (cur2 a1) (cur2 a2) (cur1 a3) i j := by
  rw [val_main_v5_apply, val_main_v4_apply, val_main_call0_v0_apply, val_main_call0_cst_apply, p1_eq, b1_eq]
  simp only [Ideal.maximumf_def, Ideal.addf_def, Ideal.ofBits_def, Ideal.ofBits_zero_f32]
  rfl

end Cert.RefG

end
-- ==== Proof.RefG.Right.lean ====
/-
  The reference's right branch read at plain coordinates: the pairwise-interaction term, the two dense layers with
  their relus, and the batch norm as the reference scales it (divide by the square root, then multiply by the scale).
-/
import proofs.«115251_g55224689492446_cont_9to1_m_1185_2_alg».proof.Proof.Ref.ReadP
import proofs.«115251_g55224689492446_cont_9to1_m_1185_2_alg».proof.Proof.Spec
import proofs.«115251_g55224689492446_cont_9to1_m_1185_2_alg».proof.Proof.Curry
import proofs.«115251_g55224689492446_cont_9to1_m_1185_2_alg».proof.Proof.RefG.Left
import Idealize.ShloMosaic.Lib.ValueIdx
import Idealize.ShloMosaic.Lib.Pipeline.Value
import Idealize.ShloMosaic.PureOps.Ideal.Laws

noncomputable section

namespace Cert.RefG

open Cert.ReferenceIdeal Cert.ReferenceIdeal.Gen Cert.ReferenceIdeal.ReadP Cert.Spec Idealize.ShloMosaic Idealize.ShloMosaic.ValueIdx

/-- The interaction term: both products are contraction sums over the 128 features; the squares are read elementwise. -/
theorem bi_eq (a0 : Arr2 10000 128) (a6 : Arr2 128 32) (i : Fin 10000) (j : Fin 32) :
    val_main_v13 (F := Ideal) a0 a6 (ix2 i j) = bi (cur2 a0) (cur2 a6) i j := by
  rw [val_main_v13_apply, val_main_v12_apply, val_main_cst_apply, val_main_v11_apply, val_main_v7_apply,
    val_main_v6_apply, val_main_v10_apply]
  have el6 : ∀ k : Fin 128, lidx_main_v6 (ix2 i j) k = ix2 i k := fun k => funext fun a => Fin.ext (by match a with | ⟨0, _⟩ => rfl | ⟨1, _⟩ => rfl)
  have er6 : ∀ k : Fin 128, ridx_main_v6 (ix2 i j) k = ix2 k j := fun k => funext fun a => Fin.ext (by match a with | ⟨0, _⟩ => rfl | ⟨1, _⟩ => rfl)
  have el10 : ∀ k : Fin 128, lidx_main_v10 (ix2 i j) k = ix2 i k := fun k => funext fun a => Fin.ext (by match a with | ⟨0, _⟩ => rfl | ⟨1, _⟩ => rfl)
  have er10 : ∀ k : Fin 128, ridx_main_v10 (ix2 i j) k = ix2 k j := fun k => funext fun a => Fin.ext (by match a with | ⟨0, _⟩ => rfl | ⟨1, _⟩ => rfl)
  simp only [el6, er6, el10, er10, val_main_v8_apply, val_main_v9_apply, Ideal.mulf_def, Ideal.subf_def, Ideal.ofBits_def]
  rfl

/-- The first dense layer's bias broadcast along the rows. -/
theorem c1_eq (a8 : Arr1 16) (i : Fin 10000) (j : Fin 16) : val_main_v17 (F := Ideal) a8 (ix2 i j) = cur1 a8 j := by
  rw [val_main_v17_apply, val_main_v16_apply]
  exact congrArg a8 (funext fun a => Fin.ext (by match a with | ⟨0, _⟩ => rfl))

/-- The first dense layer: the contraction runs over the 32 rows of the transposed weight, that is over the weight's
    second coordinate, so the product is the one with the transposed second factor. -/
theorem h1_eq (a0 : Arr2 10000 128) (a6 : Arr2 128 32) (a7 : Arr2 16 32) (a8 : Arr1 16) (i : Fin 10000) (j : Fin 16) :
    val_main_v19 (F := Ideal) a0 a6 a7 a8 (ix2 i j) = h1 (cur2 a0) (cur2 a6) (cur2 a7) (cur1 a8) i j := by
  rw [val_main_v19_apply, val_main_v18_apply, val_main_call1_v0_apply, val_main_call1_cst_apply, val_main_v15_apply, c1_eq]
  have el : ∀ k : Fin 32, lidx_main_v15 (ix2 i j) k = ix2 i k := fun k => funext fun a => Fin.ext (by match a with | ⟨0, _⟩ => rfl | ⟨1, _⟩ => rfl)
  have er : ∀ k : Fin 32, idx_main_v14 (ridx_main_v15 (ix2 i j) k) = ix2 j k := fun k => funext fun a => Fin.ext (by match a with | ⟨0, _⟩ => rfl | ⟨1, _⟩ => rfl)
  simp only [val_main_v14_apply, el, er, bi_eq, Ideal.maximumf_def, Ideal.addf_def, Ideal.ofBits_def, Ideal.ofBits_zero_f32]
  rfl

/-- The second dense layer's bias broadcast along the rows. -/
theorem c2_eq (a10 : Arr1 8) (i : Fin 10000) (j : Fin 8) : val_main_v23 (F := Ideal) a10 (ix2 i j) = cur1 a10 j := by
  rw [val_main_v23_apply, val_main_v22_apply]
  exact congrArg a10 (funext fun a => Fin.ext (by match a with | ⟨0, _⟩ => rfl))

/-- The second dense layer: again a product with the transposed weight, over its 16 columns. -/
theorem h2_eq (a0 : Arr2 10000 128) (a6 : Arr2 128 32) (a7 : Arr2 16 32) (a8 : Arr1 16) (a9 : Arr2 8 16) (a10 : Arr1 8)
    (i : Fin 10000) (j : Fin 8) :
    val_main_v24 (F := Ideal) a0 a6 a7 a8 a9 a10 (ix2 i j)
      = h2 (cur2 a0) (cur2 a6) (cur2 a7) (cur1 a8) (cur2 a9) (cur1 a10) i j := by
  rw [val_main_v24_apply, val_main_v21_apply, c2_eq]
  have el : ∀ k : Fin 16, lidx_main_v21 (ix2 i j) k = ix2 i k := fun k => funext fun a => Fin.ext (by match a with | ⟨0, _⟩ => rfl | ⟨1, _⟩ => rfl)
  have er : ∀ k : Fin 16, idx_main_v20 (ridx_main_v21 (ix2 i j) k) = ix2 j k := fun k => funext fun a => Fin.ext (by match a with | ⟨0, _⟩ => rfl | ⟨1, _⟩ => rfl)
  simp only [val_main_v20_apply, el, er, h1_eq, Ideal.addf_def]
  rfl

/-- Its relu. -/
theorem r_eq (a0 : Arr2 10000 128) (a6 : Arr2 128 32) (a7 : Arr2 16 32) (a8 : Arr1 16) (a9 : Arr2 8 16) (a10 : Arr1 8)
    (i : Fin 10000) (j : Fin 8) :
    val_main_v25 (F := Ideal) a0 a6 a7 a8 a9 a10 (ix2 i j)
      = r (cur2 a0) (cur2 a6) (cur2 a7) (cur1 a8) (cur2 a9) (cur1 a10) i j := by
  rw [val_main_v25_apply, val_main_call2_v0_apply, val_main_call2_cst_apply, h2_eq]
  simp only [Ideal.maximumf_def, Ideal.ofBits_def, Ideal.ofBits_zero_f32]
  rfl

/-- The batch-norm scale and shift broadcast along the rows. -/
theorem g_eq (a11 : Arr1 8) (i : Fin 10000) (j : Fin 8) : val_main_v31 (F := Ideal) a11 (ix2 i j) = cur1 a11 j := by
  rw [val_main_v31_apply, val_main_v30_apply]
  exact congrArg a11 (funext fun a => Fin.ext (by match a with | ⟨0, _⟩ => rfl))
theorem be_eq (a12 : Arr1 8) (i : Fin 10000) (j : Fin 8) : val_main_v34 (F := Ideal) a12 (ix2 i j) = cur1 a12 j := by
  rw [val_main_v34_apply, val_main_v33_apply]
  exact congrArg a12 (funext fun a => Fin.ext (by match a with | ⟨0, _⟩ => rfl))

/-- The right branch as the reference scales it: the relu divided by the square root of the literal, times the scale,
    plus the shift. The literal stays a word; its square root is the specification's `sq`. -/
theorem xrR_eq (a0 : Arr2 10000 128) (a6 : Arr2 128 32) (a7 : Arr2 16 32) (a8 : Arr1 16) (a9 : Arr2 8 16) (a10 a11 a12 : Arr1 8)
    (i : Fin 10000) (j : Fin 8) :
    val_main_v35 (F := Ideal) a0 a6 a7 a8 a9 a10 a11 a12 (ix2 i j)
      = xrR (cur2 a0) (cur2 a6) (cur2 a7) (cur1 a8) (cur2 a9) (cur1 a10) (cur1 a11) (cur1 a12) i j := by
  rw [val_main_v35_apply, val_main_v32_apply, val_main_v29_apply, val_main_v28_apply, val_main_v27_apply,
    val_main_v26_apply, val_main_cst_0_apply, r_eq, g_eq, be_eq]
  simp only [Ideal.addf_def, Ideal.mulf_def, Ideal.hostDivf_def, Ideal.hostUnary_sqrt_def, Ideal.ofBits_def]
  rfl

end Cert.RefG

end
-- ==== Proof.RefG.lean ====
/-
  The reference is the specification: its result array, as a function of its thirteen argument arrays, is the
  row-wise log-softmax of the reference's logits, each read at plain coordinates. The left and right branches are read
  in the two modules imported here; this one reads the concatenation of the two 8-column halves, the second graph
  convolution, the row maximum (a fold of the maximum from the word of −∞, which is the least element) and the
  log-softmax (whose float sum starts from the zero word).
-/
import proofs.«115251_g55224689492446_cont_9to1_m_1185_2_alg».proof.Proof.Ref.ReadP
import proofs.«115251_g55224689492446_cont_9to1_m_1185_2_alg».proof.Proof.Spec
import proofs.«115251_g55224689492446_cont_9to1_m_1185_2_alg».proof.Proof.Curry
import proofs.«115251_g55224689492446_cont_9to1_m_1185_2_alg».proof.Proof.RefG.Left
import proofs.«115251_g55224689492446_cont_9to1_m_1185_2_alg».proof.Proof.RefG.Right
import Idealize.ShloMosaic.Lib.ValueIdx
import Idealize.ShloMosaic.Lib.Pipeline.Value
import Idealize.ShloMosaic.PureOps.Ideal.Laws

noncomputable section

namespace Cert.RefG

open Cert.ReferenceIdeal Cert.ReferenceIdeal.Gen Cert.ReferenceIdeal.ReadP Cert.Spec Idealize.ShloMosaic Idealize.ShloMosaic.ValueIdx

variable (a0 : Arr2 10000 128) (a1 : Arr2 10000 10000) (a2 : Arr2 128 8) (a3 : Arr1 8) (a4 : Arr2 16 16) (a5 : Arr1 16)
  (a6 : Arr2 128 32) (a7 : Arr2 16 32) (a8 : Arr1 16) (a9 : Arr2 8 16) (a10 a11 a12 : Arr1 8)

/-- The concatenation along the columns: a column below 8 reads the left branch there, a column from 8 on reads the
    right branch 8 columns earlier. -/
theorem xc_eq (i : Fin 10000) (k : Fin 16) :
    val_main_v36 (F := Ideal) a0 a1 a2 a3 a6 a7 a8 a9 a10 a11 a12 (ix2 i k) = xc (cur2 a0) (cur2 a1) (cur2 a2) (cur1 a3) (cur2 a6) (cur2 a7) (cur1 a8) (cur2 a9) (cur1 a10) (cur1 a11) (cur1 a12) i k := by
  unfold val_main_v36 xc
  by_cases h : k.val < 8
  · rw [dif_pos h, concatenate_pair_apply_left (t := S10000x16) (s₁ := S10000x8) (s₂ := S10000x8) (1 : Fin 2) _ _ concatenates_S10000x8_S10000x8_S10000x16_d1 (ix2 i k) rfl
      (ix2 i (⟨k.val, h⟩ : Fin 8)) (fun b => by match b with | ⟨0, _⟩ => rfl | ⟨1, _⟩ => rfl), xl_eq]
  · rw [dif_neg h, concatenate_pair_apply_right (t := S10000x16) (s₁ := S10000x8) (s₂ := S10000x8) (1 : Fin 2) _ _ concatenates_S10000x8_S10000x8_S10000x16_d1 (ix2 i k) rfl rfl
      (ix2 i (⟨k.val - 8, by omega⟩ : Fin 8))
      (fun b hb => by match b, hb with | ⟨0, _⟩, _ => rfl | ⟨1, _⟩, hb => exact absurd rfl hb)
      (by show k.val - 8 + 8 = k.val; omega), xrR_eq]

/-- The second support: the concatenation times the second weight, a contraction over the 16 columns. -/
theorem s2_eq (i : Fin 10000) (c : Fin 16) :
    val_main_v37 (F := Ideal) a0 a1 a2 a3 a4 a6 a7 a8 a9 a10 a11 a12 (ix2 i c) = mm (xc (cur2 a0) (cur2 a1) (cur2 a2) (cur1 a3) (cur2 a6) (cur2 a7) (cur1 a8) (cur2 a9) (cur1 a10) (cur1 a11) (cur1 a12)) (cur2 a4) i c := by
  rw [val_main_v37_apply]
  have el : ∀ k : Fin 16, lidx_main_v37 (ix2 i c) k = ix2 i k := fun k => funext fun a => Fin.ext (by match a with | ⟨0, _⟩ => rfl | ⟨1, _⟩ => rfl)
  have er : ∀ k : Fin 16, ridx_main_v37 (ix2 i c) k = ix2 k c := fun k => funext fun a => Fin.ext (by match a with | ⟨0, _⟩ => rfl | ⟨1, _⟩ => rfl)
  simp only [el, er, xc_eq]
  rfl

/-- The second bias broadcast along the rows. -/
theorem b2_eq (i : Fin 10000) (c : Fin 16) : val_main_v40 (F := Ideal) a5 (ix2 i c) = cur1 a5 c := by
  rw [val_main_v40_apply, val_main_v39_apply]
  exact congrArg a5 (funext fun a => Fin.ext (by match a with | ⟨0, _⟩ => rfl))

/-- The reference's logits: adj times the second support, a contraction over the 10000 nodes, plus the bias. -/
theorem oR_eq (i : Fin 10000) (c : Fin 16) :
    val_main_v41 (F := Ideal) a0 a1 a2 a3 a4 a5 a6 a7 a8 a9 a10 a11 a12 (ix2 i c) = oR (cur2 a0) (cur2 a1) (cur2 a2) (cur1 a3) (cur2 a4) (cur1 a5) (cur2 a6) (cur2 a7) (cur1 a8) (cur2 a9) (cur1 a10) (cur1 a11) (cur1 a12) i c := by
  rw [val_main_v41_apply, val_main_v38_apply, b2_eq]
  have el : ∀ k : Fin 10000, lidx_main_v38 (ix2 i c) k = ix2 i k := fun k => funext fun a => Fin.ext (by match a with | ⟨0, _⟩ => rfl | ⟨1, _⟩ => rfl)
  have er : ∀ k : Fin 10000, ridx_main_v38 (ix2 i c) k = ix2 k c := fun k => funext fun a => Fin.ext (by match a with | ⟨0, _⟩ => rfl | ⟨1, _⟩ => rfl)
  simp only [el, er, s2_eq, Ideal.addf_def]
  rfl

/-- The word of −∞ is the least extended real. -/
theorem negInf_word : Ideal.ofBits .f32 0xFF800000#32 = (⊥ : EReal) := by simp [Ideal.ofBits, Ideal.ieee]

/-- Row i with the column k put back is the index (i, k). -/
theorem lift_row (h : S10000x16.Reduces [1] S10000) (i : Fin 10000) (k : Fin (S10000x16.size 1)) :
    h.lift (ix1 i) k = ix2 i (⟨k.val, k.isLt⟩ : Fin 16) := by
  funext c; apply Fin.ext
  match c with
  | ⟨0, _⟩ => rfl
  | ⟨1, _⟩ => rfl

/-- The row maximum: the reduce with a maximum body over the columns is the fold of the maximum from the initial
    word over the row's 16 columns; the outer maximum with the same word, the least element, changes nothing. -/
theorem rowmax_eq (i : Fin 10000) :
    val_main_call3_v2 (F := Ideal) a0 a1 a2 a3 a4 a5 a6 a7 a8 a9 a10 a11 a12 (ix1 i) = rowmax (oR (cur2 a0) (cur2 a1) (cur2 a2) (cur1 a3) (cur2 a4) (cur1 a5) (cur2 a6) (cur2 a7) (cur1 a8) (cur2 a9) (cur1 a10) (cur1 a11) (cur1 a12)) i := by
  have red : S10000x16.Reduces [1] S10000 := by decide
  rw [val_main_call3_v2_apply, val_main_call3_v1_apply, val_main_call3_cst_0_apply]
  unfold val_main_call3_v0
  rw [Host.reduce_eq_fold_single FloatOps.maximumf _ _ reducesTo_S10000x16_S10000_d1 red h_S_]
  have hf : (val_main_v41 (F := Ideal) a0 a1 a2 a3 a4 a5 a6 a7 a8 a9 a10 a11 a12 ∘ red.lift (ix1 i))
      = fun c : Fin 16 => oR (cur2 a0) (cur2 a1) (cur2 a2) (cur1 a3) (cur2 a4) (cur1 a5) (cur2 a6) (cur2 a7) (cur1 a8) (cur2 a9) (cur1 a10) (cur1 a11) (cur1 a12) i c :=
    funext fun k => (congrArg (val_main_v41 (F := Ideal) a0 a1 a2 a3 a4 a5 a6 a7 a8 a9 a10 a11 a12) (lift_row red i k)).trans (oR_eq a0 a1 a2 a3 a4 a5 a6 a7 a8 a9 a10 a11 a12 i _)
  rw [hf, val_main_call3_cst_apply]
  show max (Ideal.ofBits .f32 0xFF800000#32) (Finset.fold max (Ideal.ofBits .f32 0xFF800000#32) _ _) = Finset.fold max ⊥ _ _
  rw [negInf_word]
  exact max_bot_left _

/-- The log-softmax in its shifted form: the logits less the row maximum, less the logarithm of the row's sum of
    exponentials of the same differences; the float sum's initial word is the real zero. -/
theorem lsm_eq (i : Fin 10000) (c : Fin 16) :
    val_main_v42 (F := Ideal) a0 a1 a2 a3 a4 a5 a6 a7 a8 a9 a10 a11 a12 (ix2 i c) = lsm (oR (cur2 a0) (cur2 a1) (cur2 a2) (cur1 a3) (cur2 a4) (cur1 a5) (cur2 a6) (cur2 a7) (cur1 a8) (cur2 a9) (cur1 a10) (cur1 a11) (cur1 a12)) i c := by
  have e4 : ∀ k : Fin 16, idx_main_call3_v3 (idx_main_call3_v4 (ix2 i k)) = ix1 i :=
    fun k => funext fun a => Fin.ext (by match a with | ⟨0, _⟩ => rfl)
  have e8 : idx_main_call3_v8 (idx_main_call3_v10 (ix2 i c)) = ix1 i :=
    funext fun a => Fin.ext (by match a with | ⟨0, _⟩ => rfl)
  have e7 : ∀ k : Fin 16, idx_main_call3_v7 (ix1 i) k = ix2 i k := fun k => funext fun a => Fin.ext (by match a with | ⟨0, _⟩ => rfl | ⟨1, _⟩ => rfl)
  have v5 : ∀ k : Fin 16, val_main_call3_v5 (F := Ideal) a0 a1 a2 a3 a4 a5 a6 a7 a8 a9 a10 a11 a12 (ix2 i k)
      = oR (cur2 a0) (cur2 a1) (cur2 a2) (cur1 a3) (cur2 a4) (cur1 a5) (cur2 a6) (cur2 a7) (cur1 a8) (cur2 a9) (cur1 a10) (cur1 a11) (cur1 a12) i k - rowmax (oR (cur2 a0) (cur2 a1) (cur2 a2) (cur1 a3) (cur2 a4) (cur1 a5) (cur2 a6) (cur2 a7) (cur1 a8) (cur2 a9) (cur1 a10) (cur1 a11) (cur1 a12)) i := by
    intro k
    rw [val_main_call3_v5_apply, val_main_call3_v4_apply, val_main_call3_v3_apply, e4 k, oR_eq, rowmax_eq]
    rfl
  rw [val_main_v42_apply, val_main_call3_v10_apply, val_main_call3_v9_apply, val_main_call3_v8_apply, e8,
    val_main_call3_v7_apply, val_main_call3_cst_1_apply, v5 c]
  simp only [e7, val_main_call3_v6_apply, v5, Ideal.subf_def, Ideal.hostUnary_exp_def, Ideal.hostUnary_log_def,
    Ideal.ofBits_def, Ideal.ofBits_zero_f32, zero_add]
  rfl

/-- The reference is the specification: its result, as a function of the argument arrays, is the array whose entry
    (i, c) is the log-softmax of the reference's logits at (i, c), all arguments read at plain coordinates. -/
theorem ref_eq :
    val_main_v42 (F := Ideal) a0 a1 a2 a3 a4 a5 a6 a7 a8 a9 a10 a11 a12 = unc2 (lsm (oR (cur2 a0) (cur2 a1) (cur2 a2) (cur1 a3) (cur2 a4) (cur1 a5) (cur2 a6) (cur2 a7) (cur1 a8) (cur2 a9) (cur1 a10) (cur1 a11) (cur1 a12))) :=
  eq_of_cur2 _ _ (funext fun i => funext fun c => lsm_eq a0 a1 a2 a3 a4 a5 a6 a7 a8 a9 a10 a11 a12 i c)

end Cert.RefG

end
-- ==== Proof.Alg.Finite.lean ====
/-
  Finiteness on the extended reals.

  An extended real is FINITE (`IsR`) when it is the image of a real number.  The finite values are closed under
  addition, multiplication, subtraction, the maximum with zero and finite sums; on them the extended reals'
  arithmetic is the field arithmetic of the reals.  The two literals of the programs are finite: one half, and the
  square root of the dyadic 1 + 84 / 2^23 (the binary value of 1.00001), which is moreover positive, so that
  dividing by it is multiplying by the reciprocal real.
-/
import proofs.«115251_g55224689492446_cont_9to1_m_1185_2_alg».proof.Proof.Spec
import Mathlib.Algebra.BigOperators.Fin
import Mathlib.Analysis.SpecialFunctions.Pow.Real
import Mathlib.Tactic

noncomputable section

namespace Cert.Alg

open Idealize.ShloMosaic

/-- An extended real is finite: it is (the image of) a real number. -/
def IsR (z : EReal) : Prop := ∃ r : ℝ, z = (r : EReal)

theorem IsR.coe (r : ℝ) : IsR (r : EReal) := ⟨r, rfl⟩

theorem IsR.zero : IsR (0 : EReal) := ⟨0, EReal.coe_zero.symm⟩

theorem IsR.add {a b : EReal} (ha : IsR a) (hb : IsR b) : IsR (a + b) := by
  obtain ⟨x, rfl⟩ := ha; obtain ⟨y, rfl⟩ := hb; exact ⟨x + y, (EReal.coe_add x y).symm⟩

theorem IsR.mul {a b : EReal} (ha : IsR a) (hb : IsR b) : IsR (a * b) := by
  obtain ⟨x, rfl⟩ := ha; obtain ⟨y, rfl⟩ := hb; exact ⟨x * y, (EReal.coe_mul x y).symm⟩

theorem IsR.sub {a b : EReal} (ha : IsR a) (hb : IsR b) : IsR (a - b) := by
  obtain ⟨x, rfl⟩ := ha; obtain ⟨y, rfl⟩ := hb; exact ⟨x - y, (EReal.coe_sub x y).symm⟩

theorem IsR.neg {a : EReal} (ha : IsR a) : IsR (-a) := by
  obtain ⟨x, rfl⟩ := ha; exact ⟨-x, (EReal.coe_neg x).symm⟩

/-- The maximum with zero (the rectifier) of a finite value is finite. -/
theorem IsR.max0 {a : EReal} (ha : IsR a) : IsR (max a 0) := by
  obtain ⟨x, rfl⟩ := ha
  refine ⟨max x 0, ?_⟩
  have h := EReal.coe_strictMono.monotone.map_max (a := x) (b := 0)
  rw [EReal.coe_zero] at h
  exact h.symm

/-- The embedding of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum {n : Nat} (f : Fin n → ℝ) : ((∑ i, f i : ℝ) : EReal) = ∑ i, (f i : EReal) :=
  coe_finset_sum Finset.univ f

/-- A finite sum of finite values is finite. -/
theorem IsR.sum {n : Nat} {f : Fin n → EReal} (h : ∀ i, IsR (f i)) : IsR (∑ i, f i) := by
  choose g hg using h
  refine ⟨∑ i, g i, ?_⟩
  rw [coe_sum]
  exact Finset.sum_congr rfl (fun i _ => hg i)

/-- The literal one half is the real 1/2. -/
theorem half_eq : Cert.Spec.half = ((1 / 2 : ℝ) : EReal) := by
  unfold Cert.Spec.half
  simp [Ideal.ofBits, Ideal.ieee, -EReal.coe_mul]; norm_num

theorem IsR.half : IsR Cert.Spec.half := ⟨1 / 2, half_eq⟩

/-- The word 0x3F800054 denotes the dyadic 1 + 84 / 2^23. -/
theorem lit_eq : Ideal.ofBits .f32 0x3F800054#32 = ((8388692 / 8388608 : ℝ) : EReal) := by
  simp [Ideal.ofBits, Ideal.ieee, -EReal.coe_mul]; norm_num

/-- The divisor of the batch norm is a positive real. -/
theorem sq_pos : ∃ s : ℝ, 0 < s ∧ Cert.Spec.sq = (s : EReal) := by
  refine ⟨Real.sqrt (8388692 / 8388608), Real.sqrt_pos.mpr (by norm_num), ?_⟩
  unfold Cert.Spec.sq
  rw [lit_eq, Ideal.sqrt_coe, if_neg (by norm_num)]

theorem IsR.sq : IsR Cert.Spec.sq := by
  obtain ⟨s, _, hs⟩ := sq_pos; exact ⟨s, hs⟩

/-- Division of a real by a nonzero real is the real quotient. -/
theorem div_coe_coe (a : ℝ) {s : ℝ} (hs : s ≠ 0) :
    Ideal.div (a : EReal) (s : EReal) = ((a / s : ℝ) : EReal) := by
  rw [Ideal.div_coe hs, ← EReal.coe_mul, mul_one_div]

/-- A finite value divided by the batch norm's divisor is finite. -/
theorem IsR.div_sq {a : EReal} (ha : IsR a) : IsR (Ideal.div a Cert.Spec.sq) := by
  obtain ⟨x, rfl⟩ := ha
  obtain ⟨s, hs, hsq⟩ := sq_pos
  rw [hsq, div_coe_coe x hs.ne']
  exact ⟨_, rfl⟩

/-- On finite values multiplication distributes over addition. -/
theorem mul_add_of_isR {a b c : EReal} (ha : IsR a) (hb : IsR b) (hc : IsR c) :
    a * (b + c) = a * b + a * c := by
  obtain ⟨x, rfl⟩ := ha; obtain ⟨y, rfl⟩ := hb; obtain ⟨z, rfl⟩ := hc
  rw [← EReal.coe_add, ← EReal.coe_mul, ← EReal.coe_mul, ← EReal.coe_mul, ← EReal.coe_add, mul_add]

/-- The two scalings of the batch norm agree on finite values: `r · (γ / s) + β = (r / s) · γ + β`. -/
theorem bn_eq {r g b : EReal} (hr : IsR r) (hg : IsR g) :
    r * Ideal.div g Cert.Spec.sq + b = Ideal.div r Cert.Spec.sq * g + b := by
  obtain ⟨x, rfl⟩ := hr; obtain ⟨y, rfl⟩ := hg
  obtain ⟨s, hs, hsq⟩ := sq_pos
  rw [hsq, div_coe_coe y hs.ne', div_coe_coe x hs.ne', ← EReal.coe_mul, ← EReal.coe_mul]
  congr 2
  field_simp

end Cert.Alg

end
-- ==== Proof.Alg.lean ====
/-
  The two programs' logits agree on finite inputs.

  Every intermediate array of the two programs (the supports, the left branch, the interaction term, the dense
  layers and the rectified right branch) is built from the inputs by sums, products, differences and maxima with
  zero, hence is finite when the inputs are.  On finite values the two scalings of the batch norm agree, and
  multiplication distributes over addition, so that for every node `i` and column `c`

    ∑ j, adj i j · ∑ k<16, [xl | xr] j k · w2 k c
      = ∑ j, adj i j · (∑ k<8, xl j k · w2 k c) + ∑ j, adj i j · (∑ k<8, xr j k · w2 (k+8) c),

  which is the reference's second convolution against the kernel's.
-/
import proofs.«115251_g55224689492446_cont_9to1_m_1185_2_alg».proof.Proof.Alg.Finite

noncomputable section

namespace Cert.Alg

open Idealize.ShloMosaic
open Cert.Spec

/-- A product of finite matrices is finite. -/
theorem isR_mm {a k b : Nat} {x : Fin a → Fin k → EReal} {w : Fin k → Fin b → EReal}
    (hx : ∀ i t, IsR (x i t)) (hw : ∀ t j, IsR (w t j)) (i : Fin a) (j : Fin b) : IsR (mm x w i j) :=
  IsR.sum (fun t => (hx i t).mul (hw t j))

/-- A product with a transposed finite matrix is finite. -/
theorem isR_mmT {a k b : Nat} {x : Fin a → Fin k → EReal} {w : Fin b → Fin k → EReal}
    (hx : ∀ i t, IsR (x i t)) (hw : ∀ j t, IsR (w j t)) (i : Fin a) (j : Fin b) : IsR (mmT x w i j) :=
  IsR.sum (fun t => (hx i t).mul (hw j t))

/-- A finite row applied to the sum of two finite columns is the sum of its applications. -/
theorem sum_mul_add {n : Nat} {a L R : Fin n → EReal} (ha : ∀ j, IsR (a j)) (hL : ∀ j, IsR (L j))
    (hR : ∀ j, IsR (R j)) : ∑ j, a j * (L j + R j) = ∑ j, a j * L j + ∑ j, a j * R j := by
  rw [← Finset.sum_add_distrib]
  exact Finset.sum_congr rfl (fun j _ => mul_add_of_isR (ha j) (hL j) (hR j))

/-- A sum over 16 columns is the sum over the first 8 plus the sum over the last 8. -/
theorem sum16_split (f : Fin 16 → EReal) :
    ∑ k : Fin 16, f k
      = ∑ k : Fin 8, f (Fin.castLE (by decide) k) + ∑ k : Fin 8, f ⟨k.val + 8, by omega⟩ := by
  refine (Fin.sum_univ_add (a := 8) (b := 8) f).trans ?_
  refine congrArg₂ (· + ·) rfl ?_
  refine Finset.sum_congr rfl (fun k _ => congrArg f (Fin.ext ?_))
  show 8 + k.val = k.val + 8
  omega

section
variable (x : Fin 10000 → Fin 128 → EReal) (adj : Fin 10000 → Fin 10000 → EReal)
  (w1 : Fin 128 → Fin 8 → EReal) (b1 : Fin 8 → EReal) (w2 : Fin 16 → Fin 16 → EReal) (b2 : Fin 16 → EReal)
  (bw : Fin 128 → Fin 32 → EReal) (f1 : Fin 16 → Fin 32 → EReal) (c1 : Fin 16 → EReal)
  (f2 : Fin 8 → Fin 16 → EReal) (c2 : Fin 8 → EReal) (γ β : Fin 8 → EReal)

/-- The left branch is finite. -/
theorem isR_xl (hx : ∀ i k, IsR (x i k)) (hadj : ∀ i j, IsR (adj i j)) (hw1 : ∀ k h, IsR (w1 k h))
    (hb1 : ∀ h, IsR (b1 h)) (i : Fin 10000) (h : Fin 8) : IsR (xl x adj w1 b1 i h) :=
  ((isR_mm hadj (fun j h' => isR_mm hx hw1 j h') i h).add (hb1 h)).max0

/-- The interaction term is finite. -/
theorem isR_bi (hx : ∀ i k, IsR (x i k)) (hbw : ∀ k j, IsR (bw k j)) (i : Fin 10000) (j : Fin 32) :
    IsR (bi x bw i j) :=
  IsR.half.mul (((isR_mm hx hbw i j).mul (isR_mm hx hbw i j)).sub
    (isR_mm (fun i k => (hx i k).mul (hx i k)) (fun k j => (hbw k j).mul (hbw k j)) i j))

/-- The rectified right branch, before the batch norm, is finite. -/
theorem isR_r (hx : ∀ i k, IsR (x i k)) (hbw : ∀ k j, IsR (bw k j)) (hf1 : ∀ a j, IsR (f1 a j))
    (hc1 : ∀ a, IsR (c1 a)) (hf2 : ∀ b a, IsR (f2 b a)) (hc2 : ∀ b, IsR (c2 b)) (i : Fin 10000) (b : Fin 8) :
    IsR (r x bw f1 c1 f2 c2 i b) := by
  have hh1 : ∀ i a, IsR (h1 x bw f1 c1 i a) :=
    fun i a => ((isR_mmT (isR_bi x bw hx hbw) hf1 i a).add (hc1 a)).max0
  exact ((isR_mmT hh1 hf2 i b).add (hc2 b)).max0

/-- The two scalings of the batch norm give the same right branch. -/
theorem xrK_eq_xrR (hx : ∀ i k, IsR (x i k)) (hbw : ∀ k j, IsR (bw k j)) (hf1 : ∀ a j, IsR (f1 a j))
    (hc1 : ∀ a, IsR (c1 a)) (hf2 : ∀ b a, IsR (f2 b a)) (hc2 : ∀ b, IsR (c2 b)) (hγ : ∀ b, IsR (γ b)) :
    xrK x bw f1 c1 f2 c2 γ β = xrR x bw f1 c1 f2 c2 γ β :=
  funext fun i => funext fun b => bn_eq (isR_r x bw f1 c1 f2 c2 hx hbw hf1 hc1 hf2 hc2 i b) (hγ b)

/-- The right branch is finite. -/
theorem isR_xrR (hx : ∀ i k, IsR (x i k)) (hbw : ∀ k j, IsR (bw k j)) (hf1 : ∀ a j, IsR (f1 a j))
    (hc1 : ∀ a, IsR (c1 a)) (hf2 : ∀ b a, IsR (f2 b a)) (hc2 : ∀ b, IsR (c2 b)) (hγ : ∀ b, IsR (γ b))
    (hβ : ∀ b, IsR (β b)) (i : Fin 10000) (b : Fin 8) : IsR (xrR x bw f1 c1 f2 c2 γ β i b) :=
  (((isR_r x bw f1 c1 f2 c2 hx hbw hf1 hc1 hf2 hc2 i b).div_sq).mul (hγ b)).add (hβ b)

/-- A row of the concatenation [xl | xr] against a column of `w2`: the left part against the upper half of
    `w2` plus the right part against the lower half. -/
theorem xc_split (j : Fin 10000) (c : Fin 16) :
    mm (xc x adj w1 b1 bw f1 c1 f2 c2 γ β) w2 j c
      = mm (xl x adj w1 b1) (w2a w2) j c + mm (xrR x bw f1 c1 f2 c2 γ β) (w2b w2) j c := by
  refine (sum16_split _).trans ?_
  refine congrArg₂ (· + ·) ?_ ?_
  · refine Finset.sum_congr rfl (fun k _ => ?_)
    have hk : (Fin.castLE (by decide : 8 ≤ 16) k).val < 8 := k.isLt
    rw [xc, dif_pos hk]
    rfl
  · refine Finset.sum_congr rfl (fun k _ => ?_)
    have hk : ¬ (⟨k.val + 8, by omega⟩ : Fin 16).val < 8 := by
      show ¬ k.val + 8 < 8
      omega
    rw [xc, dif_neg hk]
    rfl

/-- THE LOGITS AGREE: on finite inputs the kernel's `adj (xl w2a) + adj (xr w2b) + b2` is the reference's
    `adj ([xl | xr] w2) + b2`. -/
theorem oK_eq_oR (hx : ∀ i k, IsR (x i k)) (hadj : ∀ i j, IsR (adj i j)) (hw1 : ∀ k h, IsR (w1 k h))
    (hb1 : ∀ h, IsR (b1 h)) (hw2 : ∀ k c, IsR (w2 k c)) (hbw : ∀ k j, IsR (bw k j))
    (hf1 : ∀ a j, IsR (f1 a j)) (hc1 : ∀ a, IsR (c1 a)) (hf2 : ∀ b a, IsR (f2 b a)) (hc2 : ∀ b, IsR (c2 b))
    (hγ : ∀ b, IsR (γ b)) (hβ : ∀ b, IsR (β b)) :
    oK x adj w1 b1 w2 b2 bw f1 c1 f2 c2 γ β = oR x adj w1 b1 w2 b2 bw f1 c1 f2 c2 γ β := by
  funext i c
  have hL : ∀ j, IsR (mm (xl x adj w1 b1) (w2a w2) j c) :=
    fun j => isR_mm (isR_xl x adj w1 b1 hx hadj hw1 hb1) (fun k c => hw2 _ c) j c
  have hR : ∀ j, IsR (mm (xrR x bw f1 c1 f2 c2 γ β) (w2b w2) j c) :=
    fun j => isR_mm (isR_xrR x bw f1 c1 f2 c2 γ β hx hbw hf1 hc1 hf2 hc2 hγ hβ) (fun k c => hw2 _ c) j c
  have h1 : mm adj (mm (xc x adj w1 b1 bw f1 c1 f2 c2 γ β) w2) i c
      = ∑ j, adj i j * (mm (xl x adj w1 b1) (w2a w2) j c + mm (xrR x bw f1 c1 f2 c2 γ β) (w2b w2) j c) :=
    Finset.sum_congr rfl (fun j _ => by rw [xc_split])
  show mm adj (mm (xl x adj w1 b1) (w2a w2)) i c + mm adj (mm (xrK x bw f1 c1 f2 c2 γ β) (w2b w2)) i c + b2 c
      = mm adj (mm (xc x adj w1 b1 bw f1 c1 f2 c2 γ β) w2) i c + b2 c
  rw [xrK_eq_xrR x bw f1 c1 f2 c2 γ β hx hbw hf1 hc1 hf2 hc2 hγ, h1,
    sum_mul_add (fun j => hadj i j) hL hR]
  rfl

/-- Hence the two log-softmaxes agree. -/
theorem lsm_oK_eq_lsm_oR (hx : ∀ i k, IsR (x i k)) (hadj : ∀ i j, IsR (adj i j)) (hw1 : ∀ k h, IsR (w1 k h))
    (hb1 : ∀ h, IsR (b1 h)) (hw2 : ∀ k c, IsR (w2 k c)) (hbw : ∀ k j, IsR (bw k j))
    (hf1 : ∀ a j, IsR (f1 a j)) (hc1 : ∀ a, IsR (c1 a)) (hf2 : ∀ b a, IsR (f2 b a)) (hc2 : ∀ b, IsR (c2 b))
    (hγ : ∀ b, IsR (γ b)) (hβ : ∀ b, IsR (β b)) :
    lsm (oK x adj w1 b1 w2 b2 bw f1 c1 f2 c2 γ β) = lsm (oR x adj w1 b1 w2 b2 bw f1 c1 f2 c2 γ β) :=
  congrArg lsm (oK_eq_oR x adj w1 b1 w2 b2 bw f1 c1 f2 c2 γ β hx hadj hw1 hb1 hw2 hbw hf1 hc1 hf2 hc2 hγ hβ)

end

end Cert.Alg

end
-- ==== Proof.Alg.Pre.lean ====
/-
  Finiteness of the inputs, read off the printed precondition.

  The precondition is the conjunction, over the thirteen argument arrays, of "every entry's absolute value is below
  +∞": per array a reduction by `and` of the entrywise comparison `max x (-x) < +∞` (the word 0x7F800000 denotes
  +∞), and the thirteen results joined by `and`.  The conjunction being 1, every reduction is 1; a reduction by
  `and` over all axes being 1, every compared entry is 1; and an extended real whose absolute value is below +∞ is
  neither infinity, hence a real number.
-/
import proofs.«115251_g55224689492446_cont_9to1_m_1185_2_alg».proof.Pre_finite_inputs
import proofs.«115251_g55224689492446_cont_9to1_m_1185_2_alg».proof.Proof.Alg.Finite
import Idealize.ShloMosaic.Lib.ReduceAll
import Idealize.ShloMosaic.Lib.ValueIdx
import Idealize.ShloMosaic.PureOps.Ideal.Laws

noncomputable section

namespace Cert.Alg

open Idealize.ShloMosaic
open Cert.Pre_finite_inputs

/-- The rank-0 shape has a single index. -/
instance : Subsingleton S_.Idx := ⟨fun a b => funext fun d => d.elim0⟩

/-- A value whose absolute value `max x (-x)` is below `+∞` is a real number. -/
theorem isR_of_abs_lt_top (x : EReal)
    (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- An array whose "all absolute values are below `+∞`" reduction is 1 has real entries. -/
theorem isR_of_all {s : Shape} {axes : List (Fin s.rank)}
    (hb : S_.BroadcastsInDim s (![] : Fin 0 → Fin s.rank)) (hr : s.ReducesTo axes S_) (hu : 0 < S_.numel)
    (a : FVec Ideal s .f32) (init : IVec S_ 1) (j : S_.Idx)
    (h : Host.reduce IntOp.andi
          (cmpf .olt (Host.absf a) (broadcastInDim s ![] hb (constant S_ .f32 0x7F800000#32))) init hr hu j = 1#1) :
    ∀ i, IsR (a i) := fun i =>
  isR_of_abs_lt_top (a i) (Host.reduce_andi_all _ init hr hu j h i)

/-- The precondition holds only of arrays all of whose entries are real numbers. -/
theorem finite_of_pre [hPre_finite_inputs : Cert.Pre_finite_inputs.Facts]
    (a0 : FVec Ideal S10000x128 .f32) (a1 : FVec Ideal S10000x10000 .f32) (a2 : FVec Ideal S128x8 .f32)
    (a3 : FVec Ideal S8 .f32) (a4 : FVec Ideal S16x16 .f32) (a5 : FVec Ideal S16 .f32)
    (a6 : FVec Ideal S128x32 .f32) (a7 : FVec Ideal S16x32 .f32) (a8 : FVec Ideal S16 .f32)
    (a9 : FVec Ideal S8x16 .f32) (a10 : FVec Ideal S8 .f32) (a11 : FVec Ideal S8 .f32) (a12 : FVec Ideal S8 .f32)
    (h : Cert.Pre_finite_inputs.fn (F := Ideal) a0 a1 a2 a3 a4 a5 a6 a7 a8 a9 a10 a11 a12 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) ∧ (∀ i, IsR (a7 i)) ∧ (∀ i, IsR (a8 i)) ∧ (∀ i, IsR (a9 i)) ∧ (∀ i, IsR (a10 i)) ∧ (∀ i, IsR (a11 i)) ∧ (∀ i, IsR (a12 i)) := by
  have h0 := congrFun h ValueIdx.ix0
  dsimp only [fn, fn_part1, fn_part2, fn_part3] at h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isR_of_all _ _ _ a0 _ _ h0,
    isR_of_all _ _ _ a1 _ _ h1,
    isR_of_all _ _ _ a2 _ _ h2,
    isR_of_all _ _ _ a3 _ _ h3,
    isR_of_all _ _ _ a4 _ _ h4,
    isR_of_all _ _ _ a5 _ _ h5,
    isR_of_all _ _ _ a6 _ _ h6,
    isR_of_all _ _ _ a7 _ _ h7,
    isR_of_all _ _ _ a8 _ _ h8,
    isR_of_all _ _ _ a9 _ _ h9,
    isR_of_all _ _ _ a10 _ _ h10,
    isR_of_all _ _ _ a11 _ _ h11,
    isR_of_all _ _ _ a12 _ _ h12⟩

end Cert.Alg

end
-- ==== Proof.Final.lean ====
/-
  The assembly: the reference's frame, and the equality of the two programs' results at the ideal instance given the
  kernel's run.

  The reference's run ends with its result array at the log-softmax of the reference's logits of the argument arrays
  and with the arguments unchanged.  The kernel's result array is stated as the log-softmax of the kernel's logits of
  its argument arrays.  Under the precondition every entry of every argument is a real number, and on real inputs the
  two logits agree; so from memories that agree on the arguments the two results are one array.
-/
import proofs.«115251_g55224689492446_cont_9to1_m_1185_2_alg».proof.Defs
import proofs.«115251_g55224689492446_cont_9to1_m_1185_2_alg».proof.Proof.Gen.KernelIdeal
import proofs.«115251_g55224689492446_cont_9to1_m_1185_2_alg».proof.Proof.Gen.ReferenceIdeal
import proofs.«115251_g55224689492446_cont_9to1_m_1185_2_alg».proof.Proof.Gen.Pre_finite_inputs
import proofs.«115251_g55224689492446_cont_9to1_m_1185_2_alg».proof.Proof.Ref.RunP
import proofs.«115251_g55224689492446_cont_9to1_m_1185_2_alg».proof.Proof.Ref.ReadP
import proofs.«115251_g55224689492446_cont_9to1_m_1185_2_alg».proof.Proof.RefG
import proofs.«115251_g55224689492446_cont_9to1_m_1185_2_alg».proof.Proof.Alg
import proofs.«115251_g55224689492446_cont_9to1_m_1185_2_alg».proof.Proof.Alg.Pre
import proofs.«115251_g55224689492446_cont_9to1_m_1185_2_alg».proof.Proof.Spec
import proofs.«115251_g55224689492446_cont_9to1_m_1185_2_alg».proof.Proof.Curry

noncomputable section

namespace Cert.Final

open Idealize.ShloMosaic Idealize.ShloMosaic.ValueIdx Idealize.SL.Sem
open Cert.Spec Cert.Alg Cert.RefG

/-- The kernel's result array as the specification's function of the launch memory's arguments: the log-softmax of
    the kernel's logits, each argument array read at plain coordinates. -/
def Kout (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v0) :=
  Cert.Spec.unc2 (Cert.Spec.lsm (Cert.Spec.oK
      (cur2 (m ((c.tc : Thread Cert.KernelIdeal.nD Cert.KernelIdeal.τ).loc Cert.KernelIdeal.main_arg0) : Arr2 10000 128))
      (cur2 (m ((c.tc : Thread Cert.KernelIdeal.nD Cert.KernelIdeal.τ).loc Cert.KernelIdeal.main_arg1) : Arr2 10000 10000))
      (cur2 (m ((c.tc : Thread Cert.KernelIdeal.nD Cert.KernelIdeal.τ).loc Cert.KernelIdeal.main_arg2) : Arr2 128 8))
      (cur1 (m ((c.tc : Thread Cert.KernelIdeal.nD Cert.KernelIdeal.τ).loc Cert.KernelIdeal.main_arg3) : Arr1 8))
      (cur2 (m ((c.tc : Thread Cert.KernelIdeal.nD Cert.KernelIdeal.τ).loc Cert.KernelIdeal.main_arg4) : Arr2 16 16))
      (cur1 (m ((c.tc : Thread Cert.KernelIdeal.nD Cert.KernelIdeal.τ).loc Cert.KernelIdeal.main_arg5) : Arr1 16))
      (cur2 (m ((c.tc : Thread Cert.KernelIdeal.nD Cert.KernelIdeal.τ).loc Cert.KernelIdeal.main_arg6) : Arr2 128 32))
      (cur2 (m ((c.tc : Thread Cert.KernelIdeal.nD Cert.KernelIdeal.τ).loc Cert.KernelIdeal.main_arg7) : Arr2 16 32))
      (cur1 (m ((c.tc : Thread Cert.KernelIdeal.nD Cert.KernelIdeal.τ).loc Cert.KernelIdeal.main_arg8) : Arr1 16))
      (cur2 (m ((c.tc : Thread Cert.KernelIdeal.nD Cert.KernelIdeal.τ).loc Cert.KernelIdeal.main_arg9) : Arr2 8 16))
      (cur1 (m ((c.tc : Thread Cert.KernelIdeal.nD Cert.KernelIdeal.τ).loc Cert.KernelIdeal.main_arg10) : Arr1 8))
      (cur1 (m ((c.tc : Thread Cert.KernelIdeal.nD Cert.KernelIdeal.τ).loc Cert.KernelIdeal.main_arg11) : Arr1 8))
      (cur1 (m ((c.tc : Thread Cert.KernelIdeal.nD Cert.KernelIdeal.τ).loc Cert.KernelIdeal.main_arg12) : Arr1 8))))

/-- The kernel's run, as the algebraic claim states it, with the result at `Kout`. -/
def KRun : Prop :=
  ∀ (m : (ℓ : Loc Cert.KernelIdeal.nD Cert.KernelIdeal.τ Cert.KernelIdeal.sig) → Buf (Elt Ideal) ℓ)
    (ρ : Dev Cert.KernelIdeal.nD → PrngReg),
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread Cert.KernelIdeal.nD Cert.KernelIdeal.τ).loc Cert.KernelIdeal.main_v0) = Kout m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

/-- The reference runs and leaves its arguments unchanged. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.ValueP.run (F := Ideal) m ρ)

/-- On arrays of which the precondition holds, the reference's result of equal arrays is the log-softmax of the
    KERNEL's logits: the reference's result is the log-softmax of the reference's logits, every entry is a real
    number, and on real entries the two logits agree. -/
theorem ref_is_K (a0 : Arr2 10000 128) (a1 : Arr2 10000 10000) (a2 : Arr2 128 8) (a3 : Arr1 8) (a4 : Arr2 16 16) (a5 : Arr1 16) (a6 : Arr2 128 32) (a7 : Arr2 16 32) (a8 : Arr1 16) (a9 : Arr2 8 16) (a10 : Arr1 8) (a11 : Arr1 8) (a12 : Arr1 8)
    (b0 : Arr2 10000 128) (b1 : Arr2 10000 10000) (b2 : Arr2 128 8) (b3 : Arr1 8) (b4 : Arr2 16 16) (b5 : Arr1 16) (b6 : Arr2 128 32) (b7 : Arr2 16 32) (b8 : Arr1 16) (b9 : Arr2 8 16) (b10 : Arr1 8) (b11 : Arr1 8) (b12 : Arr1 8)
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12)
    (hpre : Cert.Pre_finite_inputs.fn (F := Ideal) a0 a1 a2 a3 a4 a5 a6 a7 a8 a9 a10 a11 a12 = fun _ => 1#1) :
    Cert.ReferenceIdeal.ReadP.val_main_v42 (F := Ideal) b0 b1 b2 b3 b4 b5 b6 b7 b8 b9 b10 b11 b12
      = unc2 (lsm (oK (cur2 a0) (cur2 a1) (cur2 a2) (cur1 a3) (cur2 a4) (cur1 a5) (cur2 a6) (cur2 a7) (cur1 a8) (cur2 a9) (cur1 a10) (cur1 a11) (cur1 a12))) := by
  subst e0 e1 e2 e3 e4 e5 e6 e7 e8 e9 e10 e11 e12
  obtain ⟨f0, f1, f2, f3, f4, f5, f6, f7, f8, f9, f10, f11, f12⟩ := finite_of_pre b0 b1 b2 b3 b4 b5 b6 b7 b8 b9 b10 b11 b12 hpre
  rw [Cert.RefG.ref_eq]
  exact congrArg unc2 (lsm_oK_eq_lsm_oR _ _ _ _ _ _ _ _ _ _ _ _ _ (fun i k => f0 (ix2 i k)) (fun i k => f1 (ix2 i k)) (fun i k => f2 (ix2 i k)) (fun i => f3 (ix1 i)) (fun i k => f4 (ix2 i k)) (fun i k => f6 (ix2 i k)) (fun i k => f7 (ix2 i k)) (fun i => f8 (ix1 i)) (fun i k => f9 (ix2 i k)) (fun i => f10 (ix1 i)) (fun i => f11 (ix1 i)) (fun i => f12 (ix1 i))).symm

/-- Given the kernel's run, the two programs end with equal results and unchanged arguments. -/
theorem algebraic_of (hK : KRun) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨Kout m, hK m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12⟩ := hagree c
  exact (Cert.ReferenceIdeal.ReadP.val_main_v42_eq m' c).trans
    (ref_is_K _ _ _ _ _ _ _ _ _ _ _ _ _ _ _ _ _ _ _ _ _ _ _ _ _ _ e0 e1 e2 e3 e4 e5 e6 e7 e8 e9 e10 e11 e12 (hpre c))

end Cert.Final

end
-- ==== Proof.KI.KRun.lean ====
/-
  The kernel's run with its result named by the specification: the third region's value at its six input arrays,
  each identified with a function of the launch memory along the chain of regions, is the log-softmax of the
  specification's kernel logits.
-/
import proofs.«115251_g55224689492446_cont_9to1_m_1185_2_alg».proof.Proof.KI.Run
import proofs.«115251_g55224689492446_cont_9to1_m_1185_2_alg».proof.Proof.KI.Val2
import proofs.«115251_g55224689492446_cont_9to1_m_1185_2_alg».proof.Proof.KI.Chain
import proofs.«115251_g55224689492446_cont_9to1_m_1185_2_alg».proof.Proof.Final
import proofs.«115251_g55224689492446_cont_9to1_m_1185_2_alg».proof.Proof.Spec
import proofs.«115251_g55224689492446_cont_9to1_m_1185_2_alg».proof.Proof.Curry

noncomputable section

namespace Cert.KernelIdeal.Hand

open Cert.KernelIdeal Cert.KernelIdeal.Gen
open Idealize.ShloMosaic Idealize.ShloMosaic.TcCoe Idealize.ShloMosaic.ValueIdx Idealize.SL.Sem
open Cert.Spec Cert.RefG

/-- The kernel's logits from the six arrays the third region reads: if those are the adjacency, the first graph
    convolution before its bias, the product of adj with the right branch's support, the two biases and the upper half
    of the second weight, then `adj · (relu (P1 + b1) · A2) + PT + b2` is the specification's kernel logits. -/
theorem logits_of_chain
    (x : Fin 10000 → Fin 128 → EReal) (adj : Fin 10000 → Fin 10000 → EReal) (w1 : Fin 128 → Fin 8 → EReal) (b1 : Fin 8 → EReal)
    (w2 : Fin 16 → Fin 16 → EReal) (b2 : Fin 16 → EReal) (bw : Fin 128 → Fin 32 → EReal) (f1 : Fin 16 → Fin 32 → EReal)
    (c1 : Fin 16 → EReal) (f2 : Fin 8 → Fin 16 → EReal) (c2 : Fin 8 → EReal) (γ β : Fin 8 → EReal)
    (ADJ : Fin 10000 → Fin 10000 → EReal) (P1 : Fin 10000 → Fin 8 → EReal) (PT : Fin 10000 → Fin 16 → EReal)
    (B1 : Fin 8 → EReal) (B2 : Fin 16 → EReal) (A2 : Fin 8 → Fin 16 → EReal)
    (h0 : ADJ = adj) (h1 : P1 = Cert.Spec.p1 x adj w1) (h2 : PT = Cert.Spec.ptK x adj w2 bw f1 c1 f2 c2 γ β)
    (h3 : B1 = b1) (h4 : B2 = b2) (h5 : A2 = Cert.Spec.w2a w2) :
    (fun i c' => mm ADJ (mm (fun j h => max (P1 j h + B1 h) 0) A2) i c' + PT i c' + B2 c')
      = Cert.Spec.oK x adj w1 b1 w2 b2 bw f1 c1 f2 c2 γ β := by
  subst h0 h1 h2 h3 h4 h5
  rfl

variable (m : (ℓ : Loc nD τ sig) → Buf (Elt Ideal) ℓ)

/-- What the third region's write-backs leave of the result array is the log-softmax of the kernel's logits of the
    launch memory's arguments: the region's value at its six input arrays, each identified along the chain of regions. -/
theorem kout_eq (c : Dev nD) : (dat2 (F := Ideal) (V3 m) c).arrAt 6 cfg2.N = Cert.Final.Kout m c := by
  have key := logits_of_chain _ _ _ _ _ _ _ _ _ _ _ _ _ _ _ _ _ _ _
    (chain_adj m c) (chain_p1 m c) (chain_pt m c) (chain_b1 m c) (chain_b2 m c) (chain_a2 m c)
  exact (val2_6 (V3 m) c).trans (congrArg (fun o => unc2 (lsm o)) key)

/-- The kernel's run ends with the result array at the specification's function of the arguments, the arguments unchanged. -/
theorem krun : Cert.Final.KRun := fun m ρ =>
  (θ_run Cert.KernelIdeal.defs _ _).mono (fun r h c => ⟨(h c).1.trans (kout_eq m c), (h c).2⟩) (run_named (F := Ideal) m ρ)

end Cert.KernelIdeal.Hand

end
-- ==== Proof.lean ====
/-
  The five claims of this certificate.

  The kernel is a two-layer graph-convolution network's forward pass over 10000 nodes, written as three pipelined
  regions: a preparation pass over row blocks of the node features (the first layer's support `x w1` and, from the
  pairwise-interaction branch, the right half of the second layer's support), a first pass over row blocks of the
  adjacency (the two products `adj (x w1)` and `adj T`), and a second pass over the same row blocks that keeps
  `relu (adj (x w1) + b1) w2a` in a scratch buffer filled at its first grid point and ends in a row-wise log-softmax.

  Frames. Each region's body is run symbolically once per control case; the regions are chained through the contents of
  the unscoped buffers at each boundary, and no argument array is ever written. The reference is a straight-line host
  program, whose run gives its frame directly.

  Values, on the extended reals. Every region's output array is one closed function of its input arrays (a row block of
  a matrix product is the product's rows), so the kernel's result is the log-softmax of
  `adj (xl w2a) + adj (xr w2b) + b2`; the reference's is the log-softmax of `adj ([xl | xr] w2) + b2`, and scales the
  right branch as `(r / s) γ` where the kernel has `r (γ / s)`. Both differences vanish on REAL entries — the split of a
  sum of sixteen products into two sums of eight, distributivity of a real factor over a sum, and `r (γ / s) = (r / s) γ`
  for `s ≠ 0` — and every entry in sight is real because the precondition makes every input entry real and sums,
  products, differences and maxima of reals are real.
-/
import proofs.«115251_g55224689492446_cont_9to1_m_1185_2_alg».proof.Defs
import proofs.«115251_g55224689492446_cont_9to1_m_1185_2_alg».proof.Proof.Gen.Kernel
import proofs.«115251_g55224689492446_cont_9to1_m_1185_2_alg».proof.Proof.Gen.Kernel.Skeleton
import proofs.«115251_g55224689492446_cont_9to1_m_1185_2_alg».proof.Proof.Gen.Kernel.Launch
import proofs.«115251_g55224689492446_cont_9to1_m_1185_2_alg».proof.Proof.Gen.Kernel.Regions
import proofs.«115251_g55224689492446_cont_9to1_m_1185_2_alg».proof.Proof.Gen.Kernel.Points
import proofs.«115251_g55224689492446_cont_9to1_m_1185_2_alg».proof.Proof.Gen.KernelIdeal
import proofs.«115251_g55224689492446_cont_9to1_m_1185_2_alg».proof.Proof.Gen.KernelIdeal.Skeleton
import proofs.«115251_g55224689492446_cont_9to1_m_1185_2_alg».proof.Proof.Gen.KernelIdeal.Launch
import proofs.«115251_g55224689492446_cont_9to1_m_1185_2_alg».proof.Proof.Gen.KernelIdeal.Regions
import proofs.«115251_g55224689492446_cont_9to1_m_1185_2_alg».proof.Proof.Gen.KernelIdeal.Points
import proofs.«115251_g55224689492446_cont_9to1_m_1185_2_alg».proof.Proof.Gen.ReferenceIdeal
import proofs.«115251_g55224689492446_cont_9to1_m_1185_2_alg».proof.Proof.Gen.Pre_finite_inputs
import proofs.«115251_g55224689492446_cont_9to1_m_1185_2_alg».proof.Proof.K.Run
import proofs.«115251_g55224689492446_cont_9to1_m_1185_2_alg».proof.Proof.KI.Run
import proofs.«115251_g55224689492446_cont_9to1_m_1185_2_alg».proof.Proof.KI.KRun
import proofs.«115251_g55224689492446_cont_9to1_m_1185_2_alg».proof.Proof.Final
import Idealize.ShloMosaic.Adequacy
import Idealize.ShloMosaic.Init

noncomputable section

namespace Cert.Proof

open Idealize.ShloMosaic Idealize.SL.Sem

/-- The word-level kernel's frame: the run through the three regions at the bit-exact instance. -/
theorem frame_kernel : Cert.frame_Kernel (hKernel := Cert.Kernel.Gen.facts) (hPre_finite_inputs := Cert.Pre_finite_inputs.Gen.facts) :=
  fun m ρ _ => Cert.Kernel.Hand.frame m ρ

/-- The idealized kernel's frame: the same run at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

theorem claim : Cert.Claim := ⟨Cert.Kernel.Gen.facts, Cert.KernelIdeal.Gen.facts, Cert.ReferenceIdeal.Gen.facts, Cert.Pre_finite_inputs.Gen.facts,
  frame_kernel, frame_kernelIdeal, Cert.Final.frame_ref, trivial, Cert.Final.algebraic_of Cert.KernelIdeal.Hand.krun⟩

end Cert.Proof

end
